-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v48)) (v1 : (c : Dev Cert.KernelIdeal.nD) → Buf (Elt Ideal) ((c.tc : Thread Cert.KernelIdeal.nD Cert.KernelIdeal.τ).loc Cert.KernelIdeal.main_v46)) (v2 : (c : Dev Cert.KernelIdeal.nD) → Buf (Elt Ideal) ((c.tc : Thread Cert.KernelIdeal.nD Cert.KernelIdeal.τ).loc Cert.KernelIdeal.main_v47)) (v3 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_v46) = v1 c
          ∧ r.2.mem ((c.tc : Thread Cert.KernelIdeal.nD Cert.KernelIdeal.τ).loc Cert.KernelIdeal.main_v47) = v2 c
          ∧ r.2.mem ((c.tc : Thread Cert.KernelIdeal.nD Cert.KernelIdeal.τ).loc Cert.KernelIdeal.main_v72) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_v80) = v2 c
          ∧ r.2.mem ((c.tc : Thread Cert.ReferenceIdeal.nD Cert.ReferenceIdeal.τ).loc Cert.ReferenceIdeal.main_v119) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S50000x64 : Shape := ⟨2, ![50000, 64]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_

variable [Facts]

def fn_part3 {F : FTy → Type} [FloatOps F] (main_arg12 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  main_v58

def fn_part2 {F : FTy → Type} [FloatOps F] (main_arg8 : FVec F S64 .f32) (main_arg9 : FVec F S64x128 .f32) (main_arg10 : FVec F S128 .f32) (main_arg11 : FVec F S128x128 .f32) (main_arg12 : FVec F S128 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x128 .f32 := Host.absf main_arg9
  let main_cst_14 : FVec F S_ .f32 := constant S_ .f32 0x7F800000#32
  let main_v40 : FVec F S64x128 .f32 := broadcastInDim S64x128 ![] bcast_S_S64x128 main_cst_14
  let main_v41 : IVec S64x128 1 := cmpf .olt main_v39 main_v40
  let main_c_15 : IVec S_ 1 := constantI S_ 1 1#1
  let main_v42 : IVec S_ 1 := (fun x v => Host.reduce IntOp.andi x v reducesTo_S64x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_v48 main_v49 main_v50

def fn_part1 {F : FTy → Type} [FloatOps F] (main_arg5 : FVec F S128x64 .f32) (main_arg6 : FVec F S64 .f32) (main_arg7 : FVec F S128x64 .f32) (main_arg8 : FVec F S64 .f32) (main_arg9 : FVec F S64x128 .f32) (main_arg10 : FVec F S128 .f32) (main_arg11 : FVec F S128x128 .f32) (main_arg12 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S50000x128 .f32) (main_arg1 : IVec S2x1600000 32) (main_arg2 : FVec F S50000x64 .f32) (main_arg3 : FVec F S128x128 .f32) (main_arg4 : FVec F S128 .f32) (main_arg5 : FVec F S128x64 .f32) (main_arg6 : FVec F S64 .f32) (main_arg7 : FVec F S128x64 .f32) (main_arg8 : FVec F S64 .f32) (main_arg9 : FVec F S64x128 .f32) (main_arg10 : FVec F S128 .f32) (main_arg11 : FVec F S128x128 .f32) (main_arg12 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x64 .f32 := Host.absf main_arg2
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_v13 main_v16
-- ==== Kernel.lean ====
abbrev S50000x128 : Shape := ⟨2, ![50000, 128]⟩
abbrev S2x1600000 : Shape := ⟨2, ![2, 1600000]⟩
abbrev S50000x64 : Shape := ⟨2, ![50000, 64]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S50000x1 : Shape := ⟨2, ![50000, 1]⟩
abbrev S1x128 : Shape := ⟨2, ![1, 128]⟩
abbrev S5000x128 : Shape := ⟨2, ![5000, 128]⟩
abbrev S5000x1 : Shape := ⟨2, ![5000, 1]⟩
abbrev S1650000x128 : Shape := ⟨2, ![1650000, 128]⟩
abbrev S5000x64 : Shape := ⟨2, ![5000, 64]⟩

abbrev nBuf : Space → Nat
  | .hbm => 104
  | .vmem => 64
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S50000x64, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S64, .f32⟩
  | .hbm, ⟨9, _⟩ => ⟨S64x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S50000, .i32⟩
  | .hbm, ⟨14, _⟩ => ⟨S1x1600000, .i32⟩
  | .hbm, ⟨15, _⟩ => ⟨S1600000, .i32⟩
  | .hbm, ⟨16, _⟩ => ⟨S1650000, .i32⟩
  | .hbm, ⟨17, _⟩ => ⟨S1x1600000, .i32⟩
  | .hbm, ⟨18, _⟩ => ⟨S1600000, .i32⟩
  | .hbm, ⟨19, _⟩ => ⟨S1650000, .i32⟩
  | .hbm, ⟨20, _⟩ => ⟨S_, .f32⟩
  | .hbm, ⟨21, _⟩ => ⟨S1650000, .f32⟩
  | .hbm, ⟨22, _⟩ => ⟨S_, .f32⟩
  | .hbm, ⟨23, _⟩ => ⟨S50000, .f32⟩
  | .hbm, ⟨24, _⟩ => ⟨S1650000x1, .i32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .i1⟩
  | .hbm, ⟨29, _⟩ => ⟨S50000, .f32⟩
  | .hbm, ⟨30, _⟩ => ⟨S_, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S1x128, .f32⟩
  | .hbm, ⟨36, _⟩ => ⟨S1x128, .f32⟩
  | .hbm, ⟨37, _⟩ => ⟨S1x128, .f32⟩
  | .hbm, ⟨38, _⟩ => ⟨S50000x128, .f32⟩
  | .hbm, ⟨39, _⟩ => ⟨S_, .i32⟩
  | .hbm, ⟨40, _⟩ => ⟨S1650000, .i32⟩
  | .hbm, ⟨41, _⟩ => ⟨S1650000, .i1⟩
  | .hbm, ⟨42, _⟩ => ⟨S_, .i32⟩
  | .hbm, ⟨43, _⟩ => ⟨S1650000, .i32⟩
  | .hbm, ⟨44, _⟩ => ⟨S1650000, .i32⟩
  | .hbm, ⟨45, _⟩ => ⟨S1650000, .i32⟩
  | .hbm, ⟨46, _⟩ => ⟨S1650000x1, .i32⟩
  | .hbm, ⟨47, _⟩ => ⟨S1650000x128, .f32⟩
  | .hbm, ⟨48, _⟩ => ⟨S_, .f32⟩
  | .hbm, ⟨49, _⟩ => ⟨S50000x128, .f32⟩
  | .hbm, ⟨50, _⟩ => ⟨S1650000x1, .i32⟩
  | .hbm, ⟨51, _⟩ => ⟨S50000x128, .f32⟩
  | .hbm, ⟨52, _⟩ => ⟨S50000x128, .f32⟩
  | .hbm, ⟨53, _⟩ => ⟨S128x128, .f32⟩
  | .hbm, ⟨54, _⟩ => ⟨S128, .f32⟩
  | .hbm, ⟨55, _⟩ => ⟨S1x128, .f32⟩
  | .hbm, ⟨56, _⟩ => ⟨S50000x128, .f32⟩
  | .hbm, ⟨57, _⟩ => ⟨S_, .i32⟩
  | .hbm, ⟨58, _⟩ => ⟨S1650000, .i32⟩
  | .hbm, ⟨59, _⟩ => ⟨S1650000, .i1⟩
  | .hbm, ⟨60, _⟩ => ⟨S_, .i32⟩
  | .hbm, ⟨61, _⟩ => ⟨S1650000, .i32⟩
  | .hbm, ⟨62, _⟩ => ⟨S1650000, .i32⟩
  | .hbm, ⟨63, _⟩ => ⟨S1650000, .i32⟩
  | .hbm, ⟨64, _⟩ => ⟨S1650000x1, .i32⟩
  | .hbm, ⟨65, _⟩ => ⟨S1650000x128, .f32⟩
  | .hbm, ⟨66, _⟩ => ⟨S_, .f32⟩
  | .hbm, ⟨67, _⟩ => ⟨S50000x128, .f32⟩
  | .hbm, ⟨68, _⟩ => ⟨S1650000x1, .i32⟩
  | .hbm, ⟨69, _⟩ => ⟨S50000x128, .f32⟩
  | .hbm, ⟨70, _⟩ => ⟨S50000x128, .f32⟩
  | .hbm, ⟨71, _⟩ => ⟨S50000x64, .f32⟩
  | .hbm, ⟨72, _⟩ => ⟨S50000x64, .f32⟩
  | .hbm, ⟨73, _⟩ => ⟨S50000x64, .f32⟩
  | .hbm, ⟨74, _⟩ => ⟨S50000x128, .f32⟩
  | .hbm, ⟨75, _⟩ => ⟨S_, .i32⟩
  | .hbm, ⟨76, _⟩ => ⟨S1650000, .i32⟩
  | .hbm, ⟨77, _⟩ => ⟨S1650000, .i1⟩
  | .hbm, ⟨78, _⟩ => ⟨S_, .i32⟩
  | .hbm, ⟨79, _⟩ => ⟨S1650000, .i32⟩
  | .hbm, ⟨80, _⟩ => ⟨S1650000, .i32⟩
  | .hbm, ⟨81, _⟩ => ⟨S1650000, .i32⟩
  | .hbm, ⟨82, _⟩ => ⟨S1650000x1, .i32⟩
  | .hbm, ⟨83, _⟩ => ⟨S1650000x128, .f32⟩
  | .hbm, ⟨84, _⟩ => ⟨S_, .f32⟩
  | .hbm, ⟨85, _⟩ => ⟨S50000x128, .f32⟩
  | .hbm, ⟨86, _⟩ => ⟨S1650000x1, .i32⟩
  | .hbm, ⟨87, _⟩ => ⟨S50000x128, .f32⟩
  | .hbm, ⟨88, _⟩ => ⟨S50000x128, .f32⟩
  | .hbm, ⟨89, _⟩ => ⟨S50000x128, .f32⟩
  | .hbm, ⟨90, _⟩ => ⟨S_, .i32⟩
  | .hbm, ⟨91, _⟩ => ⟨S1650000, .i32⟩
  | .hbm, ⟨92, _⟩ => ⟨S1650000, .i1⟩
  | .hbm, ⟨93, _⟩ => ⟨S_, .i32⟩
  | .hbm, ⟨94, _⟩ => ⟨S1650000, .i32⟩
  | .hbm, ⟨95, _⟩ => ⟨S1650000, .i32⟩
  | .hbm, ⟨96, _⟩ => ⟨S1650000, .i32⟩
  | .hbm, ⟨97, _⟩ => ⟨S1650000x1, .i32⟩
  | .hbm, ⟨98, _⟩ => ⟨S1650000x128, .f32⟩
  | .hbm, ⟨99, _⟩ => ⟨S_, .f32⟩
  | .hbm, ⟨100, _⟩ => ⟨S50000x128, .f32⟩
  | .hbm, ⟨101, _⟩ => ⟨S1650000x1, .i32⟩
  | .hbm, ⟨102, _⟩ => ⟨S50000x128, .f32⟩
  | .hbm, ⟨103, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x1, .f32⟩
  | .local _ .vmem, ⟨18, _⟩ => ⟨S5000x1, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x1, .f32⟩
  | .local _ .vmem, ⟨24, _⟩ => ⟨S5000x1, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x64, .f32⟩
  | .local _ .vmem, ⟨38, _⟩ => ⟨S64x128, .f32⟩
  | .local _ .vmem, ⟨39, _⟩ => ⟨S5000x1, .f32⟩
  | .local _ .vmem, ⟨40, _⟩ => ⟨S5000x1, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S5000x1, .f32⟩
  | .local _ .vmem, ⟨46, _⟩ => ⟨S5000x1, .f32⟩
  | .local _ .vmem, ⟨47, _⟩ => ⟨S1x128, .f32⟩
  | .local _ .vmem, ⟨48, _⟩ => ⟨S5000x128, .f32⟩
  | .local _ .vmem, ⟨49, _⟩ => ⟨S5000x128, .f32⟩
  | .local _ .vmem, ⟨50, _⟩ => ⟨S5000x128, .f32⟩
  | .local _ .vmem, ⟨51, _⟩ => ⟨S5000x128, .f32⟩
  | .local _ .vmem, ⟨52, _⟩ => ⟨S128x128, .f32⟩
  | .local _ .vmem, ⟨53, _⟩ => ⟨S5000x1, .f32⟩
  | .local _ .vmem, ⟨54, _⟩ => ⟨S5000x1, .f32⟩
  | .local _ .vmem, ⟨55, _⟩ => ⟨S5000x128, .f32⟩
  | .local _ .vmem, ⟨56, _⟩ => ⟨S5000x128, .f32⟩
  | .local _ .vmem, ⟨57, _⟩ => ⟨S5000x128, .f32⟩
  | .local _ .vmem, ⟨58, _⟩ => ⟨S5000x128, .f32⟩
  | .local _ .vmem, ⟨59, _⟩ => ⟨S5000x1, .f32⟩
  | .local _ .vmem, ⟨60, _⟩ => ⟨S5000x1, .f32⟩
  | .local _ .vmem, ⟨61, _⟩ => ⟨S1x128, .f32⟩
  | .local _ .vmem, ⟨62, _⟩ => ⟨S5000x128, .f32⟩
  | .local _ .vmem, ⟨63, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_c : Ref sig .tc := ⟨.hbm, 39, rfl⟩
abbrev main_v20 : Ref sig .tc := ⟨.hbm, 40, rfl⟩
abbrev main_v21 : Ref sig .tc := ⟨.hbm, 41, rfl⟩
abbrev main_c_3 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_4 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c_5 : Ref sig .tc := ⟨.hbm, 57, rfl⟩
abbrev main_v35 : Ref sig .tc := ⟨.hbm, 58, rfl⟩
abbrev main_v36 : Ref sig .tc := ⟨.hbm, 59, rfl⟩
abbrev main_c_6 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_7 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_c_8 : Ref sig .tc := ⟨.hbm, 75, rfl⟩
abbrev main_v50 : Ref sig .tc := ⟨.hbm, 76, rfl⟩
abbrev main_v51 : Ref sig .tc := ⟨.hbm, 77, rfl⟩
abbrev main_c_9 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_10 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_c_11 : Ref sig .tc := ⟨.hbm, 90, rfl⟩
abbrev main_v62 : Ref sig .tc := ⟨.hbm, 91, rfl⟩
abbrev main_v63 : Ref sig .tc := ⟨.hbm, 92, rfl⟩
abbrev main_c_12 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_13 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc4_stg3_0 : Ref sig .tc := ⟨.vmem, 34, rfl⟩
abbrev cc4_stg3_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg2_0 : Ref sig .tc := ⟨.vmem, 39, rfl⟩
abbrev cc5_stg2_1 : Ref sig .tc := ⟨.vmem, 40, rfl⟩
abbrev cc5_stg3_0 : Ref sig .tc := ⟨.vmem, 41, rfl⟩
abbrev cc5_stg3_1 : Ref sig .tc := ⟨.vmem, 42, rfl⟩
abbrev cc6_stg0_0 : Ref sig .tc := ⟨.vmem, 43, rfl⟩
abbrev cc6_stg0_1 : Ref sig .tc := ⟨.vmem, 44, rfl⟩
abbrev cc6_stg1_0 : Ref sig .tc := ⟨.vmem, 45, rfl⟩
abbrev cc6_stg1_1 : Ref sig .tc := ⟨.vmem, 46, rfl⟩
abbrev cc6_stg2_0 : Ref sig .tc := ⟨.vmem, 47, rfl⟩
abbrev cc6_stg3_0 : Ref sig .tc := ⟨.vmem, 48, rfl⟩
abbrev cc6_stg3_1 : Ref sig .tc := ⟨.vmem, 49, rfl⟩
abbrev cc7_stg0_0 : Ref sig .tc := ⟨.vmem, 50, rfl⟩
abbrev cc7_stg0_1 : Ref sig .tc := ⟨.vmem, 51, rfl⟩
abbrev cc7_stg1_0 : Ref sig .tc := ⟨.vmem, 52, rfl⟩
abbrev cc7_stg2_0 : Ref sig .tc := ⟨.vmem, 53, rfl⟩
abbrev cc7_stg2_1 : Ref sig .tc := ⟨.vmem, 54, rfl⟩
abbrev cc7_stg3_0 : Ref sig .tc := ⟨.vmem, 55, rfl⟩
abbrev cc7_stg3_1 : Ref sig .tc := ⟨.vmem, 56, rfl⟩
abbrev cc8_stg0_0 : Ref sig .tc := ⟨.vmem, 57, rfl⟩
abbrev cc8_stg0_1 : Ref sig .tc := ⟨.vmem, 58, rfl⟩
abbrev cc8_stg1_0 : Ref sig .tc := ⟨.vmem, 59, rfl⟩
abbrev cc8_stg1_1 : Ref sig .tc := ⟨.vmem, 60, rfl⟩
abbrev cc8_stg2_0 : Ref sig .tc := ⟨.vmem, 61, rfl⟩
abbrev cc8_stg3_0 : Ref sig .tc := ⟨.vmem, 62, rfl⟩
abbrev cc8_stg3_1 : Ref sig .tc := ⟨.vmem, 63, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33
abbrev cc4_sem3_0 : DmaSem sig := 34
abbrev cc4_sem3_1 : DmaSem sig := 35
abbrev cc5_sem0_0 : DmaSem sig := 36
abbrev cc5_sem0_1 : DmaSem sig := 37
abbrev cc5_sem1_0 : DmaSem sig := 38
abbrev cc5_sem2_0 : DmaSem sig := 39
abbrev cc5_sem2_1 : DmaSem sig := 40
abbrev cc5_sem3_0 : DmaSem sig := 41
abbrev cc5_sem3_1 : DmaSem sig := 42
abbrev cc6_sem0_0 : DmaSem sig := 43
abbrev cc6_sem0_1 : DmaSem sig := 44
abbrev cc6_sem1_0 : DmaSem sig := 45
abbrev cc6_sem1_1 : DmaSem sig := 46
abbrev cc6_sem2_0 : DmaSem sig := 47
abbrev cc6_sem3_0 : DmaSem sig := 48
abbrev cc6_sem3_1 : DmaSem sig := 49
abbrev cc7_sem0_0 : DmaSem sig := 50
abbrev cc7_sem0_1 : DmaSem sig := 51
abbrev cc7_sem1_0 : DmaSem sig := 52
abbrev cc7_sem2_0 : DmaSem sig := 53
abbrev cc7_sem2_1 : DmaSem sig := 54
abbrev cc7_sem3_0 : DmaSem sig := 55
abbrev cc7_sem3_1 : DmaSem sig := 56
abbrev cc8_sem0_0 : DmaSem sig := 57
abbrev cc8_sem0_1 : DmaSem sig := 58
abbrev cc8_sem1_0 : DmaSem sig := 59
abbrev cc8_sem1_1 : DmaSem sig := 60
abbrev cc8_sem2_0 : DmaSem sig := 61
abbrev cc8_sem3_0 : DmaSem sig := 62
abbrev cc8_sem3_1 : DmaSem sig := 63

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S5000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S5000x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x1 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S5000x128 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S50000_S50000x1_0 : S50000.BroadcastsInDim S50000x1 (![0] : Fin 1 → Fin S50000x1.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S50000x128 : S_.BroadcastsInDim S50000x128 (![] : Fin 0 → Fin S50000x128.rank)
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  concatenates_S128x64_S128x64_S128x128_d1 : Shape.Concatenates [S128x64, S128x64] S128x128 1
  concatenates_S64_S64_S128_d0 : Shape.Concatenates [S64, S64] S128 0
  shapeCasts_S128x128_S128x128 : S128x128.ShapeCasts S128x128
  slices_S50000x128_S50000x64_0_0 : S50000x128.Slices ![0, 0] S50000x64
  slices_S50000x128_S50000x64_0_64 : S50000x128.Slices ![0, 64] S50000x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S5000x1_S5000x64 : S5000x1.Broadcasts S5000x64
  inb_S64x128_S64x128_0_0 : ∀ a, (![0, 0] : Fin 2 → Nat) a + S64x128.size a ≤ S64x128.size a
  h_S64x128 : 0 < S64x128.numel
  scatter_S50000_S1650000x1_S1650000_n_0_0_1_wf : ScatterDims.WF S50000 S1650000x1 S1650000 [] [0] [0] 1
  dot_S5000x128_S128x128_S5000x128_1_0_0_1_n_n_wf : DotDims.WF S5000x128 S128x128 S5000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S5000x64_S64x128_S5000x128_1_0_0_1_n_n_wf : DotDims.WF S5000x64 S64x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S50000x64.size a
  hwx4_1 : ∀ i : grid4.Coords, EltTy.bits .f32 = 32 ∨ (Rect.block (s := S50000x64) S5000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S50000x64.size a
  hwx4_2 : ∀ i : grid4.Coords, EltTy.bits .f32 = 32 ∨ (Rect.block (s := S50000x64) S5000x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S50000x64.size a
  hwx4_3 : ∀ i : grid4.Coords, EltTy.bits .f32 = 32 ∨ (Rect.block (s := S50000x64) S5000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x128.size a ≤ S64x128.size a
  hwx5_1 : ∀ i : grid5.Coords, EltTy.bits .f32 = 32 ∨ (Rect.block (s := S64x128) S64x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S50000x1.size a
  hwx5_2 : ∀ i : grid5.Coords, EltTy.bits .f32 = 32 ∨ (Rect.block (s := S50000x1) S5000x1.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S50000x128.size a
  hwx5_3 : ∀ i : grid5.Coords, EltTy.bits .f32 = 32 ∨ (Rect.block (s := S50000x128) S5000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x1.size a ≤ S50000x1.size a
  hwx6_1 : ∀ i : grid6.Coords, EltTy.bits .f32 = 32 ∨ (Rect.block (s := S50000x1) S5000x1.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x128.size a ≤ S50000x128.size a
  hwx6_3 : ∀ i : grid6.Coords, EltTy.bits .f32 = 32 ∨ (Rect.block (s := S50000x128) S5000x128.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x128.size a ≤ S128x128.size a
  hwx7_1 : ∀ i : grid7.Coords, EltTy.bits .f32 = 32 ∨ (Rect.block (s := S128x128) S128x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x1.size a ≤ S50000x1.size a
  hwx7_2 : ∀ i : grid7.Coords, EltTy.bits .f32 = 32 ∨ (Rect.block (s := S50000x1) S5000x1.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x128.size a ≤ S50000x128.size a
  hwx7_3 : ∀ i : grid7.Coords, EltTy.bits .f32 = 32 ∨ (Rect.block (s := S50000x128) S5000x128.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S50000x128.size a
  hwx8_0 : ∀ i : grid8.Coords, EltTy.bits .f32 = 32 ∨ (Rect.block (s := S50000x128) S5000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x1.size a ≤ S50000x1.size a
  hwx8_1 : ∀ i : grid8.Coords, EltTy.bits .f32 = 32 ∨ (Rect.block (s := S50000x1) S5000x1.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S5000x128.size a ≤ S50000x128.size a
  hwx8_3 : ∀ i : grid8.Coords, EltTy.bits .f32 = 32 ∨ (Rect.block (s := S50000x128) S5000x128.size (cc8_transform_3 i) (hinb8_3 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v29) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v30) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v15) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v34) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v44) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v33) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v45) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_arg2) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v46) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v47) S5000x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v48) S5000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v48) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg9) S64x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v15) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v49) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v59) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v15) S5000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v17) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v60) S5000x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v60) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg11) S128x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v15) S5000x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v61) S5000x128.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v71) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v15) S5000x1.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v18) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v72) S5000x128.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S50000x64 : Shape := ⟨2, ![50000, 64]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S1650000x128 : Shape := ⟨2, ![1650000, 128]⟩
abbrev S1x128 : Shape := ⟨2, ![1, 128]⟩
abbrev S1650000x64 : Shape := ⟨2, ![1650000, 64]⟩
abbrev S1x64 : Shape := ⟨2, ![1, 64]⟩

abbrev nBuf : Space → Nat
  | .hbm => 159
  | .vmem => 0
  | .smem => 0
  | _ => 0

abbrev hbmTy0_0 (i : Nat) : BufTy := match i % 128 with
  | 0 => ⟨S50000x128, .f32⟩
  | 1 => ⟨S2x1600000, .i32⟩
  | 2 => ⟨S50000x64, .f32⟩
  | 3 => ⟨S128x128, .f32⟩
  | 4 => ⟨S128, .f32⟩
  | 5 => ⟨S128x64, .f32⟩
  | 6 => ⟨S64, .f32⟩
  | 7 => ⟨S128x64, .f32⟩
  | 8 => ⟨S64, .f32⟩
  | 9 => ⟨S64x128, .f32⟩
  | 10 => ⟨S128, .f32⟩
  | 11 => ⟨S128x128, .f32⟩
  | 12 => ⟨S128, .f32⟩
  | 13 => ⟨S50000, .i32⟩
  | 14 => ⟨S1x1600000, .i32⟩
  | 15 => ⟨S1600000, .i32⟩
  | 16 => ⟨S1650000, .i32⟩
  | 17 => ⟨S1x1600000, .i32⟩
  | 18 => ⟨S1600000, .i32⟩
  | 19 => ⟨S1650000, .i32⟩
  | 20 => ⟨S_, .f32⟩
  | 21 => ⟨S1650000, .f32⟩
  | 22 => ⟨S_, .f32⟩
  | 23 => ⟨S50000, .f32⟩
  | 24 => ⟨S1650000x1, .i32⟩
  | 25 => ⟨S50000, .f32⟩
  | 26 => ⟨S_, .f32⟩
  | 27 => ⟨S50000, .f32⟩
  | 28 => ⟨S50000, .i1⟩
  | 29 => ⟨S50000, .f32⟩
  | 30 => ⟨S_, .f32⟩
  | 31 => ⟨S_, .f32⟩
  | 32 => ⟨S50000, .f32⟩
  | 33 => ⟨S50000, .f32⟩
  | 34 => ⟨S_, .i32⟩
  | 35 => ⟨S1650000, .i32⟩
  | 36 => ⟨S1650000, .i1⟩
  | 37 => ⟨S_, .i32⟩
  | 38 => ⟨S1650000, .i32⟩
  | 39 => ⟨S1650000, .i32⟩
  | 40 => ⟨S1650000, .i32⟩
  | 41 => ⟨S1650000x1, .i32⟩
  | 42 => ⟨S1650000, .f32⟩
  | 43 => ⟨S_, .i32⟩
  | 44 => ⟨S1650000, .i32⟩
  | 45 => ⟨S1650000, .i1⟩
  | 46 => ⟨S_, .i32⟩
  | 47 => ⟨S1650000, .i32⟩
  | 48 => ⟨S1650000, .i32⟩
  | 49 => ⟨S1650000, .i32⟩
  | 50 => ⟨S1650000x1, .i32⟩
  | 51 => ⟨S1650000, .f32⟩
  | 52 => ⟨S1650000, .f32⟩
  | 53 => ⟨S50000x128, .f32⟩
  | 54 => ⟨S_, .i32⟩
  | 55 => ⟨S1650000, .i32⟩
  | 56 => ⟨S1650000, .i1⟩
  | 57 => ⟨S_, .i32⟩
  | 58 => ⟨S1650000, .i32⟩
  | 59 => ⟨S1650000, .i32⟩
  | 60 => ⟨S1650000, .i32⟩
  | 61 => ⟨S1650000x1, .i32⟩
  | 62 => ⟨S1650000x128, .f32⟩
  | 63 => ⟨S1650000x1, .f32⟩
  | 64 => ⟨S1650000x128, .f32⟩
  | 65 => ⟨S1650000x128, .f32⟩
  | 66 => ⟨S_, .f32⟩
  | 67 => ⟨S50000x128, .f32⟩
  | 68 => ⟨S1650000x1, .i32⟩
  | 69 => ⟨S50000x128, .f32⟩
  | 70 => ⟨S1x128, .f32⟩
  | 71 => ⟨S50000x128, .f32⟩
  | 72 => ⟨S50000x128, .f32⟩
  | 73 => ⟨S50000x64, .f32⟩
  | 74 => ⟨S_, .i32⟩
  | 75 => ⟨S1650000, .i32⟩
  | 76 => ⟨S1650000, .i1⟩
  | 77 => ⟨S_, .i32⟩
  | 78 => ⟨S1650000, .i32⟩
  | 79 => ⟨S1650000, .i32⟩
  | 80 => ⟨S1650000, .i32⟩
  | 81 => ⟨S1650000x1, .i32⟩
  | 82 => ⟨S1650000x64, .f32⟩
  | 83 => ⟨S1650000x1, .f32⟩
  | 84 => ⟨S1650000x64, .f32⟩
  | 85 => ⟨S1650000x64, .f32⟩
  | 86 => ⟨S_, .f32⟩
  | 87 => ⟨S50000x64, .f32⟩
  | 88 => ⟨S1650000x1, .i32⟩
  | 89 => ⟨S50000x64, .f32⟩
  | 90 => ⟨S1x64, .f32⟩
  | 91 => ⟨S50000x64, .f32⟩
  | 92 => ⟨S50000x64, .f32⟩
  | 93 => ⟨S50000x64, .f32⟩
  | 94 => ⟨S_, .i32⟩
  | 95 => ⟨S1650000, .i32⟩
  | 96 => ⟨S1650000, .i1⟩
  | 97 => ⟨S_, .i32⟩
  | 98 => ⟨S1650000, .i32⟩
  | 99 => ⟨S1650000, .i32⟩
  | 100 => ⟨S1650000, .i32⟩
  | 101 => ⟨S1650000x1, .i32⟩
  | 102 => ⟨S1650000x64, .f32⟩
  | 103 => ⟨S1650000x1, .f32⟩
  | 104 => ⟨S1650000x64, .f32⟩
  | 105 => ⟨S1650000x64, .f32⟩
  | 106 => ⟨S_, .f32⟩
  | 107 => ⟨S50000x64, .f32⟩
  | 108 => ⟨S1650000x1, .i32⟩
  | 109 => ⟨S50000x64, .f32⟩
  | 110 => ⟨S1x64, .f32⟩
  | 111 => ⟨S50000x64, .f32⟩
  | 112 => ⟨S50000x64, .f32⟩
  | 113 => ⟨S_, .f32⟩
  | 114 => ⟨S50000x64, .f32⟩
  | 115 => ⟨S50000x64, .f32⟩
  | 116 => ⟨S50000x64, .f32⟩
  | 117 => ⟨S50000x64, .f32⟩
  | 118 => ⟨S50000x64, .f32⟩
  | 119 => ⟨S50000x128, .f32⟩
  | 120 => ⟨S_, .i32⟩
  | 121 => ⟨S1650000, .i32⟩
  | 122 => ⟨S1650000, .i1⟩
  | 123 => ⟨S_, .i32⟩
  | 124 => ⟨S1650000, .i32⟩
  | 125 => ⟨S1650000, .i32⟩
  | 126 => ⟨S1650000, .i32⟩
  | 127 => ⟨S1650000x1, .i32⟩
  | _ => ⟨S50000x128, .f32⟩

abbrev hbmTy0_1 (i : Nat) : BufTy := match i % 128 with
  | 0 => ⟨S1650000x128, .f32⟩
  | 1 => ⟨S1650000x1, .f32⟩
  | 2 => ⟨S1650000x128, .f32⟩
  | 3 => ⟨S1650000x128, .f32⟩
  | 4 => ⟨S_, .f32⟩
  | 5 => ⟨S50000x128, .f32⟩
  | 6 => ⟨S1650000x1, .i32⟩
  | 7 => ⟨S50000x128, .f32⟩
  | 8 => ⟨S1x128, .f32⟩
  | 9 => ⟨S50000x128, .f32⟩
  | 10 => ⟨S50000x128, .f32⟩
  | 11 => ⟨S50000x128, .f32⟩
  | 12 => ⟨S_, .i32⟩
  | 13 => ⟨S1650000, .i32⟩
  | 14 => ⟨S1650000, .i1⟩
  | 15 => ⟨S_, .i32⟩
  | 16 => ⟨S1650000, .i32⟩
  | 17 => ⟨S1650000, .i32⟩
  | 18 => ⟨S1650000, .i32⟩
  | 19 => ⟨S1650000x1, .i32⟩
  | 20 => ⟨S1650000x128, .f32⟩
  | 21 => ⟨S1650000x1, .f32⟩
  | 22 => ⟨S1650000x128, .f32⟩
  | 23 => ⟨S1650000x128, .f32⟩
  | 24 => ⟨S_, .f32⟩
  | 25 => ⟨S50000x128, .f32⟩
  | 26 => ⟨S1650000x1, .i32⟩
  | 27 => ⟨S50000x128, .f32⟩
  | 28 => ⟨S1x128, .f32⟩
  | 29 => ⟨S50000x128, .f32⟩
  | 30 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_6 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_c_9 : Ref sig .tc := ⟨.hbm, 74, rfl⟩
abbrev main_v48 : Ref sig .tc := ⟨.hbm, 75, rfl⟩
abbrev main_v49 : Ref sig .tc := ⟨.hbm, 76, rfl⟩
abbrev main_c_10 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_11 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_c_12 : Ref sig .tc := ⟨.hbm, 94, rfl⟩
abbrev main_v65 : Ref sig .tc := ⟨.hbm, 95, rfl⟩
abbrev main_v66 : Ref sig .tc := ⟨.hbm, 96, rfl⟩
abbrev main_c_13 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_14 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_cst_15 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_c_16 : Ref sig .tc := ⟨.hbm, 120, rfl⟩
abbrev main_v87 : Ref sig .tc := ⟨.hbm, 121, rfl⟩
abbrev main_v88 : Ref sig .tc := ⟨.hbm, 122, rfl⟩
abbrev main_c_17 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_cst_18 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_c_19 : Ref sig .tc := ⟨.hbm, 140, rfl⟩
abbrev main_v104 : Ref sig .tc := ⟨.hbm, 141, rfl⟩
abbrev main_v105 : Ref sig .tc := ⟨.hbm, 142, rfl⟩
abbrev main_c_20 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_cst_21 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S50000x128_S128x128_S50000x128_1_0_0_1_n_n_wf : DotDims.WF S50000x128 S128x128 S50000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S50000x128_S128x64_S50000x64_1_0_0_1_n_n_wf : DotDims.WF S50000x128 S128x64 S50000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  dot_S50000x64_S64x128_S50000x128_1_0_0_1_n_n_wf : DotDims.WF S50000x64 S64x128 S50000x128 [1] [0] [0] [1] [] []

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf

class Facts : Prop extends Facts₀ where

variable [Facts]
-- ==== Proof.KRun.lean ====
/-
  The idealized kernel program's run with its four result arrays named: every weakly fair execution terminates, nothing
  faulting, with each result buffer at the contents the last segment boundary gives it and the arguments as launched.
-/
import proofs.«100823_j26800595927067_2_alg».proof.Proof.Gen.KernelIdeal.Frame

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_named : θ_run defs (onTc (τ := τ) (main (F := F))) ⟨m, fun _ => 0, ρ⟩ (fun r => ∀ c : Dev nD,
      r.2.mem ((c.tc : Thread nD τ).loc main_v48) = W18 m ρ c (Proc.devRef .tc main_v48)
      ∧ r.2.mem ((c.tc : Thread nD τ).loc main_v46) = W18 m ρ c (Proc.devRef .tc main_v46)
      ∧ r.2.mem ((c.tc : Thread nD τ).loc main_v47) = W18 m ρ c (Proc.devRef .tc main_v47)
      ∧ r.2.mem ((c.tc : Thread nD τ).loc main_v72) = W18 m ρ c (Proc.devRef .tc main_v72)
      ∧       r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v48 (by decide)), h c _ (mem_uc main_v46 (by decide)), h c _ (mem_uc main_v47 (by decide)), h c _ (mem_uc main_v72 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c),
       (h c _ (mem_uc main_arg8 (by decide))).trans (W18_main_arg8 m ρ c),
       (h c _ (mem_uc main_arg9 (by decide))).trans (W18_main_arg9 m ρ c),
       (h c _ (mem_uc main_arg10 (by decide))).trans (W18_main_arg10 m ρ c),
       (h c _ (mem_uc main_arg11 (by decide))).trans (W18_main_arg11 m ρ c),
       (h c _ (mem_uc main_arg12 (by decide))).trans (W18_main_arg12 m ρ c)⟩)

end Cert.KernelIdeal.Gen

end
-- ==== Proof.KRegDefs.lean ====
/-
  What the three kinds of kernel call compute as whole arrays, index by index on the extended reals.
-/
import Idealize.ShloMosaic.Lib.ValueIdx
import Idealize.ShloMosaic.PureOps.Ideal

noncomputable section

namespace Cert.KernelIdeal.Regions

open Idealize.ShloMosaic Idealize.ShloMosaic.ValueIdx

theorem hz : (![0, 0] : Fin 2 → Nat) = fun _ => 0 := funext fun a => by fin_cases a <;> rfl

/-- The row-scaled product: entry (r, j) is ∑ₖ (x[r, k] · d[r]) · w[k, j]. -/
def linG {K : ℕ} (x : (⟨2, ![50000, K]⟩ : Shape).Idx → EReal) (w : (⟨2, ![K, 128]⟩ : Shape).Idx → EReal)
    (d : (⟨2, ![50000, 1]⟩ : Shape).Idx → EReal) : (⟨2, ![50000, 128]⟩ : Shape).Idx → EReal :=
  fun y => ∑ k : Fin K, (x (ix2 (y 0) k) * d (ix2 (y 0) (0 : Fin 1))) * w (ix2 k (y 1))

/-- The post-scale and bias: entry (r, j) is a[r, j] · d[r] + b[0, j]. -/
def epiG (a : (⟨2, ![50000, 128]⟩ : Shape).Idx → EReal) (d : (⟨2, ![50000, 1]⟩ : Shape).Idx → EReal)
    (b : (⟨2, ![1, 128]⟩ : Shape).Idx → EReal) : (⟨2, ![50000, 128]⟩ : Shape).Idx → EReal :=
  fun y => a (ix2 (y 0) (y 1)) * d (ix2 (y 0) (0 : Fin 1)) + b (ix2 (0 : Fin 1) (y 1))

/-- The reparameterization: entry y is x[y] · exp(½ · l[y]) + μ[y]. -/
def repG (x l mu : (⟨2, ![50000, 64]⟩ : Shape).Idx → EReal) : (⟨2, ![50000, 64]⟩ : Shape).Idx → EReal :=
  fun y => x y * Ideal.exp (Ideal.ofBits .f32 0x3F000000#32 * l y) + mu y

end Cert.KernelIdeal.Regions

end
-- ==== Proof.KPay.lean ====
/-
  The kernel bodies read at an index, on the extended reals: the row-scaled matrix product of the four linear
  calls, the post-scale-and-bias of the four epilogue calls, and the reparameterization x · exp(½ · l) + μ.
-/
import proofs.«100823_j26800595927067_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Idealize.ShloMosaic Idealize.ShloMosaic.ValueIdx Cert.KernelIdeal Cert.KernelIdeal.Gen

/-- A column [a, 1] broadcast along the second axis to [a, b], read at (p, c): the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    by_cases h1 : a = 1
    · rw [if_pos h1]; have := p.isLt; omega
    · rw [if_neg h1]
  | ⟨1, _⟩ => rfl

theorem lhs0_a (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem rhs1_a (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

theorem lhs0_b (i : S5000x128.Idx) (q : dot_S5000x64_S64x128_S5000x128_1_0_0_1_n_n.contr.Idx) : (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
theorem rhs1_b (i : S5000x128.Idx) (q : dot_S5000x64_S64x128_S5000x128_1_0_0_1_n_n.contr.Idx) : (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

/-- The row-scaled product body: entry (p, q) of the block is the sum over the contracted axis of
    (x[p, k] · d[p]) · w[k, q] — the zero accumulator contributes nothing, the narrowing casts are the identity on
    the extended reals, and the column d is broadcast along the lanes. -/
theorem k0_pay1_apply (x0 : Vec Ideal S5000x128 .f32) (x2 : Vec Ideal S5000x1 .f32) (x1 : Vec Ideal S128x128 .f32)
    (p : Fin 5000) (q : Fin 128) :
    k0_pay1 (F := Ideal) x0 x2 x1 (ix2 p q) = ∑ k : Fin 128, (x0 (ix2 p k) * x2 (ix2 p (0 : Fin 1))) * x1 (ix2 k q) := by
  unfold k0_pay1
  refine (Ideal.matmul_constant_zero_apply dot_S5000x128_S128x128_S5000x128_1_0_0_1_n_n none _ _ (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs0_a _ _
    | ⟨1, _⟩ => exact (dot_S5000x128_S128x128_S5000x128_1_0_0_1_n_n.lhsIdx_val_of_single rfl _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (dot_S5000x128_S128x128_S5000x128_1_0_0_1_n_n.rhsIdx_val_of_single rfl _ _).trans hk
    | ⟨1, _⟩ => exact rhs1_a _ _)
  rw [el, er]
  simp only [shapeCast_self, truncf_apply, mulf_apply]
  rw [broadcastTo_a1_ab_apply]

/-- The row-scaled product body: entry (p, q) of the block is the sum over the contracted axis of
    (x[p, k] · d[p]) · w[k, q] — the zero accumulator contributes nothing, the narrowing casts are the identity on
    the extended reals, and the column d is broadcast along the lanes. -/
theorem k2_pay1_apply (x0 : Vec Ideal S5000x128 .f32) (x2 : Vec Ideal S5000x1 .f32) (x1 : Vec Ideal S128x128 .f32)
    (p : Fin 5000) (q : Fin 128) :
    k2_pay1 (F := Ideal) x0 x2 x1 (ix2 p q) = ∑ k : Fin 128, (x0 (ix2 p k) * x2 (ix2 p (0 : Fin 1))) * x1 (ix2 k q) := by
  unfold k2_pay1
  refine (Ideal.matmul_constant_zero_apply dot_S5000x128_S128x128_S5000x128_1_0_0_1_n_n none _ _ (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs0_a _ _
    | ⟨1, _⟩ => exact (dot_S5000x128_S128x128_S5000x128_1_0_0_1_n_n.lhsIdx_val_of_single rfl _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (dot_S5000x128_S128x128_S5000x128_1_0_0_1_n_n.rhsIdx_val_of_single rfl _ _).trans hk
    | ⟨1, _⟩ => exact rhs1_a _ _)
  rw [el, er]
  simp only [shapeCast_self, truncf_apply, mulf_apply]
  rw [broadcastTo_a1_ab_apply]

/-- The row-scaled product body: entry (p, q) of the block is the sum over the contracted axis of
    (x[p, k] · d[p]) · w[k, q] — the zero accumulator contributes nothing, the narrowing casts are the identity on
    the extended reals, and the column d is broadcast along the lanes. -/
theorem k5_pay1_apply (x0 : Vec Ideal S5000x64 .f32) (x2 : Vec Ideal S5000x1 .f32) (x1 : Vec Ideal S64x128 .f32)
    (p : Fin 5000) (q : Fin 128) :
    k5_pay1 (F := Ideal) x0 x2 x1 (ix2 p q) = ∑ k : Fin 64, (x0 (ix2 p k) * x2 (ix2 p (0 : Fin 1))) * x1 (ix2 k q) := by
  unfold k5_pay1
  refine (Ideal.matmul_constant_zero_apply dot_S5000x64_S64x128_S5000x128_1_0_0_1_n_n none _ _ (ix2 p q)).trans ?_
  rw [← Equiv.sum_comp (contrEquiv1 dot_S5000x64_S64x128_S5000x128_1_0_0_1_n_n 64 rfl rfl).symm]
  refine Finset.sum_congr rfl fun k _ => ?_
  have hk := contrEquiv1_symm_val dot_S5000x64_S64x128_S5000x128_1_0_0_1_n_n 64 rfl rfl k
  have el : dot_S5000x64_S64x128_S5000x128_1_0_0_1_n_n.lhsIdx (ix2 p q) ((contrEquiv1 dot_S5000x64_S64x128_S5000x128_1_0_0_1_n_n 64 rfl rfl).symm k) = ix2 p k := funext fun a => Fin.ext (by
    match a with
    | ⟨0, _⟩ => exact lhs0_b _ _
    | ⟨1, _⟩ => exact (dot_S5000x64_S64x128_S5000x128_1_0_0_1_n_n.lhsIdx_val_of_single rfl _ _).trans hk)
  have er : dot_S5000x64_S64x128_S5000x128_1_0_0_1_n_n.rhsIdx (ix2 p q) ((contrEquiv1 dot_S5000x64_S64x128_S5000x128_1_0_0_1_n_n 64 rfl rfl).symm k) = ix2 k q := funext fun a => Fin.ext (by
    match a with
    | ⟨0, _⟩ => exact (dot_S5000x64_S64x128_S5000x128_1_0_0_1_n_n.rhsIdx_val_of_single rfl _ _).trans hk
    | ⟨1, _⟩ => exact rhs1_b _ _)
  rw [el, er]
  simp only [shapeCast_self, truncf_apply, mulf_apply]
  rw [broadcastTo_a1_ab_apply]

/-- The row-scaled product body: entry (p, q) of the block is the sum over the contracted axis of
    (x[p, k] · d[p]) · w[k, q] — the zero accumulator contributes nothing, the narrowing casts are the identity on
    the extended reals, and the column d is broadcast along the lanes. -/
theorem k7_pay1_apply (x0 : Vec Ideal S5000x128 .f32) (x2 : Vec Ideal S5000x1 .f32) (x1 : Vec Ideal S128x128 .f32)
    (p : Fin 5000) (q : Fin 128) :
    k7_pay1 (F := Ideal) x0 x2 x1 (ix2 p q) = ∑ k : Fin 128, (x0 (ix2 p k) * x2 (ix2 p (0 : Fin 1))) * x1 (ix2 k q) := by
  unfold k7_pay1
  refine (Ideal.matmul_constant_zero_apply dot_S5000x128_S128x128_S5000x128_1_0_0_1_n_n none _ _ (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs0_a _ _
    | ⟨1, _⟩ => exact (dot_S5000x128_S128x128_S5000x128_1_0_0_1_n_n.lhsIdx_val_of_single rfl _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (dot_S5000x128_S128x128_S5000x128_1_0_0_1_n_n.rhsIdx_val_of_single rfl _ _).trans hk
    | ⟨1, _⟩ => exact rhs1_a _ _)
  rw [el, er]
  simp only [shapeCast_self, truncf_apply, mulf_apply]
  rw [broadcastTo_a1_ab_apply]

/-- The post-scale and bias body: entry (p, q) is a[p, q] · d[p] + b[0, q]. -/
theorem k1_pay1_apply (x0 : Vec Ideal S5000x128 .f32) (x2 : Vec Ideal S5000x1 .f32) (x6 : Vec Ideal S1x128 .f32)
    (p : Fin 5000) (q : Fin 128) :
    k1_pay1 (F := Ideal) x0 x2 x6 (ix2 p q) = x0 (ix2 p q) * x2 (ix2 p (0 : Fin 1)) + x6 (ix2 (0 : Fin 1) q) := by
  unfold k1_pay1
  simp only [shapeCast_self, addf_apply, mulf_apply]
  rw [broadcastTo_a1_ab_apply, broadcastTo_1b_ab_apply]

/-- The post-scale and bias body: entry (p, q) is a[p, q] · d[p] + b[0, q]. -/
theorem k3_pay1_apply (x0 : Vec Ideal S5000x128 .f32) (x2 : Vec Ideal S5000x1 .f32) (x6 : Vec Ideal S1x128 .f32)
    (p : Fin 5000) (q : Fin 128) :
    k3_pay1 (F := Ideal) x0 x2 x6 (ix2 p q) = x0 (ix2 p q) * x2 (ix2 p (0 : Fin 1)) + x6 (ix2 (0 : Fin 1) q) := by
  unfold k3_pay1
  simp only [shapeCast_self, addf_apply, mulf_apply]
  rw [broadcastTo_a1_ab_apply, broadcastTo_1b_ab_apply]

/-- The post-scale and bias body: entry (p, q) is a[p, q] · d[p] + b[0, q]. -/
theorem k6_pay1_apply (x0 : Vec Ideal S5000x128 .f32) (x2 : Vec Ideal S5000x1 .f32) (x6 : Vec Ideal S1x128 .f32)
    (p : Fin 5000) (q : Fin 128) :
    k6_pay1 (F := Ideal) x0 x2 x6 (ix2 p q) = x0 (ix2 p q) * x2 (ix2 p (0 : Fin 1)) + x6 (ix2 (0 : Fin 1) q) := by
  unfold k6_pay1
  simp only [shapeCast_self, addf_apply, mulf_apply]
  rw [broadcastTo_a1_ab_apply, broadcastTo_1b_ab_apply]

/-- The post-scale and bias body: entry (p, q) is a[p, q] · d[p] + b[0, q]. -/
theorem k8_pay1_apply (x0 : Vec Ideal S5000x128 .f32) (x2 : Vec Ideal S5000x1 .f32) (x6 : Vec Ideal S1x128 .f32)
    (p : Fin 5000) (q : Fin 128) :
    k8_pay1 (F := Ideal) x0 x2 x6 (ix2 p q) = x0 (ix2 p q) * x2 (ix2 p (0 : Fin 1)) + x6 (ix2 (0 : Fin 1) q) := by
  unfold k8_pay1
  simp only [shapeCast_self, addf_apply, mulf_apply]
  rw [broadcastTo_a1_ab_apply, broadcastTo_1b_ab_apply]

/-- The reparameterization body: entry j is x[j] · exp(½ · l[j]) + μ[j]. -/
theorem k4_pay1_apply (x0 x1 x7 : Vec Ideal S5000x64 .f32) (j : S5000x64.Idx) :
    k4_pay1 (F := Ideal) x0 x1 x7 j = x0 j * Ideal.exp (Ideal.ofBits .f32 0x3F000000#32 * x1 j) + x7 j := by
  unfold k4_pay1
  simp only [shapeCast_self]
  rfl

end Cert.KernelIdeal.Pay

end
-- ==== Proof.KReg0.lean ====
/-
  Call 0 of the idealized kernel program (the encoder's row-scaled product) as one whole-array function of the arrays it finds.
-/
import proofs.«100823_j26800595927067_2_alg».proof.Proof.Gen.KernelIdeal.Frame
import proofs.«100823_j26800595927067_2_alg».proof.Proof.KPay
import proofs.«100823_j26800595927067_2_alg».proof.Proof.KRegDefs
import Idealize.ShloMosaic.Lib.Pipeline.Value

set_option maxRecDepth 16384

noncomputable section

namespace Cert.KernelIdeal.Regions

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Pay

variable (V : (c : Dev nD) → (b : Ref sig .tc) → Buf (Elt Ideal) ((c : Thread nD τ).loc b))

/-! ## Call 0: the row-scaled product, 5000 rows per grid point -/

/-- A product of three factors, rewritten factor by factor. -/
theorem mul3_congr {a a' b b' c c' : EReal} (ha : a = a') (hb : b = b') (hc : c = c') : (a * b) * c = (a' * b') * c' := by
  rw [ha, hb, hc]

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What grid point t writes back is block t (rows 5000·t … 5000·t + 4999) of the whole-array product. -/
theorem flushed0_eq (c : Dev nD) (t : Fin cfg0.N) :
    (dat0 V c).flushed 3 t = ((cfg0.win 3).blk t).view.read (Elt Ideal)
      (linG (K := 128) (V c main_arg0) (V c main_arg3) (V c main_v15)) := by
  show (cfg0.win 3).cut (grid0.coords t) ((dat0 V c).after 3 t) = _
  rw [after0_3]
  unfold out0_3
  rw [View.canon_unit_zero hz]
  simp only [View.ld_unit_zero (S := S5000x128) hz, View.ld_unit_zero (S := S5000x1) hz, View.ld_unit_zero (S := S128x128) hz]
  obtain ⟨e0, e1, e2, e3, e4, e5, e6, e7⟩ := idx_facts0 t
  funext j
  obtain ⟨p, q, rfl⟩ : ∃ (p : Fin 5000) (q : Fin 128), j = ix2 p q := ⟨j 0, j 1, eq_ix2 j⟩
  refine (k0_pay1_apply _ _ _ p q).trans ?_
  show _ = linG (K := 128) (V c main_arg0) (V c main_arg3) (V c main_v15) (((cfg0.win 3).blk t).view.emb (ix2 p q))
  unfold linG
  refine Finset.sum_congr rfl fun k _ => ?_
  have hp : p.val < 5000 := p.isLt
  have ht : t.val < 10 := t.isLt
  have hx : ((cfg0.win 0).blk t).view.emb (ix2 p k) = ix2 ((((cfg0.win 3).blk t).view.emb (ix2 p q)) 0) k := by
    funext a; apply Fin.ext
    match a with
    | ⟨0, _⟩ => show win0_0.index t (0 : Fin 2) * 5000 + 1 * p.val = win0_3.index t (0 : Fin 2) * 5000 + 1 * p.val; omega
    | ⟨1, _⟩ => show win0_0.index t (1 : Fin 2) * 128 + 1 * k.val = k.val; omega
  have hd : ((cfg0.win 2).blk t).view.emb (ix2 p (0 : Fin 1)) = ix2 ((((cfg0.win 3).blk t).view.emb (ix2 p q)) 0) (0 : Fin 1) := by
    funext a; apply Fin.ext
    match a with
    | ⟨0, _⟩ => show win0_2.index t (0 : Fin 2) * 5000 + 1 * p.val = win0_3.index t (0 : Fin 2) * 5000 + 1 * p.val; omega
    | ⟨1, _⟩ => show win0_2.index t (1 : Fin 2) * 1 + 1 * 0 = 0; omega
  have hw : ((cfg0.win 1).blk t).view.emb (ix2 k q) = ix2 k ((((cfg0.win 3).blk t).view.emb (ix2 p q)) 1) := by
    funext a; apply Fin.ext
    match a with
    | ⟨0, _⟩ => show win0_1.index t (0 : Fin 2) * 128 + 1 * k.val = k.val; omega
    | ⟨1, _⟩ => show win0_1.index t (1 : Fin 2) * 128 + 1 * q.val = win0_3.index t (1 : Fin 2) * 128 + 1 * q.val; omega
  exact mul3_congr (congrArg (V c main_arg0) hx) (congrArg (V c main_v15) hd) (congrArg (V c main_arg3) hw)

theorem mem_blk0 (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v19).slice (win0_3.rect t)).set ↔ _
  rw [View.set_slice_whole, Rect.mem_set_unit]
  exact Iff.rfl

/-- Row r lies in the block of grid point r / 5000. -/
theorem cover0 (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  refine ⟨⟨(i 0).val / 5000, by show (i 0).val / 5000 < 10; omega⟩, flush0_3 _, ?_⟩
  rw [mem_blk0]
  obtain ⟨e0, e1, e2, e3, e4, e5, e6, e7⟩ := idx_facts0 ⟨(i 0).val / 5000, by show (i 0).val / 5000 < 10; omega⟩
  intro a
  match a with
  | ⟨0, _⟩ => show win0_3.index _ (0 : Fin 2) * 5000 ≤ (i 0).val ∧ (i 0).val < win0_3.index _ (0 : Fin 2) * 5000 + 5000; rw [e6]; show (i 0).val / 5000 * 5000 ≤ (i 0).val ∧ (i 0).val < (i 0).val / 5000 * 5000 + 5000; omega
  | ⟨1, _⟩ => show win0_3.index _ (1 : Fin 2) * 128 ≤ (i 1).val ∧ (i 1).val < win0_3.index _ (1 : Fin 2) * 128 + 128; rw [e7]; omega

/-- The call's result array, whole: the row-scaled product of its operand arrays as the call finds them. -/
theorem final0 (c : Dev nD) : (dat0 V c).arrAt 3 cfg0.N = linG (K := 128) (V c main_arg0) (V c main_arg3) (V c main_v15) :=
  (dat0 V c).arrAt_eq_of_cover 3 _ (fun t _ => flushed0_eq V c t) (cover0)

end Cert.KernelIdeal.Regions

end
-- ==== Proof.KReg1.lean ====
/-
  Call 1 of the idealized kernel program (the encoder's post-scale and bias) as one whole-array function of the arrays it finds.
-/
import proofs.«100823_j26800595927067_2_alg».proof.Proof.Gen.KernelIdeal.Frame
import proofs.«100823_j26800595927067_2_alg».proof.Proof.KPay
import proofs.«100823_j26800595927067_2_alg».proof.Proof.KRegDefs
import Idealize.ShloMosaic.Lib.Pipeline.Value

set_option maxRecDepth 16384

noncomputable section

namespace Cert.KernelIdeal.Regions

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Pay

variable (V : (c : Dev nD) → (b : Ref sig .tc) → Buf (Elt Ideal) ((c : Thread nD τ).loc b))

/-! ## Call 1: the post-scale and bias, 5000 rows per grid point -/

theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What grid point t writes back is block t (rows 5000·t … 5000·t + 4999) of the whole-array function. -/
theorem flushed1_eq (c : Dev nD) (t : Fin cfg1.N) :
    (dat1 V c).flushed 3 t = ((cfg1.win 3).blk t).view.read (Elt Ideal)
      (epiG (V c main_v29) (V c main_v15) (V c main_v16)) := by
  show (cfg1.win 3).cut (grid1.coords t) ((dat1 V c).after 3 t) = _
  rw [after1_3]
  unfold out1_3
  rw [View.canon_unit_zero hz]
  simp only [View.ld_unit_zero (S := S5000x128) hz, View.ld_unit_zero (S := S5000x1) hz, View.ld_unit_zero (S := S1x128) hz]
  obtain ⟨e0, e1, e2, e3, e4, e5, e6, e7⟩ := idx_facts1 t
  funext j
  obtain ⟨p, q, rfl⟩ : ∃ (p : Fin 5000) (q : Fin 128), j = ix2 p q := ⟨j 0, j 1, eq_ix2 j⟩
  refine (k1_pay1_apply _ _ _ p q).trans ?_
  show _ = epiG (V c main_v29) (V c main_v15) (V c main_v16) (((cfg1.win 3).blk t).view.emb (ix2 p q))
  unfold epiG
  have hp : p.val < 5000 := p.isLt
  have ht : t.val < 10 := t.isLt
  have ha : ((cfg1.win 0).blk t).view.emb (ix2 p q) = ix2 ((((cfg1.win 3).blk t).view.emb (ix2 p q)) 0) ((((cfg1.win 3).blk t).view.emb (ix2 p q)) 1) := by
    funext a; apply Fin.ext
    match a with
    | ⟨0, _⟩ => show win1_0.index t (0 : Fin 2) * 5000 + 1 * p.val = win1_3.index t (0 : Fin 2) * 5000 + 1 * p.val; omega
    | ⟨1, _⟩ => show win1_0.index t (1 : Fin 2) * 128 + 1 * q.val = win1_3.index t (1 : Fin 2) * 128 + 1 * q.val; omega
  have hd : ((cfg1.win 1).blk t).view.emb (ix2 p (0 : Fin 1)) = ix2 ((((cfg1.win 3).blk t).view.emb (ix2 p q)) 0) (0 : Fin 1) := by
    funext a; apply Fin.ext
    match a with
    | ⟨0, _⟩ => show win1_1.index t (0 : Fin 2) * 5000 + 1 * p.val = win1_3.index t (0 : Fin 2) * 5000 + 1 * p.val; omega
    | ⟨1, _⟩ => show win1_1.index t (1 : Fin 2) * 1 + 1 * 0 = 0; omega
  have hb : ((cfg1.win 2).blk t).view.emb (ix2 (0 : Fin 1) q) = ix2 (0 : Fin 1) ((((cfg1.win 3).blk t).view.emb (ix2 p q)) 1) := by
    funext a; apply Fin.ext
    match a with
    | ⟨0, _⟩ => show win1_2.index t (0 : Fin 2) * 1 + 1 * 0 = 0; omega
    | ⟨1, _⟩ => show win1_2.index t (1 : Fin 2) * 128 + 1 * q.val = win1_3.index t (1 : Fin 2) * 128 + 1 * q.val; omega
  have r0 : iblk1 V c 0 t (ix2 p q) = V c main_v29 (ix2 ((((cfg1.win 3).blk t).view.emb (ix2 p q)) 0) ((((cfg1.win 3).blk t).view.emb (ix2 p q)) 1)) := congrArg (V c main_v29) ha
  have r1 : iblk1 V c 1 t (ix2 p (0 : Fin 1)) = V c main_v15 (ix2 ((((cfg1.win 3).blk t).view.emb (ix2 p q)) 0) (0 : Fin 1)) := congrArg (V c main_v15) hd
  have r2 : iblk1 V c 2 t (ix2 (0 : Fin 1) q) = V c main_v16 (ix2 (0 : Fin 1) ((((cfg1.win 3).blk t).view.emb (ix2 p q)) 1)) := congrArg (V c main_v16) hb
  rw [r0, r1, r2]

theorem mem_blk1 (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v30).slice (win1_3.rect t)).set ↔ _
  rw [View.set_slice_whole, Rect.mem_set_unit]
  exact Iff.rfl

/-- Row r lies in the block of grid point r / 5000. -/
theorem cover1 (i : S50000x128.Idx) : ∃ t : Fin cfg1.N, (cfg1.win 3).flush t = true ∧ i ∈ ((cfg1.win 3).blk t).view.set := by
  have hi0 : (i 0).val < 50000 := (i 0).isLt
  have hi1 : (i 1).val < 128 := (i 1).isLt
  refine ⟨⟨(i 0).val / 5000, by show (i 0).val / 5000 < 10; omega⟩, flush1_3 _, ?_⟩
  rw [mem_blk1]
  obtain ⟨e0, e1, e2, e3, e4, e5, e6, e7⟩ := idx_facts1 ⟨(i 0).val / 5000, by show (i 0).val / 5000 < 10; omega⟩
  intro a
  match a with
  | ⟨0, _⟩ => show win1_3.index _ (0 : Fin 2) * 5000 ≤ (i 0).val ∧ (i 0).val < win1_3.index _ (0 : Fin 2) * 5000 + 5000; rw [e6]; show (i 0).val / 5000 * 5000 ≤ (i 0).val ∧ (i 0).val < (i 0).val / 5000 * 5000 + 5000; omega
  | ⟨1, _⟩ => show win1_3.index _ (1 : Fin 2) * 128 ≤ (i 1).val ∧ (i 1).val < win1_3.index _ (1 : Fin 2) * 128 + 128; rw [e7]; omega

/-- The call's result array, whole. -/
theorem final1 (c : Dev nD) : (dat1 V c).arrAt 3 cfg1.N = epiG (V c main_v29) (V c main_v15) (V c main_v16) :=
  (dat1 V c).arrAt_eq_of_cover 3 _ (fun t _ => flushed1_eq V c t) (cover1)

end Cert.KernelIdeal.Regions

end
-- ==== Proof.KReg2.lean ====
/-
  Call 2 of the idealized kernel program (a row-scaled product) as one whole-array function of the arrays it finds.
-/
import proofs.«100823_j26800595927067_2_alg».proof.Proof.Gen.KernelIdeal.Frame
import proofs.«100823_j26800595927067_2_alg».proof.Proof.KPay
import proofs.«100823_j26800595927067_2_alg».proof.Proof.KRegDefs
import Idealize.ShloMosaic.Lib.Pipeline.Value

set_option maxRecDepth 16384

noncomputable section

namespace Cert.KernelIdeal.Regions

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Pay

variable (V : (c : Dev nD) → (b : Ref sig .tc) → Buf (Elt Ideal) ((c : Thread nD τ).loc b))

/-! ## Call 2: the row-scaled product, 5000 rows per grid point -/

theorem mul3_congr2 {a a' b b' c c' : EReal} (ha : a = a') (hb : b = b') (hc : c = c') : (a * b) * c = (a' * b') * c' := by rw [ha, hb, hc]

theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- What grid point t writes back is block t (rows 5000·t … 5000·t + 4999) of the whole-array product. -/
theorem flushed2_eq (c : Dev nD) (t : Fin cfg2.N) :
    (dat2 V c).flushed 3 t = ((cfg2.win 3).blk t).view.read (Elt Ideal)
      (linG (K := 128) (V c main_v30) (V c main_v31) (V c main_v15)) := by
  show (cfg2.win 3).cut (grid2.coords t) ((dat2 V c).after 3 t) = _
  rw [after2_3]
  unfold out2_3
  rw [View.canon_unit_zero hz]
  simp only [View.ld_unit_zero (S := S5000x128) hz, View.ld_unit_zero (S := S5000x1) hz, View.ld_unit_zero (S := S128x128) hz]
  obtain ⟨e0, e1, e2, e3, e4, e5, e6, e7⟩ := idx_facts2 t
  funext j
  obtain ⟨p, q, rfl⟩ : ∃ (p : Fin 5000) (q : Fin 128), j = ix2 p q := ⟨j 0, j 1, eq_ix2 j⟩
  refine (k2_pay1_apply _ _ _ p q).trans ?_
  show _ = linG (K := 128) (V c main_v30) (V c main_v31) (V c main_v15) (((cfg2.win 3).blk t).view.emb (ix2 p q))
  unfold linG
  refine Finset.sum_congr rfl fun k _ => ?_
  have hp : p.val < 5000 := p.isLt
  have ht : t.val < 10 := t.isLt
  have hx : ((cfg2.win 0).blk t).view.emb (ix2 p k) = ix2 ((((cfg2.win 3).blk t).view.emb (ix2 p q)) 0) k := by
    funext a; apply Fin.ext
    match a with
    | ⟨0, _⟩ => show win2_0.index t (0 : Fin 2) * 5000 + 1 * p.val = win2_3.index t (0 : Fin 2) * 5000 + 1 * p.val; omega
    | ⟨1, _⟩ => show win2_0.index t (1 : Fin 2) * 128 + 1 * k.val = k.val; omega
  have hd : ((cfg2.win 2).blk t).view.emb (ix2 p (0 : Fin 1)) = ix2 ((((cfg2.win 3).blk t).view.emb (ix2 p q)) 0) (0 : Fin 1) := by
    funext a; apply Fin.ext
    match a with
    | ⟨0, _⟩ => show win2_2.index t (0 : Fin 2) * 5000 + 1 * p.val = win2_3.index t (0 : Fin 2) * 5000 + 1 * p.val; omega
    | ⟨1, _⟩ => show win2_2.index t (1 : Fin 2) * 1 + 1 * 0 = 0; omega
  have hw : ((cfg2.win 1).blk t).view.emb (ix2 k q) = ix2 k ((((cfg2.win 3).blk t).view.emb (ix2 p q)) 1) := by
    funext a; apply Fin.ext
    match a with
    | ⟨0, _⟩ => show win2_1.index t (0 : Fin 2) * 128 + 1 * k.val = k.val; omega
    | ⟨1, _⟩ => show win2_1.index t (1 : Fin 2) * 128 + 1 * q.val = win2_3.index t (1 : Fin 2) * 128 + 1 * q.val; omega
  exact mul3_congr2 (congrArg (V c main_v30) hx) (congrArg (V c main_v15) hd) (congrArg (V c main_v31) hw)

theorem mem_blk2 (t : Fin cfg2.N) (i : S50000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v34).slice (win2_3.rect t)).set ↔ _
  rw [View.set_slice_whole, Rect.mem_set_unit]
  exact Iff.rfl

/-- Row r lies in the block of grid point r / 5000. -/
theorem cover2 (i : S50000x128.Idx) : ∃ t : Fin cfg2.N, (cfg2.win 3).flush t = true ∧ i ∈ ((cfg2.win 3).blk t).view.set := by
  have hi0 : (i 0).val < 50000 := (i 0).isLt
  have hi1 : (i 1).val < 128 := (i 1).isLt
  refine ⟨⟨(i 0).val / 5000, by show (i 0).val / 5000 < 10; omega⟩, flush2_3 _, ?_⟩
  rw [mem_blk2]
  obtain ⟨e0, e1, e2, e3, e4, e5, e6, e7⟩ := idx_facts2 ⟨(i 0).val / 5000, by show (i 0).val / 5000 < 10; omega⟩
  intro a
  match a with
  | ⟨0, _⟩ => show win2_3.index _ (0 : Fin 2) * 5000 ≤ (i 0).val ∧ (i 0).val < win2_3.index _ (0 : Fin 2) * 5000 + 5000; rw [e6]; show (i 0).val / 5000 * 5000 ≤ (i 0).val ∧ (i 0).val < (i 0).val / 5000 * 5000 + 5000; omega
  | ⟨1, _⟩ => show win2_3.index _ (1 : Fin 2) * 128 ≤ (i 1).val ∧ (i 1).val < win2_3.index _ (1 : Fin 2) * 128 + 128; rw [e7]; omega

/-- The call's result array, whole: the row-scaled product of its operand arrays as the call finds them. -/
theorem final2 (c : Dev nD) : (dat2 V c).arrAt 3 cfg2.N = linG (K := 128) (V c main_v30) (V c main_v31) (V c main_v15) :=
  (dat2 V c).arrAt_eq_of_cover 3 _ (fun t _ => flushed2_eq V c t) (cover2)

end Cert.KernelIdeal.Regions

end
-- ==== Proof.KReg3.lean ====
/-
  Call 3 of the idealized kernel program (a post-scale and bias) as one whole-array function of the arrays it finds.
-/
import proofs.«100823_j26800595927067_2_alg».proof.Proof.Gen.KernelIdeal.Frame
import proofs.«100823_j26800595927067_2_alg».proof.Proof.KPay
import proofs.«100823_j26800595927067_2_alg».proof.Proof.KRegDefs
import Idealize.ShloMosaic.Lib.Pipeline.Value

set_option maxRecDepth 16384

noncomputable section

namespace Cert.KernelIdeal.Regions

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Pay

variable (V : (c : Dev nD) → (b : Ref sig .tc) → Buf (Elt Ideal) ((c : Thread nD τ).loc b))

/-! ## Call 3: the post-scale and bias, 5000 rows per grid point -/

theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What grid point t writes back is block t (rows 5000·t … 5000·t + 4999) of the whole-array function. -/
theorem flushed3_eq (c : Dev nD) (t : Fin cfg3.N) :
    (dat3 V c).flushed 3 t = ((cfg3.win 3).blk t).view.read (Elt Ideal)
      (epiG (V c main_v44) (V c main_v15) (V c main_v33)) := by
  show (cfg3.win 3).cut (grid3.coords t) ((dat3 V c).after 3 t) = _
  rw [after3_3]
  unfold out3_3
  rw [View.canon_unit_zero hz]
  simp only [View.ld_unit_zero (S := S5000x128) hz, View.ld_unit_zero (S := S5000x1) hz, View.ld_unit_zero (S := S1x128) hz]
  obtain ⟨e0, e1, e2, e3, e4, e5, e6, e7⟩ := idx_facts3 t
  funext j
  obtain ⟨p, q, rfl⟩ : ∃ (p : Fin 5000) (q : Fin 128), j = ix2 p q := ⟨j 0, j 1, eq_ix2 j⟩
  refine (k3_pay1_apply _ _ _ p q).trans ?_
  show _ = epiG (V c main_v44) (V c main_v15) (V c main_v33) (((cfg3.win 3).blk t).view.emb (ix2 p q))
  unfold epiG
  have hp : p.val < 5000 := p.isLt
  have ht : t.val < 10 := t.isLt
  have ha : ((cfg3.win 0).blk t).view.emb (ix2 p q) = ix2 ((((cfg3.win 3).blk t).view.emb (ix2 p q)) 0) ((((cfg3.win 3).blk t).view.emb (ix2 p q)) 1) := by
    funext a; apply Fin.ext
    match a with
    | ⟨0, _⟩ => show win3_0.index t (0 : Fin 2) * 5000 + 1 * p.val = win3_3.index t (0 : Fin 2) * 5000 + 1 * p.val; omega
    | ⟨1, _⟩ => show win3_0.index t (1 : Fin 2) * 128 + 1 * q.val = win3_3.index t (1 : Fin 2) * 128 + 1 * q.val; omega
  have hd : ((cfg3.win 1).blk t).view.emb (ix2 p (0 : Fin 1)) = ix2 ((((cfg3.win 3).blk t).view.emb (ix2 p q)) 0) (0 : Fin 1) := by
    funext a; apply Fin.ext
    match a with
    | ⟨0, _⟩ => show win3_1.index t (0 : Fin 2) * 5000 + 1 * p.val = win3_3.index t (0 : Fin 2) * 5000 + 1 * p.val; omega
    | ⟨1, _⟩ => show win3_1.index t (1 : Fin 2) * 1 + 1 * 0 = 0; omega
  have hb : ((cfg3.win 2).blk t).view.emb (ix2 (0 : Fin 1) q) = ix2 (0 : Fin 1) ((((cfg3.win 3).blk t).view.emb (ix2 p q)) 1) := by
    funext a; apply Fin.ext
    match a with
    | ⟨0, _⟩ => show win3_2.index t (0 : Fin 2) * 1 + 1 * 0 = 0; omega
    | ⟨1, _⟩ => show win3_2.index t (1 : Fin 2) * 128 + 1 * q.val = win3_3.index t (1 : Fin 2) * 128 + 1 * q.val; omega
  have r0 : iblk3 V c 0 t (ix2 p q) = V c main_v44 (ix2 ((((cfg3.win 3).blk t).view.emb (ix2 p q)) 0) ((((cfg3.win 3).blk t).view.emb (ix2 p q)) 1)) := congrArg (V c main_v44) ha
  have r1 : iblk3 V c 1 t (ix2 p (0 : Fin 1)) = V c main_v15 (ix2 ((((cfg3.win 3).blk t).view.emb (ix2 p q)) 0) (0 : Fin 1)) := congrArg (V c main_v15) hd
  have r2 : iblk3 V c 2 t (ix2 (0 : Fin 1) q) = V c main_v33 (ix2 (0 : Fin 1) ((((cfg3.win 3).blk t).view.emb (ix2 p q)) 1)) := congrArg (V c main_v33) hb
  rw [r0, r1, r2]

theorem mem_blk3 (t : Fin cfg3.N) (i : S50000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v45).slice (win3_3.rect t)).set ↔ _
  rw [View.set_slice_whole, Rect.mem_set_unit]
  exact Iff.rfl

/-- Row r lies in the block of grid point r / 5000. -/
theorem cover3 (i : S50000x128.Idx) : ∃ t : Fin cfg3.N, (cfg3.win 3).flush t = true ∧ i ∈ ((cfg3.win 3).blk t).view.set := by
  have hi0 : (i 0).val < 50000 := (i 0).isLt
  have hi1 : (i 1).val < 128 := (i 1).isLt
  refine ⟨⟨(i 0).val / 5000, by show (i 0).val / 5000 < 10; omega⟩, flush3_3 _, ?_⟩
  rw [mem_blk3]
  obtain ⟨e0, e1, e2, e3, e4, e5, e6, e7⟩ := idx_facts3 ⟨(i 0).val / 5000, by show (i 0).val / 5000 < 10; omega⟩
  intro a
  match a with
  | ⟨0, _⟩ => show win3_3.index _ (0 : Fin 2) * 5000 ≤ (i 0).val ∧ (i 0).val < win3_3.index _ (0 : Fin 2) * 5000 + 5000; rw [e6]; show (i 0).val / 5000 * 5000 ≤ (i 0).val ∧ (i 0).val < (i 0).val / 5000 * 5000 + 5000; omega
  | ⟨1, _⟩ => show win3_3.index _ (1 : Fin 2) * 128 ≤ (i 1).val ∧ (i 1).val < win3_3.index _ (1 : Fin 2) * 128 + 128; rw [e7]; omega

/-- The call's result array, whole. -/
theorem final3 (c : Dev nD) : (dat3 V c).arrAt 3 cfg3.N = epiG (V c main_v44) (V c main_v15) (V c main_v33) :=
  (dat3 V c).arrAt_eq_of_cover 3 _ (fun t _ => flushed3_eq V c t) (cover3)

end Cert.KernelIdeal.Regions

end
-- ==== Proof.KReg4.lean ====
/-
  Call 4 of the idealized kernel program (the reparameterization) as one whole-array function of the arrays it finds.
-/
import proofs.«100823_j26800595927067_2_alg».proof.Proof.Gen.KernelIdeal.Frame
import proofs.«100823_j26800595927067_2_alg».proof.Proof.KPay
import proofs.«100823_j26800595927067_2_alg».proof.Proof.KRegDefs
import Idealize.ShloMosaic.Lib.Pipeline.Value

set_option maxRecDepth 16384

noncomputable section

namespace Cert.KernelIdeal.Regions

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Pay

variable (V : (c : Dev nD) → (b : Ref sig .tc) → Buf (Elt Ideal) ((c : Thread nD τ).loc b))

/-! ## Call 4: the reparameterization, 5000 rows per grid point -/

theorem idx_facts4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0 :=
  (by decide +kernel : ∀ t : Fin grid4.N, _)

/-- What grid point t writes back is block t of the whole-array function. -/
theorem flushed4_eq (c : Dev nD) (t : Fin cfg4.N) :
    (dat4 V c).flushed 3 t = ((cfg4.win 3).blk t).view.read (Elt Ideal)
      (repG (V c main_arg2) (V c main_v47) (V c main_v46)) := by
  show (cfg4.win 3).cut (grid4.coords t) ((dat4 V c).after 3 t) = _
  rw [after4_3]
  unfold out4_3
  rw [View.canon_unit_zero hz]
  simp only [View.ld_unit_zero (S := S5000x64) hz]
  obtain ⟨e0, e1, e2, e3, e4, e5, e6, e7⟩ := idx_facts4 t
  funext j
  refine (k4_pay1_apply _ _ _ j).trans ?_
  show _ = repG (V c main_arg2) (V c main_v47) (V c main_v46) (((cfg4.win 3).blk t).view.emb j)
  unfold repG
  have h0 : ((cfg4.win 0).blk t).view.emb j = ((cfg4.win 3).blk t).view.emb j := by
    funext a; apply Fin.ext
    match a with
    | ⟨0, _⟩ => show win4_0.index t (0 : Fin 2) * 5000 + 1 * (j 0).val = win4_3.index t (0 : Fin 2) * 5000 + 1 * (j 0).val; omega
    | ⟨1, _⟩ => show win4_0.index t (1 : Fin 2) * 64 + 1 * (j 1).val = win4_3.index t (1 : Fin 2) * 64 + 1 * (j 1).val; omega
  have h1 : ((cfg4.win 1).blk t).view.emb j = ((cfg4.win 3).blk t).view.emb j := by
    funext a; apply Fin.ext
    match a with
    | ⟨0, _⟩ => show win4_1.index t (0 : Fin 2) * 5000 + 1 * (j 0).val = win4_3.index t (0 : Fin 2) * 5000 + 1 * (j 0).val; omega
    | ⟨1, _⟩ => show win4_1.index t (1 : Fin 2) * 64 + 1 * (j 1).val = win4_3.index t (1 : Fin 2) * 64 + 1 * (j 1).val; omega
  have h2 : ((cfg4.win 2).blk t).view.emb j = ((cfg4.win 3).blk t).view.emb j := by
    funext a; apply Fin.ext
    match a with
    | ⟨0, _⟩ => show win4_2.index t (0 : Fin 2) * 5000 + 1 * (j 0).val = win4_3.index t (0 : Fin 2) * 5000 + 1 * (j 0).val; omega
    | ⟨1, _⟩ => show win4_2.index t (1 : Fin 2) * 64 + 1 * (j 1).val = win4_3.index t (1 : Fin 2) * 64 + 1 * (j 1).val; omega
  have r0 : iblk4 V c 0 t j = V c main_arg2 (((cfg4.win 3).blk t).view.emb j) := congrArg (V c main_arg2) h0
  have r1 : iblk4 V c 1 t j = V c main_v46 (((cfg4.win 3).blk t).view.emb j) := congrArg (V c main_v46) h1
  have r2 : iblk4 V c 2 t j = V c main_v47 (((cfg4.win 3).blk t).view.emb j) := congrArg (V c main_v47) h2
  rw [r0, r1, r2]

theorem mem_blk4 (t : Fin cfg4.N) (i : S50000x64.Idx) :
    i ∈ ((cfg4.win 3).blk t).view.set ↔ ∀ a : Fin 2, win4_3.index t a * S5000x64.size a ≤ (i a).val ∧ (i a).val < win4_3.index t a * S5000x64.size a + S5000x64.size a := by
  show i ∈ ((View.whole main_v48).slice (win4_3.rect t)).set ↔ _
  rw [View.set_slice_whole, Rect.mem_set_unit]
  exact Iff.rfl

theorem cover4 (i : S50000x64.Idx) : ∃ t : Fin cfg4.N, (cfg4.win 3).flush t = true ∧ i ∈ ((cfg4.win 3).blk t).view.set := by
  have hi0 : (i 0).val < 50000 := (i 0).isLt
  have hi1 : (i 1).val < 64 := (i 1).isLt
  refine ⟨⟨(i 0).val / 5000, by show (i 0).val / 5000 < 10; omega⟩, flush4_3 _, ?_⟩
  rw [mem_blk4]
  obtain ⟨e0, e1, e2, e3, e4, e5, e6, e7⟩ := idx_facts4 ⟨(i 0).val / 5000, by show (i 0).val / 5000 < 10; omega⟩
  intro a
  match a with
  | ⟨0, _⟩ => show win4_3.index _ (0 : Fin 2) * 5000 ≤ (i 0).val ∧ (i 0).val < win4_3.index _ (0 : Fin 2) * 5000 + 5000; rw [e6]; show (i 0).val / 5000 * 5000 ≤ (i 0).val ∧ (i 0).val < (i 0).val / 5000 * 5000 + 5000; omega
  | ⟨1, _⟩ => show win4_3.index _ (1 : Fin 2) * 64 ≤ (i 1).val ∧ (i 1).val < win4_3.index _ (1 : Fin 2) * 64 + 64; rw [e7]; omega

/-- The call's result array, whole. -/
theorem final4 (c : Dev nD) : (dat4 V c).arrAt 3 cfg4.N = repG (V c main_arg2) (V c main_v47) (V c main_v46) :=
  (dat4 V c).arrAt_eq_of_cover 3 _ (fun t _ => flushed4_eq V c t) (cover4)

end Cert.KernelIdeal.Regions

end
-- ==== Proof.KReg5.lean ====
/-
  Call 5 of the idealized kernel program (a row-scaled product) as one whole-array function of the arrays it finds.
-/
import proofs.«100823_j26800595927067_2_alg».proof.Proof.Gen.KernelIdeal.Frame
import proofs.«100823_j26800595927067_2_alg».proof.Proof.KPay
import proofs.«100823_j26800595927067_2_alg».proof.Proof.KRegDefs
import Idealize.ShloMosaic.Lib.Pipeline.Value

set_option maxRecDepth 16384

noncomputable section

namespace Cert.KernelIdeal.Regions

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Pay

variable (V : (c : Dev nD) → (b : Ref sig .tc) → Buf (Elt Ideal) ((c : Thread nD τ).loc b))

/-! ## Call 5: the row-scaled product, 5000 rows per grid point -/

theorem mul3_congr5 {a a' b b' c c' : EReal} (ha : a = a') (hb : b = b') (hc : c = c') : (a * b) * c = (a' * b') * c' := by rw [ha, hb, hc]

theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0
    ∧ win5_3.index t (0 : Fin 2) = t.val ∧ win5_3.index t (1 : Fin 2) = 0 :=
  (by decide +kernel : ∀ t : Fin grid5.N, _)

/-- What grid point t writes back is block t (rows 5000·t … 5000·t + 4999) of the whole-array product. -/
theorem flushed5_eq (c : Dev nD) (t : Fin cfg5.N) :
    (dat5 V c).flushed 3 t = ((cfg5.win 3).blk t).view.read (Elt Ideal)
      (linG (K := 64) (V c main_v48) (V c main_arg9) (V c main_v15)) := by
  show (cfg5.win 3).cut (grid5.coords t) ((dat5 V c).after 3 t) = _
  rw [after5_3]
  unfold out5_3
  rw [View.canon_unit_zero hz]
  simp only [View.ld_unit_zero (S := S5000x64) hz, View.ld_unit_zero (S := S5000x1) hz, View.ld_unit_zero (S := S64x128) hz]
  obtain ⟨e0, e1, e2, e3, e4, e5, e6, e7⟩ := idx_facts5 t
  funext j
  obtain ⟨p, q, rfl⟩ : ∃ (p : Fin 5000) (q : Fin 128), j = ix2 p q := ⟨j 0, j 1, eq_ix2 j⟩
  refine (k5_pay1_apply _ _ _ p q).trans ?_
  show _ = linG (K := 64) (V c main_v48) (V c main_arg9) (V c main_v15) (((cfg5.win 3).blk t).view.emb (ix2 p q))
  unfold linG
  refine Finset.sum_congr rfl fun k _ => ?_
  have hp : p.val < 5000 := p.isLt
  have ht : t.val < 10 := t.isLt
  have hx : ((cfg5.win 0).blk t).view.emb (ix2 p k) = ix2 ((((cfg5.win 3).blk t).view.emb (ix2 p q)) 0) k := by
    funext a; apply Fin.ext
    match a with
    | ⟨0, _⟩ => show win5_0.index t (0 : Fin 2) * 5000 + 1 * p.val = win5_3.index t (0 : Fin 2) * 5000 + 1 * p.val; omega
    | ⟨1, _⟩ => show win5_0.index t (1 : Fin 2) * 64 + 1 * k.val = k.val; omega
  have hd : ((cfg5.win 2).blk t).view.emb (ix2 p (0 : Fin 1)) = ix2 ((((cfg5.win 3).blk t).view.emb (ix2 p q)) 0) (0 : Fin 1) := by
    funext a; apply Fin.ext
    match a with
    | ⟨0, _⟩ => show win5_2.index t (0 : Fin 2) * 5000 + 1 * p.val = win5_3.index t (0 : Fin 2) * 5000 + 1 * p.val; omega
    | ⟨1, _⟩ => show win5_2.index t (1 : Fin 2) * 1 + 1 * 0 = 0; omega
  have hw : ((cfg5.win 1).blk t).view.emb (ix2 k q) = ix2 k ((((cfg5.win 3).blk t).view.emb (ix2 p q)) 1) := by
    funext a; apply Fin.ext
    match a with
    | ⟨0, _⟩ => show win5_1.index t (0 : Fin 2) * 64 + 1 * k.val = k.val; omega
    | ⟨1, _⟩ => show win5_1.index t (1 : Fin 2) * 128 + 1 * q.val = win5_3.index t (1 : Fin 2) * 128 + 1 * q.val; omega
  exact mul3_congr5 (congrArg (V c main_v48) hx) (congrArg (V c main_v15) hd) (congrArg (V c main_arg9) hw)

theorem mem_blk5 (t : Fin cfg5.N) (i : S50000x128.Idx) :
    i ∈ ((cfg5.win 3).blk t).view.set ↔ ∀ a : Fin 2, win5_3.index t a * S5000x128.size a ≤ (i a).val ∧ (i a).val < win5_3.index t a * S5000x128.size a + S5000x128.size a := by
  show i ∈ ((View.whole main_v49).slice (win5_3.rect t)).set ↔ _
  rw [View.set_slice_whole, Rect.mem_set_unit]
  exact Iff.rfl

/-- Row r lies in the block of grid point r / 5000. -/
theorem cover5 (i : S50000x128.Idx) : ∃ t : Fin cfg5.N, (cfg5.win 3).flush t = true ∧ i ∈ ((cfg5.win 3).blk t).view.set := by
  have hi0 : (i 0).val < 50000 := (i 0).isLt
  have hi1 : (i 1).val < 128 := (i 1).isLt
  refine ⟨⟨(i 0).val / 5000, by show (i 0).val / 5000 < 10; omega⟩, flush5_3 _, ?_⟩
  rw [mem_blk5]
  obtain ⟨e0, e1, e2, e3, e4, e5, e6, e7⟩ := idx_facts5 ⟨(i 0).val / 5000, by show (i 0).val / 5000 < 10; omega⟩
  intro a
  match a with
  | ⟨0, _⟩ => show win5_3.index _ (0 : Fin 2) * 5000 ≤ (i 0).val ∧ (i 0).val < win5_3.index _ (0 : Fin 2) * 5000 + 5000; rw [e6]; show (i 0).val / 5000 * 5000 ≤ (i 0).val ∧ (i 0).val < (i 0).val / 5000 * 5000 + 5000; omega
  | ⟨1, _⟩ => show win5_3.index _ (1 : Fin 2) * 128 ≤ (i 1).val ∧ (i 1).val < win5_3.index _ (1 : Fin 2) * 128 + 128; rw [e7]; omega

/-- The call's result array, whole: the row-scaled product of its operand arrays as the call finds them. -/
theorem final5 (c : Dev nD) : (dat5 V c).arrAt 3 cfg5.N = linG (K := 64) (V c main_v48) (V c main_arg9) (V c main_v15) :=
  (dat5 V c).arrAt_eq_of_cover 3 _ (fun t _ => flushed5_eq V c t) (cover5)

end Cert.KernelIdeal.Regions

end
-- ==== Proof.KReg6.lean ====
/-
  Call 6 of the idealized kernel program (a post-scale and bias) as one whole-array function of the arrays it finds.
-/
import proofs.«100823_j26800595927067_2_alg».proof.Proof.Gen.KernelIdeal.Frame
import proofs.«100823_j26800595927067_2_alg».proof.Proof.KPay
import proofs.«100823_j26800595927067_2_alg».proof.Proof.KRegDefs
import Idealize.ShloMosaic.Lib.Pipeline.Value

set_option maxRecDepth 16384

noncomputable section

namespace Cert.KernelIdeal.Regions

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Pay

variable (V : (c : Dev nD) → (b : Ref sig .tc) → Buf (Elt Ideal) ((c : Thread nD τ).loc b))

/-! ## Call 6: the post-scale and bias, 5000 rows per grid point -/

theorem idx_facts6 : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- What grid point t writes back is block t (rows 5000·t … 5000·t + 4999) of the whole-array function. -/
theorem flushed6_eq (c : Dev nD) (t : Fin cfg6.N) :
    (dat6 V c).flushed 3 t = ((cfg6.win 3).blk t).view.read (Elt Ideal)
      (epiG (V c main_v59) (V c main_v15) (V c main_v17)) := by
  show (cfg6.win 3).cut (grid6.coords t) ((dat6 V c).after 3 t) = _
  rw [after6_3]
  unfold out6_3
  rw [View.canon_unit_zero hz]
  simp only [View.ld_unit_zero (S := S5000x128) hz, View.ld_unit_zero (S := S5000x1) hz, View.ld_unit_zero (S := S1x128) hz]
  obtain ⟨e0, e1, e2, e3, e4, e5, e6, e7⟩ := idx_facts6 t
  funext j
  obtain ⟨p, q, rfl⟩ : ∃ (p : Fin 5000) (q : Fin 128), j = ix2 p q := ⟨j 0, j 1, eq_ix2 j⟩
  refine (k6_pay1_apply _ _ _ p q).trans ?_
  show _ = epiG (V c main_v59) (V c main_v15) (V c main_v17) (((cfg6.win 3).blk t).view.emb (ix2 p q))
  unfold epiG
  have hp : p.val < 5000 := p.isLt
  have ht : t.val < 10 := t.isLt
  have ha : ((cfg6.win 0).blk t).view.emb (ix2 p q) = ix2 ((((cfg6.win 3).blk t).view.emb (ix2 p q)) 0) ((((cfg6.win 3).blk t).view.emb (ix2 p q)) 1) := by
    funext a; apply Fin.ext
    match a with
    | ⟨0, _⟩ => show win6_0.index t (0 : Fin 2) * 5000 + 1 * p.val = win6_3.index t (0 : Fin 2) * 5000 + 1 * p.val; omega
    | ⟨1, _⟩ => show win6_0.index t (1 : Fin 2) * 128 + 1 * q.val = win6_3.index t (1 : Fin 2) * 128 + 1 * q.val; omega
  have hd : ((cfg6.win 1).blk t).view.emb (ix2 p (0 : Fin 1)) = ix2 ((((cfg6.win 3).blk t).view.emb (ix2 p q)) 0) (0 : Fin 1) := by
    funext a; apply Fin.ext
    match a with
    | ⟨0, _⟩ => show win6_1.index t (0 : Fin 2) * 5000 + 1 * p.val = win6_3.index t (0 : Fin 2) * 5000 + 1 * p.val; omega
    | ⟨1, _⟩ => show win6_1.index t (1 : Fin 2) * 1 + 1 * 0 = 0; omega
  have hb : ((cfg6.win 2).blk t).view.emb (ix2 (0 : Fin 1) q) = ix2 (0 : Fin 1) ((((cfg6.win 3).blk t).view.emb (ix2 p q)) 1) := by
    funext a; apply Fin.ext
    match a with
    | ⟨0, _⟩ => show win6_2.index t (0 : Fin 2) * 1 + 1 * 0 = 0; omega
    | ⟨1, _⟩ => show win6_2.index t (1 : Fin 2) * 128 + 1 * q.val = win6_3.index t (1 : Fin 2) * 128 + 1 * q.val; omega
  have r0 : iblk6 V c 0 t (ix2 p q) = V c main_v59 (ix2 ((((cfg6.win 3).blk t).view.emb (ix2 p q)) 0) ((((cfg6.win 3).blk t).view.emb (ix2 p q)) 1)) := congrArg (V c main_v59) ha
  have r1 : iblk6 V c 1 t (ix2 p (0 : Fin 1)) = V c main_v15 (ix2 ((((cfg6.win 3).blk t).view.emb (ix2 p q)) 0) (0 : Fin 1)) := congrArg (V c main_v15) hd
  have r2 : iblk6 V c 2 t (ix2 (0 : Fin 1) q) = V c main_v17 (ix2 (0 : Fin 1) ((((cfg6.win 3).blk t).view.emb (ix2 p q)) 1)) := congrArg (V c main_v17) hb
  rw [r0, r1, r2]

theorem mem_blk6 (t : Fin cfg6.N) (i : S50000x128.Idx) :
    i ∈ ((cfg6.win 3).blk t).view.set ↔ ∀ a : Fin 2, win6_3.index t a * S5000x128.size a ≤ (i a).val ∧ (i a).val < win6_3.index t a * S5000x128.size a + S5000x128.size a := by
  show i ∈ ((View.whole main_v60).slice (win6_3.rect t)).set ↔ _
  rw [View.set_slice_whole, Rect.mem_set_unit]
  exact Iff.rfl

/-- Row r lies in the block of grid point r / 5000. -/
theorem cover6 (i : S50000x128.Idx) : ∃ t : Fin cfg6.N, (cfg6.win 3).flush t = true ∧ i ∈ ((cfg6.win 3).blk t).view.set := by
  have hi0 : (i 0).val < 50000 := (i 0).isLt
  have hi1 : (i 1).val < 128 := (i 1).isLt
  refine ⟨⟨(i 0).val / 5000, by show (i 0).val / 5000 < 10; omega⟩, flush6_3 _, ?_⟩
  rw [mem_blk6]
  obtain ⟨e0, e1, e2, e3, e4, e5, e6, e7⟩ := idx_facts6 ⟨(i 0).val / 5000, by show (i 0).val / 5000 < 10; omega⟩
  intro a
  match a with
  | ⟨0, _⟩ => show win6_3.index _ (0 : Fin 2) * 5000 ≤ (i 0).val ∧ (i 0).val < win6_3.index _ (0 : Fin 2) * 5000 + 5000; rw [e6]; show (i 0).val / 5000 * 5000 ≤ (i 0).val ∧ (i 0).val < (i 0).val / 5000 * 5000 + 5000; omega
  | ⟨1, _⟩ => show win6_3.index _ (1 : Fin 2) * 128 ≤ (i 1).val ∧ (i 1).val < win6_3.index _ (1 : Fin 2) * 128 + 128; rw [e7]; omega

/-- The call's result array, whole. -/
theorem final6 (c : Dev nD) : (dat6 V c).arrAt 3 cfg6.N = epiG (V c main_v59) (V c main_v15) (V c main_v17) :=
  (dat6 V c).arrAt_eq_of_cover 3 _ (fun t _ => flushed6_eq V c t) (cover6)

end Cert.KernelIdeal.Regions

end
-- ==== Proof.KReg7.lean ====
/-
  Call 7 of the idealized kernel program (a row-scaled product) as one whole-array function of the arrays it finds.
-/
import proofs.«100823_j26800595927067_2_alg».proof.Proof.Gen.KernelIdeal.Frame
import proofs.«100823_j26800595927067_2_alg».proof.Proof.KPay
import proofs.«100823_j26800595927067_2_alg».proof.Proof.KRegDefs
import Idealize.ShloMosaic.Lib.Pipeline.Value

set_option maxRecDepth 16384

noncomputable section

namespace Cert.KernelIdeal.Regions

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Pay

variable (V : (c : Dev nD) → (b : Ref sig .tc) → Buf (Elt Ideal) ((c : Thread nD τ).loc b))

/-! ## Call 7: the row-scaled product, 5000 rows per grid point -/

theorem mul3_congr7 {a a' b b' c c' : EReal} (ha : a = a') (hb : b = b') (hc : c = c') : (a * b) * c = (a' * b') * c' := by rw [ha, hb, hc]

theorem idx_facts7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0
    ∧ win7_3.index t (0 : Fin 2) = t.val ∧ win7_3.index t (1 : Fin 2) = 0 :=
  (by decide +kernel : ∀ t : Fin grid7.N, _)

/-- What grid point t writes back is block t (rows 5000·t … 5000·t + 4999) of the whole-array product. -/
theorem flushed7_eq (c : Dev nD) (t : Fin cfg7.N) :
    (dat7 V c).flushed 3 t = ((cfg7.win 3).blk t).view.read (Elt Ideal)
      (linG (K := 128) (V c main_v60) (V c main_arg11) (V c main_v15)) := by
  show (cfg7.win 3).cut (grid7.coords t) ((dat7 V c).after 3 t) = _
  rw [after7_3]
  unfold out7_3
  rw [View.canon_unit_zero hz]
  simp only [View.ld_unit_zero (S := S5000x128) hz, View.ld_unit_zero (S := S5000x1) hz, View.ld_unit_zero (S := S128x128) hz]
  obtain ⟨e0, e1, e2, e3, e4, e5, e6, e7⟩ := idx_facts7 t
  funext j
  obtain ⟨p, q, rfl⟩ : ∃ (p : Fin 5000) (q : Fin 128), j = ix2 p q := ⟨j 0, j 1, eq_ix2 j⟩
  refine (k7_pay1_apply _ _ _ p q).trans ?_
  show _ = linG (K := 128) (V c main_v60) (V c main_arg11) (V c main_v15) (((cfg7.win 3).blk t).view.emb (ix2 p q))
  unfold linG
  refine Finset.sum_congr rfl fun k _ => ?_
  have hp : p.val < 5000 := p.isLt
  have ht : t.val < 10 := t.isLt
  have hx : ((cfg7.win 0).blk t).view.emb (ix2 p k) = ix2 ((((cfg7.win 3).blk t).view.emb (ix2 p q)) 0) k := by
    funext a; apply Fin.ext
    match a with
    | ⟨0, _⟩ => show win7_0.index t (0 : Fin 2) * 5000 + 1 * p.val = win7_3.index t (0 : Fin 2) * 5000 + 1 * p.val; omega
    | ⟨1, _⟩ => show win7_0.index t (1 : Fin 2) * 128 + 1 * k.val = k.val; omega
  have hd : ((cfg7.win 2).blk t).view.emb (ix2 p (0 : Fin 1)) = ix2 ((((cfg7.win 3).blk t).view.emb (ix2 p q)) 0) (0 : Fin 1) := by
    funext a; apply Fin.ext
    match a with
    | ⟨0, _⟩ => show win7_2.index t (0 : Fin 2) * 5000 + 1 * p.val = win7_3.index t (0 : Fin 2) * 5000 + 1 * p.val; omega
    | ⟨1, _⟩ => show win7_2.index t (1 : Fin 2) * 1 + 1 * 0 = 0; omega
  have hw : ((cfg7.win 1).blk t).view.emb (ix2 k q) = ix2 k ((((cfg7.win 3).blk t).view.emb (ix2 p q)) 1) := by
    funext a; apply Fin.ext
    match a with
    | ⟨0, _⟩ => show win7_1.index t (0 : Fin 2) * 128 + 1 * k.val = k.val; omega
    | ⟨1, _⟩ => show win7_1.index t (1 : Fin 2) * 128 + 1 * q.val = win7_3.index t (1 : Fin 2) * 128 + 1 * q.val; omega
  exact mul3_congr7 (congrArg (V c main_v60) hx) (congrArg (V c main_v15) hd) (congrArg (V c main_arg11) hw)

theorem mem_blk7 (t : Fin cfg7.N) (i : S50000x128.Idx) :
    i ∈ ((cfg7.win 3).blk t).view.set ↔ ∀ a : Fin 2, win7_3.index t a * S5000x128.size a ≤ (i a).val ∧ (i a).val < win7_3.index t a * S5000x128.size a + S5000x128.size a := by
  show i ∈ ((View.whole main_v61).slice (win7_3.rect t)).set ↔ _
  rw [View.set_slice_whole, Rect.mem_set_unit]
  exact Iff.rfl

/-- Row r lies in the block of grid point r / 5000. -/
theorem cover7 (i : S50000x128.Idx) : ∃ t : Fin cfg7.N, (cfg7.win 3).flush t = true ∧ i ∈ ((cfg7.win 3).blk t).view.set := by
  have hi0 : (i 0).val < 50000 := (i 0).isLt
  have hi1 : (i 1).val < 128 := (i 1).isLt
  refine ⟨⟨(i 0).val / 5000, by show (i 0).val / 5000 < 10; omega⟩, flush7_3 _, ?_⟩
  rw [mem_blk7]
  obtain ⟨e0, e1, e2, e3, e4, e5, e6, e7⟩ := idx_facts7 ⟨(i 0).val / 5000, by show (i 0).val / 5000 < 10; omega⟩
  intro a
  match a with
  | ⟨0, _⟩ => show win7_3.index _ (0 : Fin 2) * 5000 ≤ (i 0).val ∧ (i 0).val < win7_3.index _ (0 : Fin 2) * 5000 + 5000; rw [e6]; show (i 0).val / 5000 * 5000 ≤ (i 0).val ∧ (i 0).val < (i 0).val / 5000 * 5000 + 5000; omega
  | ⟨1, _⟩ => show win7_3.index _ (1 : Fin 2) * 128 ≤ (i 1).val ∧ (i 1).val < win7_3.index _ (1 : Fin 2) * 128 + 128; rw [e7]; omega

/-- The call's result array, whole: the row-scaled product of its operand arrays as the call finds them. -/
theorem final7 (c : Dev nD) : (dat7 V c).arrAt 3 cfg7.N = linG (K := 128) (V c main_v60) (V c main_arg11) (V c main_v15) :=
  (dat7 V c).arrAt_eq_of_cover 3 _ (fun t _ => flushed7_eq V c t) (cover7)

end Cert.KernelIdeal.Regions

end
-- ==== Proof.KReg8.lean ====
/-
  Call 8 of the idealized kernel program (a post-scale and bias) as one whole-array function of the arrays it finds.
-/
import proofs.«100823_j26800595927067_2_alg».proof.Proof.Gen.KernelIdeal.Frame
import proofs.«100823_j26800595927067_2_alg».proof.Proof.KPay
import proofs.«100823_j26800595927067_2_alg».proof.Proof.KRegDefs
import Idealize.ShloMosaic.Lib.Pipeline.Value

set_option maxRecDepth 16384

noncomputable section

namespace Cert.KernelIdeal.Regions

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Pay

variable (V : (c : Dev nD) → (b : Ref sig .tc) → Buf (Elt Ideal) ((c : Thread nD τ).loc b))

/-! ## Call 8: the post-scale and bias, 5000 rows per grid point -/

theorem idx_facts8 : ∀ t : Fin cfg8.N, win8_0.index t (0 : Fin 2) = t.val ∧ win8_0.index t (1 : Fin 2) = 0
    ∧ win8_1.index t (0 : Fin 2) = t.val ∧ win8_1.index t (1 : Fin 2) = 0
    ∧ win8_2.index t (0 : Fin 2) = 0 ∧ win8_2.index t (1 : Fin 2) = 0
    ∧ win8_3.index t (0 : Fin 2) = t.val ∧ win8_3.index t (1 : Fin 2) = 0 :=
  (by decide +kernel : ∀ t : Fin grid8.N, _)

set_option maxHeartbeats 1600000 in
/-- What grid point t writes back is block t (rows 5000·t … 5000·t + 4999) of the whole-array function. -/
theorem flushed8_eq (c : Dev nD) (t : Fin cfg8.N) :
    (dat8 V c).flushed 3 t = ((cfg8.win 3).blk t).view.read (Elt Ideal)
      (epiG (V c main_v71) (V c main_v15) (V c main_v18)) := by
  show (cfg8.win 3).cut (grid8.coords t) ((dat8 V c).after 3 t) = _
  rw [after8_3]
  unfold out8_3
  rw [View.canon_unit_zero hz]
  simp only [View.ld_unit_zero (S := S5000x128) hz, View.ld_unit_zero (S := S5000x1) hz, View.ld_unit_zero (S := S1x128) hz]
  obtain ⟨e0, e1, e2, e3, e4, e5, e6, e7⟩ := idx_facts8 t
  funext j
  obtain ⟨p, q, rfl⟩ : ∃ (p : Fin 5000) (q : Fin 128), j = ix2 p q := ⟨j 0, j 1, eq_ix2 j⟩
  refine (k8_pay1_apply _ _ _ p q).trans ?_
  show _ = epiG (V c main_v71) (V c main_v15) (V c main_v18) (((cfg8.win 3).blk t).view.emb (ix2 p q))
  unfold epiG
  have hp : p.val < 5000 := p.isLt
  have ht : t.val < 10 := t.isLt
  have ha : ((cfg8.win 0).blk t).view.emb (ix2 p q) = ix2 ((((cfg8.win 3).blk t).view.emb (ix2 p q)) 0) ((((cfg8.win 3).blk t).view.emb (ix2 p q)) 1) := by
    funext a; apply Fin.ext
    match a with
    | ⟨0, _⟩ => show win8_0.index t (0 : Fin 2) * 5000 + 1 * p.val = win8_3.index t (0 : Fin 2) * 5000 + 1 * p.val; omega
    | ⟨1, _⟩ => show win8_0.index t (1 : Fin 2) * 128 + 1 * q.val = win8_3.index t (1 : Fin 2) * 128 + 1 * q.val; omega
  have hd : ((cfg8.win 1).blk t).view.emb (ix2 p (0 : Fin 1)) = ix2 ((((cfg8.win 3).blk t).view.emb (ix2 p q)) 0) (0 : Fin 1) := by
    funext a; apply Fin.ext
    match a with
    | ⟨0, _⟩ => show win8_1.index t (0 : Fin 2) * 5000 + 1 * p.val = win8_3.index t (0 : Fin 2) * 5000 + 1 * p.val; omega
    | ⟨1, _⟩ => show win8_1.index t (1 : Fin 2) * 1 + 1 * 0 = 0; omega
  have hb : ((cfg8.win 2).blk t).view.emb (ix2 (0 : Fin 1) q) = ix2 (0 : Fin 1) ((((cfg8.win 3).blk t).view.emb (ix2 p q)) 1) := by
    funext a; apply Fin.ext
    match a with
    | ⟨0, _⟩ => show win8_2.index t (0 : Fin 2) * 1 + 1 * 0 = 0; omega
    | ⟨1, _⟩ => show win8_2.index t (1 : Fin 2) * 128 + 1 * q.val = win8_3.index t (1 : Fin 2) * 128 + 1 * q.val; omega
  have r0 : iblk8 V c 0 t (ix2 p q) = V c main_v71 (ix2 ((((cfg8.win 3).blk t).view.emb (ix2 p q)) 0) ((((cfg8.win 3).blk t).view.emb (ix2 p q)) 1)) := congrArg (V c main_v71) ha
  have r1 : iblk8 V c 1 t (ix2 p (0 : Fin 1)) = V c main_v15 (ix2 ((((cfg8.win 3).blk t).view.emb (ix2 p q)) 0) (0 : Fin 1)) := congrArg (V c main_v15) hd
  have r2 : iblk8 V c 2 t (ix2 (0 : Fin 1) q) = V c main_v18 (ix2 (0 : Fin 1) ((((cfg8.win 3).blk t).view.emb (ix2 p q)) 1)) := congrArg (V c main_v18) hb
  rw [r0, r1, r2]

theorem mem_blk8 (t : Fin cfg8.N) (i : S50000x128.Idx) :
    i ∈ ((cfg8.win 3).blk t).view.set ↔ ∀ a : Fin 2, win8_3.index t a * S5000x128.size a ≤ (i a).val ∧ (i a).val < win8_3.index t a * S5000x128.size a + S5000x128.size a := by
  show i ∈ ((View.whole main_v72).slice (win8_3.rect t)).set ↔ _
  rw [View.set_slice_whole, Rect.mem_set_unit]
  exact Iff.rfl

/-- Row r lies in the block of grid point r / 5000. -/
theorem cover8 (i : S50000x128.Idx) : ∃ t : Fin cfg8.N, (cfg8.win 3).flush t = true ∧ i ∈ ((cfg8.win 3).blk t).view.set := by
  have hi0 : (i 0).val < 50000 := (i 0).isLt
  have hi1 : (i 1).val < 128 := (i 1).isLt
  refine ⟨⟨(i 0).val / 5000, by show (i 0).val / 5000 < 10; omega⟩, flush8_3 _, ?_⟩
  rw [mem_blk8]
  obtain ⟨e0, e1, e2, e3, e4, e5, e6, e7⟩ := idx_facts8 ⟨(i 0).val / 5000, by show (i 0).val / 5000 < 10; omega⟩
  intro a
  match a with
  | ⟨0, _⟩ => show win8_3.index _ (0 : Fin 2) * 5000 ≤ (i 0).val ∧ (i 0).val < win8_3.index _ (0 : Fin 2) * 5000 + 5000; rw [e6]; show (i 0).val / 5000 * 5000 ≤ (i 0).val ∧ (i 0).val < (i 0).val / 5000 * 5000 + 5000; omega
  | ⟨1, _⟩ => show win8_3.index _ (1 : Fin 2) * 128 ≤ (i 1).val ∧ (i 1).val < win8_3.index _ (1 : Fin 2) * 128 + 128; rw [e7]; omega

/-- The call's result array, whole. -/
theorem final8 (c : Dev nD) : (dat8 V c).arrAt 3 cfg8.N = epiG (V c main_v71) (V c main_v15) (V c main_v18) :=
  (dat8 V c).arrAt_eq_of_cover 3 _ (fun t _ => flushed8_eq V c t) (cover8)

end Cert.KernelIdeal.Regions

end
-- ==== Proof.KChainA.lean ====
/-
  The idealized kernel program's buffers before its first call: the edge lists, the per-node factor as a column, and the biases as rows, as functions of the argument arrays; and the argument arrays carried to the boundaries that read them.
-/
import proofs.«100823_j26800595927067_2_alg».proof.Proof.Gen.KernelIdeal.Frame
import proofs.«100823_j26800595927067_2_alg».proof.Proof.ReadP
import Idealize.ShloMosaic.Lib.StableHlo.Run

set_option maxRecDepth 16384

noncomputable section

namespace Cert.KernelIdeal.Chain

open Idealize.ShloMosaic Idealize.ShloMosaic.TcCoe Idealize.ShloMosaic.ValueIdx Idealize.SL.Sem Idealize.ShloMosaic.StableHlo
open Cert.KernelIdeal Cert.KernelIdeal.Gen
open Cert.ReferenceIdeal (ReadP.val_main_v3 ReadP.val_main_v6 ReadP.val_main_v14 ReadP.val_main_v12 ReadP.val_main_v13 ReadP.val_main_cst_2)

variable (m : (ℓ : Loc nD τ sig) → Buf (Elt Ideal) ℓ) (ρ : Dev nD → PrngReg) (c : Dev nD)

/-- A buffer no operation of the stretch writes holds after it what it held before. -/
macro "carry_host" ops:ident : tactic => `(tactic| (
  refine StableHlo.after_of_forall_not_mem _ _ (List.forall_iff_forall_mem.mp ?_)
  simp only [$ops:ident, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))

/-! ## The argument arrays at the boundaries where they are read -/

theorem at0_arg0 : W0 m ρ c (Proc.devRef .tc main_arg0) = m ((c : Thread nD τ).loc main_arg0) := rfl
theorem at1_arg0 : W1 m ρ c (Proc.devRef .tc main_arg0) = m ((c : Thread nD τ).loc main_arg0) :=
  ((by carry_host hostOps0) : W1 m ρ c (Proc.devRef .tc main_arg0) = W0 m ρ c (Proc.devRef .tc main_arg0)).trans (at0_arg0 m ρ c)
theorem at2_arg0 : W2 m ρ c (Proc.devRef .tc main_arg0) = m ((c : Thread nD τ).loc main_arg0) :=
  ((by carry_host hostOps0_1) : W2 m ρ c (Proc.devRef .tc main_arg0) = W1 m ρ c (Proc.devRef .tc main_arg0)).trans (at1_arg0 m ρ c)
theorem at3_arg0 : W3 m ρ c (Proc.devRef .tc main_arg0) = m ((c : Thread nD τ).loc main_arg0) :=
  ((by carry_host hostOps0_2) : W3 m ρ c (Proc.devRef .tc main_arg0) = W2 m ρ c (Proc.devRef .tc main_arg0)).trans (at2_arg0 m ρ c)

theorem at0_arg3 : W0 m ρ c (Proc.devRef .tc main_arg3) = m ((c : Thread nD τ).loc main_arg3) := rfl
theorem at1_arg3 : W1 m ρ c (Proc.devRef .tc main_arg3) = m ((c : Thread nD τ).loc main_arg3) :=
  ((by carry_host hostOps0) : W1 m ρ c (Proc.devRef .tc main_arg3) = W0 m ρ c (Proc.devRef .tc main_arg3)).trans (at0_arg3 m ρ c)
theorem at2_arg3 : W2 m ρ c (Proc.devRef .tc main_arg3) = m ((c : Thread nD τ).loc main_arg3) :=
  ((by carry_host hostOps0_1) : W2 m ρ c (Proc.devRef .tc main_arg3) = W1 m ρ c (Proc.devRef .tc main_arg3)).trans (at1_arg3 m ρ c)
theorem at3_arg3 : W3 m ρ c (Proc.devRef .tc main_arg3) = m ((c : Thread nD τ).loc main_arg3) :=
  ((by carry_host hostOps0_2) : W3 m ρ c (Proc.devRef .tc main_arg3) = W2 m ρ c (Proc.devRef .tc main_arg3)).trans (at2_arg3 m ρ c)

theorem at0_arg5 : W0 m ρ c (Proc.devRef .tc main_arg5) = m ((c : Thread nD τ).loc main_arg5) := rfl
theorem at1_arg5 : W1 m ρ c (Proc.devRef .tc main_arg5) = m ((c : Thread nD τ).loc main_arg5) :=
  ((by carry_host hostOps0) : W1 m ρ c (Proc.devRef .tc main_arg5) = W0 m ρ c (Proc.devRef .tc main_arg5)).trans (at0_arg5 m ρ c)
theorem at2_arg5 : W2 m ρ c (Proc.devRef .tc main_arg5) = m ((c : Thread nD τ).loc main_arg5) :=
  ((by carry_host hostOps0_1) : W2 m ρ c (Proc.devRef .tc main_arg5) = W1 m ρ c (Proc.devRef .tc main_arg5)).trans (at1_arg5 m ρ c)
theorem at3_arg5 : W3 m ρ c (Proc.devRef .tc main_arg5) = m ((c : Thread nD τ).loc main_arg5) :=
  ((by carry_host hostOps0_2) : W3 m ρ c (Proc.devRef .tc main_arg5) = W2 m ρ c (Proc.devRef .tc main_arg5)).trans (at2_arg5 m ρ c)
theorem at4_arg5 : W4 m ρ c (Proc.devRef .tc main_arg5) = m ((c : Thread nD τ).loc main_arg5) :=
  ((W4_of_ne m ρ c main_arg5 (by decide)) : W4 m ρ c (Proc.devRef .tc main_arg5) = W3 m ρ c (Proc.devRef .tc main_arg5)).trans (at3_arg5 m ρ c)
theorem at5_arg5 : W5 m ρ c (Proc.devRef .tc main_arg5) = m ((c : Thread nD τ).loc main_arg5) :=
  ((by carry_host hostOps1) : W5 m ρ c (Proc.devRef .tc main_arg5) = W4 m ρ c (Proc.devRef .tc main_arg5)).trans (at4_arg5 m ρ c)
theorem at6_arg5 : W6 m ρ c (Proc.devRef .tc main_arg5) = m ((c : Thread nD τ).loc main_arg5) :=
  ((W6_of_ne m ρ c main_arg5 (by decide)) : W6 m ρ c (Proc.devRef .tc main_arg5) = W5 m ρ c (Proc.devRef .tc main_arg5)).trans (at5_arg5 m ρ c)

theorem at0_arg6 : W0 m ρ c (Proc.devRef .tc main_arg6) = m ((c : Thread nD τ).loc main_arg6) := rfl
theorem at1_arg6 : W1 m ρ c (Proc.devRef .tc main_arg6) = m ((c : Thread nD τ).loc main_arg6) :=
  ((by carry_host hostOps0) : W1 m ρ c (Proc.devRef .tc main_arg6) = W0 m ρ c (Proc.devRef .tc main_arg6)).trans (at0_arg6 m ρ c)
theorem at2_arg6 : W2 m ρ c (Proc.devRef .tc main_arg6) = m ((c : Thread nD τ).loc main_arg6) :=
  ((by carry_host hostOps0_1) : W2 m ρ c (Proc.devRef .tc main_arg6) = W1 m ρ c (Proc.devRef .tc main_arg6)).trans (at1_arg6 m ρ c)
theorem at3_arg6 : W3 m ρ c (Proc.devRef .tc main_arg6) = m ((c : Thread nD τ).loc main_arg6) :=
  ((by carry_host hostOps0_2) : W3 m ρ c (Proc.devRef .tc main_arg6) = W2 m ρ c (Proc.devRef .tc main_arg6)).trans (at2_arg6 m ρ c)
theorem at4_arg6 : W4 m ρ c (Proc.devRef .tc main_arg6) = m ((c : Thread nD τ).loc main_arg6) :=
  ((W4_of_ne m ρ c main_arg6 (by decide)) : W4 m ρ c (Proc.devRef .tc main_arg6) = W3 m ρ c (Proc.devRef .tc main_arg6)).trans (at3_arg6 m ρ c)
theorem at5_arg6 : W5 m ρ c (Proc.devRef .tc main_arg6) = m ((c : Thread nD τ).loc main_arg6) :=
  ((by carry_host hostOps1) : W5 m ρ c (Proc.devRef .tc main_arg6) = W4 m ρ c (Proc.devRef .tc main_arg6)).trans (at4_arg6 m ρ c)
theorem at6_arg6 : W6 m ρ c (Proc.devRef .tc main_arg6) = m ((c : Thread nD τ).loc main_arg6) :=
  ((W6_of_ne m ρ c main_arg6 (by decide)) : W6 m ρ c (Proc.devRef .tc main_arg6) = W5 m ρ c (Proc.devRef .tc main_arg6)).trans (at5_arg6 m ρ c)

theorem at0_arg7 : W0 m ρ c (Proc.devRef .tc main_arg7) = m ((c : Thread nD τ).loc main_arg7) := rfl
theorem at1_arg7 : W1 m ρ c (Proc.devRef .tc main_arg7) = m ((c : Thread nD τ).loc main_arg7) :=
  ((by carry_host hostOps0) : W1 m ρ c (Proc.devRef .tc main_arg7) = W0 m ρ c (Proc.devRef .tc main_arg7)).trans (at0_arg7 m ρ c)
theorem at2_arg7 : W2 m ρ c (Proc.devRef .tc main_arg7) = m ((c : Thread nD τ).loc main_arg7) :=
  ((by carry_host hostOps0_1) : W2 m ρ c (Proc.devRef .tc main_arg7) = W1 m ρ c (Proc.devRef .tc main_arg7)).trans (at1_arg7 m ρ c)
theorem at3_arg7 : W3 m ρ c (Proc.devRef .tc main_arg7) = m ((c : Thread nD τ).loc main_arg7) :=
  ((by carry_host hostOps0_2) : W3 m ρ c (Proc.devRef .tc main_arg7) = W2 m ρ c (Proc.devRef .tc main_arg7)).trans (at2_arg7 m ρ c)
theorem at4_arg7 : W4 m ρ c (Proc.devRef .tc main_arg7) = m ((c : Thread nD τ).loc main_arg7) :=
  ((W4_of_ne m ρ c main_arg7 (by decide)) : W4 m ρ c (Proc.devRef .tc main_arg7) = W3 m ρ c (Proc.devRef .tc main_arg7)).trans (at3_arg7 m ρ c)
theorem at5_arg7 : W5 m ρ c (Proc.devRef .tc main_arg7) = m ((c : Thread nD τ).loc main_arg7) :=
  ((by carry_host hostOps1) : W5 m ρ c (Proc.devRef .tc main_arg7) = W4 m ρ c (Proc.devRef .tc main_arg7)).trans (at4_arg7 m ρ c)
theorem at6_arg7 : W6 m ρ c (Proc.devRef .tc main_arg7) = m ((c : Thread nD τ).loc main_arg7) :=
  ((W6_of_ne m ρ c main_arg7 (by decide)) : W6 m ρ c (Proc.devRef .tc main_arg7) = W5 m ρ c (Proc.devRef .tc main_arg7)).trans (at5_arg7 m ρ c)

theorem at0_arg8 : W0 m ρ c (Proc.devRef .tc main_arg8) = m ((c : Thread nD τ).loc main_arg8) := rfl
theorem at1_arg8 : W1 m ρ c (Proc.devRef .tc main_arg8) = m ((c : Thread nD τ).loc main_arg8) :=
  ((by carry_host hostOps0) : W1 m ρ c (Proc.devRef .tc main_arg8) = W0 m ρ c (Proc.devRef .tc main_arg8)).trans (at0_arg8 m ρ c)
theorem at2_arg8 : W2 m ρ c (Proc.devRef .tc main_arg8) = m ((c : Thread nD τ).loc main_arg8) :=
  ((by carry_host hostOps0_1) : W2 m ρ c (Proc.devRef .tc main_arg8) = W1 m ρ c (Proc.devRef .tc main_arg8)).trans (at1_arg8 m ρ c)
theorem at3_arg8 : W3 m ρ c (Proc.devRef .tc main_arg8) = m ((c : Thread nD τ).loc main_arg8) :=
  ((by carry_host hostOps0_2) : W3 m ρ c (Proc.devRef .tc main_arg8) = W2 m ρ c (Proc.devRef .tc main_arg8)).trans (at2_arg8 m ρ c)
theorem at4_arg8 : W4 m ρ c (Proc.devRef .tc main_arg8) = m ((c : Thread nD τ).loc main_arg8) :=
  ((W4_of_ne m ρ c main_arg8 (by decide)) : W4 m ρ c (Proc.devRef .tc main_arg8) = W3 m ρ c (Proc.devRef .tc main_arg8)).trans (at3_arg8 m ρ c)
theorem at5_arg8 : W5 m ρ c (Proc.devRef .tc main_arg8) = m ((c : Thread nD τ).loc main_arg8) :=
  ((by carry_host hostOps1) : W5 m ρ c (Proc.devRef .tc main_arg8) = W4 m ρ c (Proc.devRef .tc main_arg8)).trans (at4_arg8 m ρ c)
theorem at6_arg8 : W6 m ρ c (Proc.devRef .tc main_arg8) = m ((c : Thread nD τ).loc main_arg8) :=
  ((W6_of_ne m ρ c main_arg8 (by decide)) : W6 m ρ c (Proc.devRef .tc main_arg8) = W5 m ρ c (Proc.devRef .tc main_arg8)).trans (at5_arg8 m ρ c)

theorem at0_arg2 : W0 m ρ c (Proc.devRef .tc main_arg2) = m ((c : Thread nD τ).loc main_arg2) := rfl
theorem at1_arg2 : W1 m ρ c (Proc.devRef .tc main_arg2) = m ((c : Thread nD τ).loc main_arg2) :=
  ((by carry_host hostOps0) : W1 m ρ c (Proc.devRef .tc main_arg2) = W0 m ρ c (Proc.devRef .tc main_arg2)).trans (at0_arg2 m ρ c)
theorem at2_arg2 : W2 m ρ c (Proc.devRef .tc main_arg2) = m ((c : Thread nD τ).loc main_arg2) :=
  ((by carry_host hostOps0_1) : W2 m ρ c (Proc.devRef .tc main_arg2) = W1 m ρ c (Proc.devRef .tc main_arg2)).trans (at1_arg2 m ρ c)
theorem at3_arg2 : W3 m ρ c (Proc.devRef .tc main_arg2) = m ((c : Thread nD τ).loc main_arg2) :=
  ((by carry_host hostOps0_2) : W3 m ρ c (Proc.devRef .tc main_arg2) = W2 m ρ c (Proc.devRef .tc main_arg2)).trans (at2_arg2 m ρ c)
theorem at4_arg2 : W4 m ρ c (Proc.devRef .tc main_arg2) = m ((c : Thread nD τ).loc main_arg2) :=
  ((W4_of_ne m ρ c main_arg2 (by decide)) : W4 m ρ c (Proc.devRef .tc main_arg2) = W3 m ρ c (Proc.devRef .tc main_arg2)).trans (at3_arg2 m ρ c)
theorem at5_arg2 : W5 m ρ c (Proc.devRef .tc main_arg2) = m ((c : Thread nD τ).loc main_arg2) :=
  ((by carry_host hostOps1) : W5 m ρ c (Proc.devRef .tc main_arg2) = W4 m ρ c (Proc.devRef .tc main_arg2)).trans (at4_arg2 m ρ c)
theorem at6_arg2 : W6 m ρ c (Proc.devRef .tc main_arg2) = m ((c : Thread nD τ).loc main_arg2) :=
  ((W6_of_ne m ρ c main_arg2 (by decide)) : W6 m ρ c (Proc.devRef .tc main_arg2) = W5 m ρ c (Proc.devRef .tc main_arg2)).trans (at5_arg2 m ρ c)
theorem at7_arg2 : W7 m ρ c (Proc.devRef .tc main_arg2) = m ((c : Thread nD τ).loc main_arg2) :=
  ((by carry_host hostOps2) : W7 m ρ c (Proc.devRef .tc main_arg2) = W6 m ρ c (Proc.devRef .tc main_arg2)).trans (at6_arg2 m ρ c)
theorem at8_arg2 : W8 m ρ c (Proc.devRef .tc main_arg2) = m ((c : Thread nD τ).loc main_arg2) :=
  ((W8_of_ne m ρ c main_arg2 (by decide)) : W8 m ρ c (Proc.devRef .tc main_arg2) = W7 m ρ c (Proc.devRef .tc main_arg2)).trans (at7_arg2 m ρ c)
theorem at9_arg2 : W9 m ρ c (Proc.devRef .tc main_arg2) = m ((c : Thread nD τ).loc main_arg2) :=
  ((by carry_host hostOps3) : W9 m ρ c (Proc.devRef .tc main_arg2) = W8 m ρ c (Proc.devRef .tc main_arg2)).trans (at8_arg2 m ρ c)
theorem at10_arg2 : W10 m ρ c (Proc.devRef .tc main_arg2) = m ((c : Thread nD τ).loc main_arg2) :=
  ((W10_of_ne m ρ c main_arg2 (by decide)) : W10 m ρ c (Proc.devRef .tc main_arg2) = W9 m ρ c (Proc.devRef .tc main_arg2)).trans (at9_arg2 m ρ c)
theorem at11_arg2 : W11 m ρ c (Proc.devRef .tc main_arg2) = m ((c : Thread nD τ).loc main_arg2) :=
  ((by carry_host hostOps4) : W11 m ρ c (Proc.devRef .tc main_arg2) = W10 m ρ c (Proc.devRef .tc main_arg2)).trans (at10_arg2 m ρ c)

theorem at0_arg9 : W0 m ρ c (Proc.devRef .tc main_arg9) = m ((c : Thread nD τ).loc main_arg9) := rfl
theorem at1_arg9 : W1 m ρ c (Proc.devRef .tc main_arg9) = m ((c : Thread nD τ).loc main_arg9) :=
  ((by carry_host hostOps0) : W1 m ρ c (Proc.devRef .tc main_arg9) = W0 m ρ c (Proc.devRef .tc main_arg9)).trans (at0_arg9 m ρ c)
theorem at2_arg9 : W2 m ρ c (Proc.devRef .tc main_arg9) = m ((c : Thread nD τ).loc main_arg9) :=
  ((by carry_host hostOps0_1) : W2 m ρ c (Proc.devRef .tc main_arg9) = W1 m ρ c (Proc.devRef .tc main_arg9)).trans (at1_arg9 m ρ c)
theorem at3_arg9 : W3 m ρ c (Proc.devRef .tc main_arg9) = m ((c : Thread nD τ).loc main_arg9) :=
  ((by carry_host hostOps0_2) : W3 m ρ c (Proc.devRef .tc main_arg9) = W2 m ρ c (Proc.devRef .tc main_arg9)).trans (at2_arg9 m ρ c)
theorem at4_arg9 : W4 m ρ c (Proc.devRef .tc main_arg9) = m ((c : Thread nD τ).loc main_arg9) :=
  ((W4_of_ne m ρ c main_arg9 (by decide)) : W4 m ρ c (Proc.devRef .tc main_arg9) = W3 m ρ c (Proc.devRef .tc main_arg9)).trans (at3_arg9 m ρ c)
theorem at5_arg9 : W5 m ρ c (Proc.devRef .tc main_arg9) = m ((c : Thread nD τ).loc main_arg9) :=
  ((by carry_host hostOps1) : W5 m ρ c (Proc.devRef .tc main_arg9) = W4 m ρ c (Proc.devRef .tc main_arg9)).trans (at4_arg9 m ρ c)
theorem at6_arg9 : W6 m ρ c (Proc.devRef .tc main_arg9) = m ((c : Thread nD τ).loc main_arg9) :=
  ((W6_of_ne m ρ c main_arg9 (by decide)) : W6 m ρ c (Proc.devRef .tc main_arg9) = W5 m ρ c (Proc.devRef .tc main_arg9)).trans (at5_arg9 m ρ c)
theorem at7_arg9 : W7 m ρ c (Proc.devRef .tc main_arg9) = m ((c : Thread nD τ).loc main_arg9) :=
  ((by carry_host hostOps2) : W7 m ρ c (Proc.devRef .tc main_arg9) = W6 m ρ c (Proc.devRef .tc main_arg9)).trans (at6_arg9 m ρ c)
theorem at8_arg9 : W8 m ρ c (Proc.devRef .tc main_arg9) = m ((c : Thread nD τ).loc main_arg9) :=
  ((W8_of_ne m ρ c main_arg9 (by decide)) : W8 m ρ c (Proc.devRef .tc main_arg9) = W7 m ρ c (Proc.devRef .tc main_arg9)).trans (at7_arg9 m ρ c)
theorem at9_arg9 : W9 m ρ c (Proc.devRef .tc main_arg9) = m ((c : Thread nD τ).loc main_arg9) :=
  ((by carry_host hostOps3) : W9 m ρ c (Proc.devRef .tc main_arg9) = W8 m ρ c (Proc.devRef .tc main_arg9)).trans (at8_arg9 m ρ c)
theorem at10_arg9 : W10 m ρ c (Proc.devRef .tc main_arg9) = m ((c : Thread nD τ).loc main_arg9) :=
  ((W10_of_ne m ρ c main_arg9 (by decide)) : W10 m ρ c (Proc.devRef .tc main_arg9) = W9 m ρ c (Proc.devRef .tc main_arg9)).trans (at9_arg9 m ρ c)
theorem at11_arg9 : W11 m ρ c (Proc.devRef .tc main_arg9) = m ((c : Thread nD τ).loc main_arg9) :=
  ((by carry_host hostOps4) : W11 m ρ c (Proc.devRef .tc main_arg9) = W10 m ρ c (Proc.devRef .tc main_arg9)).trans (at10_arg9 m ρ c)
theorem at12_arg9 : W12 m ρ c (Proc.devRef .tc main_arg9) = m ((c : Thread nD τ).loc main_arg9) :=
  ((W12_of_ne m ρ c main_arg9 (by decide)) : W12 m ρ c (Proc.devRef .tc main_arg9) = W11 m ρ c (Proc.devRef .tc main_arg9)).trans (at11_arg9 m ρ c)

theorem at0_arg11 : W0 m ρ c (Proc.devRef .tc main_arg11) = m ((c : Thread nD τ).loc main_arg11) := rfl
theorem at1_arg11 : W1 m ρ c (Proc.devRef .tc main_arg11) = m ((c : Thread nD τ).loc main_arg11) :=
  ((by carry_host hostOps0) : W1 m ρ c (Proc.devRef .tc main_arg11) = W0 m ρ c (Proc.devRef .tc main_arg11)).trans (at0_arg11 m ρ c)
theorem at2_arg11 : W2 m ρ c (Proc.devRef .tc main_arg11) = m ((c : Thread nD τ).loc main_arg11) :=
  ((by carry_host hostOps0_1) : W2 m ρ c (Proc.devRef .tc main_arg11) = W1 m ρ c (Proc.devRef .tc main_arg11)).trans (at1_arg11 m ρ c)
theorem at3_arg11 : W3 m ρ c (Proc.devRef .tc main_arg11) = m ((c : Thread nD τ).loc main_arg11) :=
  ((by carry_host hostOps0_2) : W3 m ρ c (Proc.devRef .tc main_arg11) = W2 m ρ c (Proc.devRef .tc main_arg11)).trans (at2_arg11 m ρ c)
theorem at4_arg11 : W4 m ρ c (Proc.devRef .tc main_arg11) = m ((c : Thread nD τ).loc main_arg11) :=
  ((W4_of_ne m ρ c main_arg11 (by decide)) : W4 m ρ c (Proc.devRef .tc main_arg11) = W3 m ρ c (Proc.devRef .tc main_arg11)).trans (at3_arg11 m ρ c)
theorem at5_arg11 : W5 m ρ c (Proc.devRef .tc main_arg11) = m ((c : Thread nD τ).loc main_arg11) :=
  ((by carry_host hostOps1) : W5 m ρ c (Proc.devRef .tc main_arg11) = W4 m ρ c (Proc.devRef .tc main_arg11)).trans (at4_arg11 m ρ c)
theorem at6_arg11 : W6 m ρ c (Proc.devRef .tc main_arg11) = m ((c : Thread nD τ).loc main_arg11) :=
  ((W6_of_ne m ρ c main_arg11 (by decide)) : W6 m ρ c (Proc.devRef .tc main_arg11) = W5 m ρ c (Proc.devRef .tc main_arg11)).trans (at5_arg11 m ρ c)
theorem at7_arg11 : W7 m ρ c (Proc.devRef .tc main_arg11) = m ((c : Thread nD τ).loc main_arg11) :=
  ((by carry_host hostOps2) : W7 m ρ c (Proc.devRef .tc main_arg11) = W6 m ρ c (Proc.devRef .tc main_arg11)).trans (at6_arg11 m ρ c)
theorem at8_arg11 : W8 m ρ c (Proc.devRef .tc main_arg11) = m ((c : Thread nD τ).loc main_arg11) :=
  ((W8_of_ne m ρ c main_arg11 (by decide)) : W8 m ρ c (Proc.devRef .tc main_arg11) = W7 m ρ c (Proc.devRef .tc main_arg11)).trans (at7_arg11 m ρ c)
theorem at9_arg11 : W9 m ρ c (Proc.devRef .tc main_arg11) = m ((c : Thread nD τ).loc main_arg11) :=
  ((by carry_host hostOps3) : W9 m ρ c (Proc.devRef .tc main_arg11) = W8 m ρ c (Proc.devRef .tc main_arg11)).trans (at8_arg11 m ρ c)
theorem at10_arg11 : W10 m ρ c (Proc.devRef .tc main_arg11) = m ((c : Thread nD τ).loc main_arg11) :=
  ((W10_of_ne m ρ c main_arg11 (by decide)) : W10 m ρ c (Proc.devRef .tc main_arg11) = W9 m ρ c (Proc.devRef .tc main_arg11)).trans (at9_arg11 m ρ c)
theorem at11_arg11 : W11 m ρ c (Proc.devRef .tc main_arg11) = m ((c : Thread nD τ).loc main_arg11) :=
  ((by carry_host hostOps4) : W11 m ρ c (Proc.devRef .tc main_arg11) = W10 m ρ c (Proc.devRef .tc main_arg11)).trans (at10_arg11 m ρ c)
theorem at12_arg11 : W12 m ρ c (Proc.devRef .tc main_arg11) = m ((c : Thread nD τ).loc main_arg11) :=
  ((W12_of_ne m ρ c main_arg11 (by decide)) : W12 m ρ c (Proc.devRef .tc main_arg11) = W11 m ρ c (Proc.devRef .tc main_arg11)).trans (at11_arg11 m ρ c)
theorem at13_arg11 : W13 m ρ c (Proc.devRef .tc main_arg11) = m ((c : Thread nD τ).loc main_arg11) :=
  ((W13_of_ne m ρ c main_arg11 (by decide)) : W13 m ρ c (Proc.devRef .tc main_arg11) = W12 m ρ c (Proc.devRef .tc main_arg11)).trans (at12_arg11 m ρ c)
theorem at14_arg11 : W14 m ρ c (Proc.devRef .tc main_arg11) = m ((c : Thread nD τ).loc main_arg11) :=
  ((by carry_host hostOps6) : W14 m ρ c (Proc.devRef .tc main_arg11) = W13 m ρ c (Proc.devRef .tc main_arg11)).trans (at13_arg11 m ρ c)
theorem at15_arg11 : W15 m ρ c (Proc.devRef .tc main_arg11) = m ((c : Thread nD τ).loc main_arg11) :=
  ((W15_of_ne m ρ c main_arg11 (by decide)) : W15 m ρ c (Proc.devRef .tc main_arg11) = W14 m ρ c (Proc.devRef .tc main_arg11)).trans (at14_arg11 m ρ c)

/-! ## The host operations before the first call -/

/-- The source indices with the self loops appended. -/
theorem at1_v3 : W1 m ρ c (Proc.devRef .tc main_v3) = (ReadP.val_main_v3 (F := Ideal) (m ((c : Thread nD τ).loc main_arg1))) := by
  show StableHlo.after hostOps0 (W0 m ρ c) (Proc.devRef .tc main_v3) = _
  after_results
  rfl
theorem at2_v3 : W2 m ρ c (Proc.devRef .tc main_v3) = (ReadP.val_main_v3 (F := Ideal) (m ((c : Thread nD τ).loc main_arg1))) :=
  ((by carry_host hostOps0_1) : W2 m ρ c (Proc.devRef .tc main_v3) = W1 m ρ c (Proc.devRef .tc main_v3)).trans (at1_v3 m ρ c)
theorem at3_v3 : W3 m ρ c (Proc.devRef .tc main_v3) = (ReadP.val_main_v3 (F := Ideal) (m ((c : Thread nD τ).loc main_arg1))) :=
  ((by carry_host hostOps0_2) : W3 m ρ c (Proc.devRef .tc main_v3) = W2 m ρ c (Proc.devRef .tc main_v3)).trans (at2_v3 m ρ c)
theorem at4_v3 : W4 m ρ c (Proc.devRef .tc main_v3) = (ReadP.val_main_v3 (F := Ideal) (m ((c : Thread nD τ).loc main_arg1))) :=
  ((W4_of_ne m ρ c main_v3 (by decide)) : W4 m ρ c (Proc.devRef .tc main_v3) = W3 m ρ c (Proc.devRef .tc main_v3)).trans (at3_v3 m ρ c)
theorem at5_v3 : W5 m ρ c (Proc.devRef .tc main_v3) = (ReadP.val_main_v3 (F := Ideal) (m ((c : Thread nD τ).loc main_arg1))) :=
  ((by carry_host hostOps1) : W5 m ρ c (Proc.devRef .tc main_v3) = W4 m ρ c (Proc.devRef .tc main_v3)).trans (at4_v3 m ρ c)
theorem at6_v3 : W6 m ρ c (Proc.devRef .tc main_v3) = (ReadP.val_main_v3 (F := Ideal) (m ((c : Thread nD τ).loc main_arg1))) :=
  ((W6_of_ne m ρ c main_v3 (by decide)) : W6 m ρ c (Proc.devRef .tc main_v3) = W5 m ρ c (Proc.devRef .tc main_v3)).trans (at5_v3 m ρ c)
theorem at7_v3 : W7 m ρ c (Proc.devRef .tc main_v3) = (ReadP.val_main_v3 (F := Ideal) (m ((c : Thread nD τ).loc main_arg1))) :=
  ((by carry_host hostOps2) : W7 m ρ c (Proc.devRef .tc main_v3) = W6 m ρ c (Proc.devRef .tc main_v3)).trans (at6_v3 m ρ c)
theorem at8_v3 : W8 m ρ c (Proc.devRef .tc main_v3) = (ReadP.val_main_v3 (F := Ideal) (m ((c : Thread nD τ).loc main_arg1))) :=
  ((W8_of_ne m ρ c main_v3 (by decide)) : W8 m ρ c (Proc.devRef .tc main_v3) = W7 m ρ c (Proc.devRef .tc main_v3)).trans (at7_v3 m ρ c)
theorem at9_v3 : W9 m ρ c (Proc.devRef .tc main_v3) = (ReadP.val_main_v3 (F := Ideal) (m ((c : Thread nD τ).loc main_arg1))) :=
  ((by carry_host hostOps3) : W9 m ρ c (Proc.devRef .tc main_v3) = W8 m ρ c (Proc.devRef .tc main_v3)).trans (at8_v3 m ρ c)
theorem at10_v3 : W10 m ρ c (Proc.devRef .tc main_v3) = (ReadP.val_main_v3 (F := Ideal) (m ((c : Thread nD τ).loc main_arg1))) :=
  ((W10_of_ne m ρ c main_v3 (by decide)) : W10 m ρ c (Proc.devRef .tc main_v3) = W9 m ρ c (Proc.devRef .tc main_v3)).trans (at9_v3 m ρ c)
theorem at11_v3 : W11 m ρ c (Proc.devRef .tc main_v3) = (ReadP.val_main_v3 (F := Ideal) (m ((c : Thread nD τ).loc main_arg1))) :=
  ((by carry_host hostOps4) : W11 m ρ c (Proc.devRef .tc main_v3) = W10 m ρ c (Proc.devRef .tc main_v3)).trans (at10_v3 m ρ c)
theorem at12_v3 : W12 m ρ c (Proc.devRef .tc main_v3) = (ReadP.val_main_v3 (F := Ideal) (m ((c : Thread nD τ).loc main_arg1))) :=
  ((W12_of_ne m ρ c main_v3 (by decide)) : W12 m ρ c (Proc.devRef .tc main_v3) = W11 m ρ c (Proc.devRef .tc main_v3)).trans (at11_v3 m ρ c)
theorem at13_v3 : W13 m ρ c (Proc.devRef .tc main_v3) = (ReadP.val_main_v3 (F := Ideal) (m ((c : Thread nD τ).loc main_arg1))) :=
  ((W13_of_ne m ρ c main_v3 (by decide)) : W13 m ρ c (Proc.devRef .tc main_v3) = W12 m ρ c (Proc.devRef .tc main_v3)).trans (at12_v3 m ρ c)
theorem at14_v3 : W14 m ρ c (Proc.devRef .tc main_v3) = (ReadP.val_main_v3 (F := Ideal) (m ((c : Thread nD τ).loc main_arg1))) :=
  ((by carry_host hostOps6) : W14 m ρ c (Proc.devRef .tc main_v3) = W13 m ρ c (Proc.devRef .tc main_v3)).trans (at13_v3 m ρ c)
theorem at15_v3 : W15 m ρ c (Proc.devRef .tc main_v3) = (ReadP.val_main_v3 (F := Ideal) (m ((c : Thread nD τ).loc main_arg1))) :=
  ((W15_of_ne m ρ c main_v3 (by decide)) : W15 m ρ c (Proc.devRef .tc main_v3) = W14 m ρ c (Proc.devRef .tc main_v3)).trans (at14_v3 m ρ c)
theorem at16_v3 : W16 m ρ c (Proc.devRef .tc main_v3) = (ReadP.val_main_v3 (F := Ideal) (m ((c : Thread nD τ).loc main_arg1))) :=
  ((W16_of_ne m ρ c main_v3 (by decide)) : W16 m ρ c (Proc.devRef .tc main_v3) = W15 m ρ c (Proc.devRef .tc main_v3)).trans (at15_v3 m ρ c)

/-- The destination indices with the self loops appended. -/
theorem at1_v6 : W1 m ρ c (Proc.devRef .tc main_v6) = (ReadP.val_main_v6 (F := Ideal) (m ((c : Thread nD τ).loc main_arg1))) := by
  show StableHlo.after hostOps0 (W0 m ρ c) (Proc.devRef .tc main_v6) = _
  after_results
  rfl
theorem at2_v6 : W2 m ρ c (Proc.devRef .tc main_v6) = (ReadP.val_main_v6 (F := Ideal) (m ((c : Thread nD τ).loc main_arg1))) :=
  ((by carry_host hostOps0_1) : W2 m ρ c (Proc.devRef .tc main_v6) = W1 m ρ c (Proc.devRef .tc main_v6)).trans (at1_v6 m ρ c)
theorem at3_v6 : W3 m ρ c (Proc.devRef .tc main_v6) = (ReadP.val_main_v6 (F := Ideal) (m ((c : Thread nD τ).loc main_arg1))) :=
  ((by carry_host hostOps0_2) : W3 m ρ c (Proc.devRef .tc main_v6) = W2 m ρ c (Proc.devRef .tc main_v6)).trans (at2_v6 m ρ c)
theorem at4_v6 : W4 m ρ c (Proc.devRef .tc main_v6) = (ReadP.val_main_v6 (F := Ideal) (m ((c : Thread nD τ).loc main_arg1))) :=
  ((W4_of_ne m ρ c main_v6 (by decide)) : W4 m ρ c (Proc.devRef .tc main_v6) = W3 m ρ c (Proc.devRef .tc main_v6)).trans (at3_v6 m ρ c)
theorem at5_v6 : W5 m ρ c (Proc.devRef .tc main_v6) = (ReadP.val_main_v6 (F := Ideal) (m ((c : Thread nD τ).loc main_arg1))) :=
  ((by carry_host hostOps1) : W5 m ρ c (Proc.devRef .tc main_v6) = W4 m ρ c (Proc.devRef .tc main_v6)).trans (at4_v6 m ρ c)
theorem at6_v6 : W6 m ρ c (Proc.devRef .tc main_v6) = (ReadP.val_main_v6 (F := Ideal) (m ((c : Thread nD τ).loc main_arg1))) :=
  ((W6_of_ne m ρ c main_v6 (by decide)) : W6 m ρ c (Proc.devRef .tc main_v6) = W5 m ρ c (Proc.devRef .tc main_v6)).trans (at5_v6 m ρ c)
theorem at7_v6 : W7 m ρ c (Proc.devRef .tc main_v6) = (ReadP.val_main_v6 (F := Ideal) (m ((c : Thread nD τ).loc main_arg1))) :=
  ((by carry_host hostOps2) : W7 m ρ c (Proc.devRef .tc main_v6) = W6 m ρ c (Proc.devRef .tc main_v6)).trans (at6_v6 m ρ c)
theorem at8_v6 : W8 m ρ c (Proc.devRef .tc main_v6) = (ReadP.val_main_v6 (F := Ideal) (m ((c : Thread nD τ).loc main_arg1))) :=
  ((W8_of_ne m ρ c main_v6 (by decide)) : W8 m ρ c (Proc.devRef .tc main_v6) = W7 m ρ c (Proc.devRef .tc main_v6)).trans (at7_v6 m ρ c)
theorem at9_v6 : W9 m ρ c (Proc.devRef .tc main_v6) = (ReadP.val_main_v6 (F := Ideal) (m ((c : Thread nD τ).loc main_arg1))) :=
  ((by carry_host hostOps3) : W9 m ρ c (Proc.devRef .tc main_v6) = W8 m ρ c (Proc.devRef .tc main_v6)).trans (at8_v6 m ρ c)
theorem at10_v6 : W10 m ρ c (Proc.devRef .tc main_v6) = (ReadP.val_main_v6 (F := Ideal) (m ((c : Thread nD τ).loc main_arg1))) :=
  ((W10_of_ne m ρ c main_v6 (by decide)) : W10 m ρ c (Proc.devRef .tc main_v6) = W9 m ρ c (Proc.devRef .tc main_v6)).trans (at9_v6 m ρ c)
theorem at11_v6 : W11 m ρ c (Proc.devRef .tc main_v6) = (ReadP.val_main_v6 (F := Ideal) (m ((c : Thread nD τ).loc main_arg1))) :=
  ((by carry_host hostOps4) : W11 m ρ c (Proc.devRef .tc main_v6) = W10 m ρ c (Proc.devRef .tc main_v6)).trans (at10_v6 m ρ c)
theorem at12_v6 : W12 m ρ c (Proc.devRef .tc main_v6) = (ReadP.val_main_v6 (F := Ideal) (m ((c : Thread nD τ).loc main_arg1))) :=
  ((W12_of_ne m ρ c main_v6 (by decide)) : W12 m ρ c (Proc.devRef .tc main_v6) = W11 m ρ c (Proc.devRef .tc main_v6)).trans (at11_v6 m ρ c)
theorem at13_v6 : W13 m ρ c (Proc.devRef .tc main_v6) = (ReadP.val_main_v6 (F := Ideal) (m ((c : Thread nD τ).loc main_arg1))) :=
  ((W13_of_ne m ρ c main_v6 (by decide)) : W13 m ρ c (Proc.devRef .tc main_v6) = W12 m ρ c (Proc.devRef .tc main_v6)).trans (at12_v6 m ρ c)
theorem at14_v6 : W14 m ρ c (Proc.devRef .tc main_v6) = (ReadP.val_main_v6 (F := Ideal) (m ((c : Thread nD τ).loc main_arg1))) :=
  ((by carry_host hostOps6) : W14 m ρ c (Proc.devRef .tc main_v6) = W13 m ρ c (Proc.devRef .tc main_v6)).trans (at13_v6 m ρ c)
theorem at15_v6 : W15 m ρ c (Proc.devRef .tc main_v6) = (ReadP.val_main_v6 (F := Ideal) (m ((c : Thread nD τ).loc main_arg1))) :=
  ((W15_of_ne m ρ c main_v6 (by decide)) : W15 m ρ c (Proc.devRef .tc main_v6) = W14 m ρ c (Proc.devRef .tc main_v6)).trans (at14_v6 m ρ c)
theorem at16_v6 : W16 m ρ c (Proc.devRef .tc main_v6) = (ReadP.val_main_v6 (F := Ideal) (m ((c : Thread nD τ).loc main_arg1))) :=
  ((W16_of_ne m ρ c main_v6 (by decide)) : W16 m ρ c (Proc.devRef .tc main_v6) = W15 m ρ c (Proc.devRef .tc main_v6)).trans (at15_v6 m ρ c)

-- the comparison of the degree with zero
set_option maxHeartbeats 4000000 in
theorem at1_v12 : W1 m ρ c (Proc.devRef .tc main_v12) = ReadP.val_main_v12 (F := Ideal) (m ((c : Thread nD τ).loc main_arg1)) := by
  show StableHlo.after hostOps0 (W0 m ρ c) (Proc.devRef .tc main_v12) = _
  after_results
  rfl

-- the reciprocal square root of the degree
set_option maxHeartbeats 4000000 in
theorem at1_v13 : W1 m ρ c (Proc.devRef .tc main_v13) = ReadP.val_main_v13 (F := Ideal) (m ((c : Thread nD τ).loc main_arg1)) := by
  show StableHlo.after hostOps0 (W0 m ρ c) (Proc.devRef .tc main_v13) = _
  after_results
  rfl

set_option maxHeartbeats 4000000 in
theorem at1_cst_2 : W1 m ρ c (Proc.devRef .tc main_cst_2) = ReadP.val_main_cst_2 (F := Ideal)  := by
  show StableHlo.after hostOps0 (W0 m ρ c) (Proc.devRef .tc main_cst_2) = _
  after_results
  rfl

/-- The selection's operands taken as given, the re-typings around them are the identity. -/
theorem where_retyped (X : (⟨S50000, .i1⟩ : BufTy).Contents (Elt Ideal)) (Y : (⟨S50000, .f32⟩ : BufTy).Contents (Elt Ideal)) (Z : (⟨S_, .f32⟩ : BufTy).Contents (Elt Ideal)) :
    (TRef.of (sig := sig) (T := ⟨S50000, .f32⟩) main_v14).toBuf (select ((TRef.of (sig := sig) (T := ⟨S50000, .i1⟩) main_v12).ofBuf X) ((TRef.of (sig := sig) (T := ⟨S50000, .f32⟩) main_v13).ofBuf Y) ((TRef.of (sig := sig) (T := ⟨S50000, .f32⟩) main_call0_v1).ofBuf ((TRef.of (sig := sig) (T := ⟨S50000, .f32⟩) main_call0_v1).toBuf (broadcastInDim S50000 ![] bcast_S_S50000 ((TRef.of (sig := sig) (T := ⟨S_, .f32⟩) main_call0_v0).ofBuf ((TRef.of (sig := sig) (T := ⟨S_, .f32⟩) main_call0_v0).toBuf (id ((TRef.of (sig := sig) (T := ⟨S_, .f32⟩) main_cst_2).ofBuf Z)))))))) = select X Y (broadcastInDim S50000 ![] bcast_S_S50000 (id Z)) := rfl

set_option maxHeartbeats 4000000 in
theorem at2_v14_sel : W2 m ρ c (Proc.devRef .tc main_v14) = select (ReadP.val_main_v12 (F := Ideal) (m ((c : Thread nD τ).loc main_arg1))) (ReadP.val_main_v13 (F := Ideal) (m ((c : Thread nD τ).loc main_arg1))) (broadcastInDim S50000 ![] bcast_S_S50000 (id (ReadP.val_main_cst_2 (F := Ideal)))) := by
  show StableHlo.after hostOps0_1 (W1 m ρ c) (Proc.devRef .tc main_v14) = _
  have e12 := at1_v12 m ρ c
  have e13 := at1_v13 m ρ c
  have ec := at1_cst_2 m ρ c
  generalize W1 m ρ c = Wv at e12 e13 ec ⊢
  after_results
  rw [e12, e13, ec]
  exact where_retyped _ _ _

/-- The per-node factor: the reciprocal square root of the degree where the degree is positive, zero elsewhere. -/
theorem at2_v14 : W2 m ρ c (Proc.devRef .tc main_v14) = (ReadP.val_main_v14 (F := Ideal) (m ((c : Thread nD τ).loc main_arg1))) :=
  (at2_v14_sel m ρ c).trans rfl

set_option maxHeartbeats 4000000 in
/-- The per-node factor as a column. -/
theorem at3_v15 : W3 m ρ c (Proc.devRef .tc main_v15) = (broadcastInDim S50000x1 ![0] bcast_S50000_S50000x1_0 (ReadP.val_main_v14 (F := Ideal) (m ((c : Thread nD τ).loc main_arg1)))) := by
  show StableHlo.after hostOps0_2 (W2 m ρ c) (Proc.devRef .tc main_v15) = _
  have e := at2_v14 m ρ c
  generalize W2 m ρ c = Wv at e ⊢
  after_results
  rw [e]
theorem at4_v15 : W4 m ρ c (Proc.devRef .tc main_v15) = (broadcastInDim S50000x1 ![0] bcast_S50000_S50000x1_0 (ReadP.val_main_v14 (F := Ideal) (m ((c : Thread nD τ).loc main_arg1)))) :=
  (((W4_arr m ρ c 2).trans (((dat0 (V3 m ρ) c).arrAt_in 2 rfl _).trans (A_eq0 (V3 m ρ) c 2))) : W4 m ρ c (Proc.devRef .tc main_v15) = W3 m ρ c (Proc.devRef .tc main_v15)).trans (at3_v15 m ρ c)
theorem at5_v15 : W5 m ρ c (Proc.devRef .tc main_v15) = (broadcastInDim S50000x1 ![0] bcast_S50000_S50000x1_0 (ReadP.val_main_v14 (F := Ideal) (m ((c : Thread nD τ).loc main_arg1)))) :=
  ((by carry_host hostOps1) : W5 m ρ c (Proc.devRef .tc main_v15) = W4 m ρ c (Proc.devRef .tc main_v15)).trans (at4_v15 m ρ c)
theorem at6_v15 : W6 m ρ c (Proc.devRef .tc main_v15) = (broadcastInDim S50000x1 ![0] bcast_S50000_S50000x1_0 (ReadP.val_main_v14 (F := Ideal) (m ((c : Thread nD τ).loc main_arg1)))) :=
  (((W6_arr m ρ c 1).trans (((dat1 (V5 m ρ) c).arrAt_in 1 rfl _).trans (A_eq1 (V5 m ρ) c 1))) : W6 m ρ c (Proc.devRef .tc main_v15) = W5 m ρ c (Proc.devRef .tc main_v15)).trans (at5_v15 m ρ c)
theorem at7_v15 : W7 m ρ c (Proc.devRef .tc main_v15) = (broadcastInDim S50000x1 ![0] bcast_S50000_S50000x1_0 (ReadP.val_main_v14 (F := Ideal) (m ((c : Thread nD τ).loc main_arg1)))) :=
  ((by carry_host hostOps2) : W7 m ρ c (Proc.devRef .tc main_v15) = W6 m ρ c (Proc.devRef .tc main_v15)).trans (at6_v15 m ρ c)
theorem at8_v15 : W8 m ρ c (Proc.devRef .tc main_v15) = (broadcastInDim S50000x1 ![0] bcast_S50000_S50000x1_0 (ReadP.val_main_v14 (F := Ideal) (m ((c : Thread nD τ).loc main_arg1)))) :=
  (((W8_arr m ρ c 2).trans (((dat2 (V7 m ρ) c).arrAt_in 2 rfl _).trans (A_eq2 (V7 m ρ) c 2))) : W8 m ρ c (Proc.devRef .tc main_v15) = W7 m ρ c (Proc.devRef .tc main_v15)).trans (at7_v15 m ρ c)
theorem at9_v15 : W9 m ρ c (Proc.devRef .tc main_v15) = (broadcastInDim S50000x1 ![0] bcast_S50000_S50000x1_0 (ReadP.val_main_v14 (F := Ideal) (m ((c : Thread nD τ).loc main_arg1)))) :=
  ((by carry_host hostOps3) : W9 m ρ c (Proc.devRef .tc main_v15) = W8 m ρ c (Proc.devRef .tc main_v15)).trans (at8_v15 m ρ c)
theorem at10_v15 : W10 m ρ c (Proc.devRef .tc main_v15) = (broadcastInDim S50000x1 ![0] bcast_S50000_S50000x1_0 (ReadP.val_main_v14 (F := Ideal) (m ((c : Thread nD τ).loc main_arg1)))) :=
  (((W10_arr m ρ c 1).trans (((dat3 (V9 m ρ) c).arrAt_in 1 rfl _).trans (A_eq3 (V9 m ρ) c 1))) : W10 m ρ c (Proc.devRef .tc main_v15) = W9 m ρ c (Proc.devRef .tc main_v15)).trans (at9_v15 m ρ c)
theorem at11_v15 : W11 m ρ c (Proc.devRef .tc main_v15) = (broadcastInDim S50000x1 ![0] bcast_S50000_S50000x1_0 (ReadP.val_main_v14 (F := Ideal) (m ((c : Thread nD τ).loc main_arg1)))) :=
  ((by carry_host hostOps4) : W11 m ρ c (Proc.devRef .tc main_v15) = W10 m ρ c (Proc.devRef .tc main_v15)).trans (at10_v15 m ρ c)
theorem at12_v15 : W12 m ρ c (Proc.devRef .tc main_v15) = (broadcastInDim S50000x1 ![0] bcast_S50000_S50000x1_0 (ReadP.val_main_v14 (F := Ideal) (m ((c : Thread nD τ).loc main_arg1)))) :=
  ((W12_of_ne m ρ c main_v15 (by decide)) : W12 m ρ c (Proc.devRef .tc main_v15) = W11 m ρ c (Proc.devRef .tc main_v15)).trans (at11_v15 m ρ c)
theorem at13_v15 : W13 m ρ c (Proc.devRef .tc main_v15) = (broadcastInDim S50000x1 ![0] bcast_S50000_S50000x1_0 (ReadP.val_main_v14 (F := Ideal) (m ((c : Thread nD τ).loc main_arg1)))) :=
  (((W13_arr m ρ c 2).trans (((dat5 (V12 m ρ) c).arrAt_in 2 rfl _).trans (A_eq5 (V12 m ρ) c 2))) : W13 m ρ c (Proc.devRef .tc main_v15) = W12 m ρ c (Proc.devRef .tc main_v15)).trans (at12_v15 m ρ c)
theorem at14_v15 : W14 m ρ c (Proc.devRef .tc main_v15) = (broadcastInDim S50000x1 ![0] bcast_S50000_S50000x1_0 (ReadP.val_main_v14 (F := Ideal) (m ((c : Thread nD τ).loc main_arg1)))) :=
  ((by carry_host hostOps6) : W14 m ρ c (Proc.devRef .tc main_v15) = W13 m ρ c (Proc.devRef .tc main_v15)).trans (at13_v15 m ρ c)
theorem at15_v15 : W15 m ρ c (Proc.devRef .tc main_v15) = (broadcastInDim S50000x1 ![0] bcast_S50000_S50000x1_0 (ReadP.val_main_v14 (F := Ideal) (m ((c : Thread nD τ).loc main_arg1)))) :=
  (((W15_arr m ρ c 1).trans (((dat6 (V14 m ρ) c).arrAt_in 1 rfl _).trans (A_eq6 (V14 m ρ) c 1))) : W15 m ρ c (Proc.devRef .tc main_v15) = W14 m ρ c (Proc.devRef .tc main_v15)).trans (at14_v15 m ρ c)
theorem at16_v15 : W16 m ρ c (Proc.devRef .tc main_v15) = (broadcastInDim S50000x1 ![0] bcast_S50000_S50000x1_0 (ReadP.val_main_v14 (F := Ideal) (m ((c : Thread nD τ).loc main_arg1)))) :=
  (((W16_arr m ρ c 2).trans (((dat7 (V15 m ρ) c).arrAt_in 2 rfl _).trans (A_eq7 (V15 m ρ) c 2))) : W16 m ρ c (Proc.devRef .tc main_v15) = W15 m ρ c (Proc.devRef .tc main_v15)).trans (at15_v15 m ρ c)
theorem at17_v15 : W17 m ρ c (Proc.devRef .tc main_v15) = (broadcastInDim S50000x1 ![0] bcast_S50000_S50000x1_0 (ReadP.val_main_v14 (F := Ideal) (m ((c : Thread nD τ).loc main_arg1)))) :=
  ((by carry_host hostOps8) : W17 m ρ c (Proc.devRef .tc main_v15) = W16 m ρ c (Proc.devRef .tc main_v15)).trans (at16_v15 m ρ c)

/-- The biases as rows. -/
theorem at3_v16 : W3 m ρ c (Proc.devRef .tc main_v16) = (shapeCast S1x128 (m ((c : Thread nD τ).loc main_arg4)) shapeCasts_S128_S1x128) := by
  show StableHlo.after hostOps0_2 (StableHlo.after hostOps0_1 (StableHlo.after hostOps0 (W0 m ρ c))) (Proc.devRef .tc main_v16) = _
  after_results
  rfl
theorem at4_v16 : W4 m ρ c (Proc.devRef .tc main_v16) = (shapeCast S1x128 (m ((c : Thread nD τ).loc main_arg4)) shapeCasts_S128_S1x128) :=
  ((W4_of_ne m ρ c main_v16 (by decide)) : W4 m ρ c (Proc.devRef .tc main_v16) = W3 m ρ c (Proc.devRef .tc main_v16)).trans (at3_v16 m ρ c)
theorem at5_v16 : W5 m ρ c (Proc.devRef .tc main_v16) = (shapeCast S1x128 (m ((c : Thread nD τ).loc main_arg4)) shapeCasts_S128_S1x128) :=
  ((by carry_host hostOps1) : W5 m ρ c (Proc.devRef .tc main_v16) = W4 m ρ c (Proc.devRef .tc main_v16)).trans (at4_v16 m ρ c)

theorem at3_v17 : W3 m ρ c (Proc.devRef .tc main_v17) = (shapeCast S1x128 (m ((c : Thread nD τ).loc main_arg10)) shapeCasts_S128_S1x128) := by
  show StableHlo.after hostOps0_2 (StableHlo.after hostOps0_1 (StableHlo.after hostOps0 (W0 m ρ c))) (Proc.devRef .tc main_v17) = _
  after_results
  rfl
theorem at4_v17 : W4 m ρ c (Proc.devRef .tc main_v17) = (shapeCast S1x128 (m ((c : Thread nD τ).loc main_arg10)) shapeCasts_S128_S1x128) :=
  ((W4_of_ne m ρ c main_v17 (by decide)) : W4 m ρ c (Proc.devRef .tc main_v17) = W3 m ρ c (Proc.devRef .tc main_v17)).trans (at3_v17 m ρ c)
theorem at5_v17 : W5 m ρ c (Proc.devRef .tc main_v17) = (shapeCast S1x128 (m ((c : Thread nD τ).loc main_arg10)) shapeCasts_S128_S1x128) :=
  ((by carry_host hostOps1) : W5 m ρ c (Proc.devRef .tc main_v17) = W4 m ρ c (Proc.devRef .tc main_v17)).trans (at4_v17 m ρ c)
theorem at6_v17 : W6 m ρ c (Proc.devRef .tc main_v17) = (shapeCast S1x128 (m ((c : Thread nD τ).loc main_arg10)) shapeCasts_S128_S1x128) :=
  ((W6_of_ne m ρ c main_v17 (by decide)) : W6 m ρ c (Proc.devRef .tc main_v17) = W5 m ρ c (Proc.devRef .tc main_v17)).trans (at5_v17 m ρ c)
theorem at7_v17 : W7 m ρ c (Proc.devRef .tc main_v17) = (shapeCast S1x128 (m ((c : Thread nD τ).loc main_arg10)) shapeCasts_S128_S1x128) :=
  ((by carry_host hostOps2) : W7 m ρ c (Proc.devRef .tc main_v17) = W6 m ρ c (Proc.devRef .tc main_v17)).trans (at6_v17 m ρ c)
theorem at8_v17 : W8 m ρ c (Proc.devRef .tc main_v17) = (shapeCast S1x128 (m ((c : Thread nD τ).loc main_arg10)) shapeCasts_S128_S1x128) :=
  ((W8_of_ne m ρ c main_v17 (by decide)) : W8 m ρ c (Proc.devRef .tc main_v17) = W7 m ρ c (Proc.devRef .tc main_v17)).trans (at7_v17 m ρ c)
theorem at9_v17 : W9 m ρ c (Proc.devRef .tc main_v17) = (shapeCast S1x128 (m ((c : Thread nD τ).loc main_arg10)) shapeCasts_S128_S1x128) :=
  ((by carry_host hostOps3) : W9 m ρ c (Proc.devRef .tc main_v17) = W8 m ρ c (Proc.devRef .tc main_v17)).trans (at8_v17 m ρ c)
theorem at10_v17 : W10 m ρ c (Proc.devRef .tc main_v17) = (shapeCast S1x128 (m ((c : Thread nD τ).loc main_arg10)) shapeCasts_S128_S1x128) :=
  ((W10_of_ne m ρ c main_v17 (by decide)) : W10 m ρ c (Proc.devRef .tc main_v17) = W9 m ρ c (Proc.devRef .tc main_v17)).trans (at9_v17 m ρ c)
theorem at11_v17 : W11 m ρ c (Proc.devRef .tc main_v17) = (shapeCast S1x128 (m ((c : Thread nD τ).loc main_arg10)) shapeCasts_S128_S1x128) :=
  ((by carry_host hostOps4) : W11 m ρ c (Proc.devRef .tc main_v17) = W10 m ρ c (Proc.devRef .tc main_v17)).trans (at10_v17 m ρ c)
theorem at12_v17 : W12 m ρ c (Proc.devRef .tc main_v17) = (shapeCast S1x128 (m ((c : Thread nD τ).loc main_arg10)) shapeCasts_S128_S1x128) :=
  ((W12_of_ne m ρ c main_v17 (by decide)) : W12 m ρ c (Proc.devRef .tc main_v17) = W11 m ρ c (Proc.devRef .tc main_v17)).trans (at11_v17 m ρ c)
theorem at13_v17 : W13 m ρ c (Proc.devRef .tc main_v17) = (shapeCast S1x128 (m ((c : Thread nD τ).loc main_arg10)) shapeCasts_S128_S1x128) :=
  ((W13_of_ne m ρ c main_v17 (by decide)) : W13 m ρ c (Proc.devRef .tc main_v17) = W12 m ρ c (Proc.devRef .tc main_v17)).trans (at12_v17 m ρ c)
theorem at14_v17 : W14 m ρ c (Proc.devRef .tc main_v17) = (shapeCast S1x128 (m ((c : Thread nD τ).loc main_arg10)) shapeCasts_S128_S1x128) :=
  ((by carry_host hostOps6) : W14 m ρ c (Proc.devRef .tc main_v17) = W13 m ρ c (Proc.devRef .tc main_v17)).trans (at13_v17 m ρ c)

theorem at3_v18 : W3 m ρ c (Proc.devRef .tc main_v18) = (shapeCast S1x128 (m ((c : Thread nD τ).loc main_arg12)) shapeCasts_S128_S1x128) := by
  show StableHlo.after hostOps0_2 (StableHlo.after hostOps0_1 (StableHlo.after hostOps0 (W0 m ρ c))) (Proc.devRef .tc main_v18) = _
  after_results
  rfl
theorem at4_v18 : W4 m ρ c (Proc.devRef .tc main_v18) = (shapeCast S1x128 (m ((c : Thread nD τ).loc main_arg12)) shapeCasts_S128_S1x128) :=
  ((W4_of_ne m ρ c main_v18 (by decide)) : W4 m ρ c (Proc.devRef .tc main_v18) = W3 m ρ c (Proc.devRef .tc main_v18)).trans (at3_v18 m ρ c)
theorem at5_v18 : W5 m ρ c (Proc.devRef .tc main_v18) = (shapeCast S1x128 (m ((c : Thread nD τ).loc main_arg12)) shapeCasts_S128_S1x128) :=
  ((by carry_host hostOps1) : W5 m ρ c (Proc.devRef .tc main_v18) = W4 m ρ c (Proc.devRef .tc main_v18)).trans (at4_v18 m ρ c)
theorem at6_v18 : W6 m ρ c (Proc.devRef .tc main_v18) = (shapeCast S1x128 (m ((c : Thread nD τ).loc main_arg12)) shapeCasts_S128_S1x128) :=
  ((W6_of_ne m ρ c main_v18 (by decide)) : W6 m ρ c (Proc.devRef .tc main_v18) = W5 m ρ c (Proc.devRef .tc main_v18)).trans (at5_v18 m ρ c)
theorem at7_v18 : W7 m ρ c (Proc.devRef .tc main_v18) = (shapeCast S1x128 (m ((c : Thread nD τ).loc main_arg12)) shapeCasts_S128_S1x128) :=
  ((by carry_host hostOps2) : W7 m ρ c (Proc.devRef .tc main_v18) = W6 m ρ c (Proc.devRef .tc main_v18)).trans (at6_v18 m ρ c)
theorem at8_v18 : W8 m ρ c (Proc.devRef .tc main_v18) = (shapeCast S1x128 (m ((c : Thread nD τ).loc main_arg12)) shapeCasts_S128_S1x128) :=
  ((W8_of_ne m ρ c main_v18 (by decide)) : W8 m ρ c (Proc.devRef .tc main_v18) = W7 m ρ c (Proc.devRef .tc main_v18)).trans (at7_v18 m ρ c)
theorem at9_v18 : W9 m ρ c (Proc.devRef .tc main_v18) = (shapeCast S1x128 (m ((c : Thread nD τ).loc main_arg12)) shapeCasts_S128_S1x128) :=
  ((by carry_host hostOps3) : W9 m ρ c (Proc.devRef .tc main_v18) = W8 m ρ c (Proc.devRef .tc main_v18)).trans (at8_v18 m ρ c)
theorem at10_v18 : W10 m ρ c (Proc.devRef .tc main_v18) = (shapeCast S1x128 (m ((c : Thread nD τ).loc main_arg12)) shapeCasts_S128_S1x128) :=
  ((W10_of_ne m ρ c main_v18 (by decide)) : W10 m ρ c (Proc.devRef .tc main_v18) = W9 m ρ c (Proc.devRef .tc main_v18)).trans (at9_v18 m ρ c)
theorem at11_v18 : W11 m ρ c (Proc.devRef .tc main_v18) = (shapeCast S1x128 (m ((c : Thread nD τ).loc main_arg12)) shapeCasts_S128_S1x128) :=
  ((by carry_host hostOps4) : W11 m ρ c (Proc.devRef .tc main_v18) = W10 m ρ c (Proc.devRef .tc main_v18)).trans (at10_v18 m ρ c)
theorem at12_v18 : W12 m ρ c (Proc.devRef .tc main_v18) = (shapeCast S1x128 (m ((c : Thread nD τ).loc main_arg12)) shapeCasts_S128_S1x128) :=
  ((W12_of_ne m ρ c main_v18 (by decide)) : W12 m ρ c (Proc.devRef .tc main_v18) = W11 m ρ c (Proc.devRef .tc main_v18)).trans (at11_v18 m ρ c)
theorem at13_v18 : W13 m ρ c (Proc.devRef .tc main_v18) = (shapeCast S1x128 (m ((c : Thread nD τ).loc main_arg12)) shapeCasts_S128_S1x128) :=
  ((W13_of_ne m ρ c main_v18 (by decide)) : W13 m ρ c (Proc.devRef .tc main_v18) = W12 m ρ c (Proc.devRef .tc main_v18)).trans (at12_v18 m ρ c)
theorem at14_v18 : W14 m ρ c (Proc.devRef .tc main_v18) = (shapeCast S1x128 (m ((c : Thread nD τ).loc main_arg12)) shapeCasts_S128_S1x128) :=
  ((by carry_host hostOps6) : W14 m ρ c (Proc.devRef .tc main_v18) = W13 m ρ c (Proc.devRef .tc main_v18)).trans (at13_v18 m ρ c)
theorem at15_v18 : W15 m ρ c (Proc.devRef .tc main_v18) = (shapeCast S1x128 (m ((c : Thread nD τ).loc main_arg12)) shapeCasts_S128_S1x128) :=
  ((W15_of_ne m ρ c main_v18 (by decide)) : W15 m ρ c (Proc.devRef .tc main_v18) = W14 m ρ c (Proc.devRef .tc main_v18)).trans (at14_v18 m ρ c)
theorem at16_v18 : W16 m ρ c (Proc.devRef .tc main_v18) = (shapeCast S1x128 (m ((c : Thread nD τ).loc main_arg12)) shapeCasts_S128_S1x128) :=
  ((W16_of_ne m ρ c main_v18 (by decide)) : W16 m ρ c (Proc.devRef .tc main_v18) = W15 m ρ c (Proc.devRef .tc main_v18)).trans (at15_v18 m ρ c)
theorem at17_v18 : W17 m ρ c (Proc.devRef .tc main_v18) = (shapeCast S1x128 (m ((c : Thread nD τ).loc main_arg12)) shapeCasts_S128_S1x128) :=
  ((by carry_host hostOps8) : W17 m ρ c (Proc.devRef .tc main_v18) = W16 m ρ c (Proc.devRef .tc main_v18)).trans (at16_v18 m ρ c)

end Cert.KernelIdeal.Chain

end
-- ==== Proof.KChainB.lean ====
/-
  The idealized kernel program's buffers from its first call to its return: each call's result as the whole-array function of what it finds, each host stretch's gather and accumulating scatter, down to the four results.
-/
import proofs.«100823_j26800595927067_2_alg».proof.Proof.Gen.KernelIdeal.Frame
import proofs.«100823_j26800595927067_2_alg».proof.Proof.ReadP
import proofs.«100823_j26800595927067_2_alg».proof.Proof.KRegDefs
import proofs.«100823_j26800595927067_2_alg».proof.Proof.KReg0
import proofs.«100823_j26800595927067_2_alg».proof.Proof.KReg1
import proofs.«100823_j26800595927067_2_alg».proof.Proof.KReg2
import proofs.«100823_j26800595927067_2_alg».proof.Proof.KReg3
import proofs.«100823_j26800595927067_2_alg».proof.Proof.KReg4
import proofs.«100823_j26800595927067_2_alg».proof.Proof.KReg5
import proofs.«100823_j26800595927067_2_alg».proof.Proof.KReg6
import proofs.«100823_j26800595927067_2_alg».proof.Proof.KReg7
import proofs.«100823_j26800595927067_2_alg».proof.Proof.KReg8
import proofs.«100823_j26800595927067_2_alg».proof.Proof.KChainA
import Idealize.ShloMosaic.Lib.StableHlo.Run

set_option maxRecDepth 16384

noncomputable section

namespace Cert.KernelIdeal.Chain

open Idealize.ShloMosaic Idealize.ShloMosaic.TcCoe Idealize.ShloMosaic.ValueIdx Idealize.SL.Sem Idealize.ShloMosaic.StableHlo
open Cert.KernelIdeal Cert.KernelIdeal.Gen
open Cert.ReferenceIdeal (ReadP.val_main_v3 ReadP.val_main_v6 ReadP.val_main_v14)

variable (m : (ℓ : Loc nD τ sig) → Buf (Elt Ideal) ℓ) (ρ : Dev nD → PrngReg) (c : Dev nD)

/-- A buffer no operation of the stretch writes holds after it what it held before. -/
macro "carry_host" ops:ident : tactic => `(tactic| (
  refine StableHlo.after_of_forall_not_mem _ _ (List.forall_iff_forall_mem.mp ?_)
  simp only [$ops:ident, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))

/-- Rows of h gathered at the wrapped source indices, added into zeros at the destination indices. -/
def agg (i3 i6 : (⟨S1650000, .i32⟩ : BufTy).Contents (Elt Ideal)) (h : (⟨S50000x128, .f32⟩ : BufTy).Contents (Elt Ideal)) :
    (⟨S50000x128, .f32⟩ : BufTy).Contents (Elt Ideal) :=
  Host.scatterAdd scatter_S50000x128_S1650000x1_S1650000x128_1_0_0_1
    (broadcastInDim S50000x128 ![] bcast_S_S50000x128 (constant (F := Ideal) S_ .f32 0x00000000#32))
    (broadcastInDim S1650000x1 ![0] bcast_S1650000_S1650000x1_0 i6)
    (Host.gather gather_S50000x128_S1650000x1_S1650000x128_1_0_n_n_0_1_1128 h
      (broadcastInDim S1650000x1 ![0] bcast_S1650000_S1650000x1_0
        (select (cmpi .slt i3 (broadcastInDim S1650000 ![] bcast_S_S1650000 (constantI S_ 32 0#32)))
          (addi i3 (broadcastInDim S1650000 ![] bcast_S_S1650000 (constantI S_ 32 50000#32))) i3)))

/-- The encoder layer's output. -/
def kH1 (m : (ℓ : Loc nD τ sig) → Buf (Elt Ideal) ℓ) (c : Dev nD) : (⟨S50000x128, .f32⟩ : BufTy).Contents (Elt Ideal) :=
  Regions.epiG (agg (ReadP.val_main_v3 (F := Ideal) (m ((c : Thread nD τ).loc main_arg1))) (ReadP.val_main_v6 (F := Ideal) (m ((c : Thread nD τ).loc main_arg1))) (Regions.linG (K := 128) (m ((c : Thread nD τ).loc main_arg0)) (m ((c : Thread nD τ).loc main_arg3)) (broadcastInDim S50000x1 ![0] bcast_S50000_S50000x1_0 (ReadP.val_main_v14 (F := Ideal) (m ((c : Thread nD τ).loc main_arg1)))))) (broadcastInDim S50000x1 ![0] bcast_S50000_S50000x1_0 (ReadP.val_main_v14 (F := Ideal) (m ((c : Thread nD τ).loc main_arg1)))) (shapeCast S1x128 (m ((c : Thread nD τ).loc main_arg4)) shapeCasts_S128_S1x128)
/-- The fused mean / log-variance layer's output, 128 wide. -/
def kML (m : (ℓ : Loc nD τ sig) → Buf (Elt Ideal) ℓ) (c : Dev nD) : (⟨S50000x128, .f32⟩ : BufTy).Contents (Elt Ideal) :=
  Regions.epiG (agg (ReadP.val_main_v3 (F := Ideal) (m ((c : Thread nD τ).loc main_arg1))) (ReadP.val_main_v6 (F := Ideal) (m ((c : Thread nD τ).loc main_arg1))) (Regions.linG (K := 128) (kH1 m c) (concatenate S128x128 1 [⟨S128x64, (m ((c : Thread nD τ).loc main_arg5))⟩, ⟨S128x64, (m ((c : Thread nD τ).loc main_arg7))⟩] concatenates_S128x64_S128x64_S128x128_d1) (broadcastInDim S50000x1 ![0] bcast_S50000_S50000x1_0 (ReadP.val_main_v14 (F := Ideal) (m ((c : Thread nD τ).loc main_arg1)))))) (broadcastInDim S50000x1 ![0] bcast_S50000_S50000x1_0 (ReadP.val_main_v14 (F := Ideal) (m ((c : Thread nD τ).loc main_arg1)))) (shapeCast S1x128 (concatenate S128 0 [⟨S64, (m ((c : Thread nD τ).loc main_arg6))⟩, ⟨S64, (m ((c : Thread nD τ).loc main_arg8))⟩] concatenates_S64_S64_S128_d0) shapeCasts_S128_S1x128)
/-- Its columns 0 … 63: the mean. -/
def kMean (m : (ℓ : Loc nD τ sig) → Buf (Elt Ideal) ℓ) (c : Dev nD) : (⟨S50000x64, .f32⟩ : BufTy).Contents (Elt Ideal) :=
  extractStridedSlice S50000x64 ![0, 0] (kML m c) slices_S50000x128_S50000x64_0_0
/-- Its columns 64 … 127: the log-variance. -/
def kLV (m : (ℓ : Loc nD τ sig) → Buf (Elt Ideal) ℓ) (c : Dev nD) : (⟨S50000x64, .f32⟩ : BufTy).Contents (Elt Ideal) :=
  extractStridedSlice S50000x64 ![0, 64] (kML m c) slices_S50000x128_S50000x64_0_64
/-- The latent sample. -/
def kZ (m : (ℓ : Loc nD τ sig) → Buf (Elt Ideal) ℓ) (c : Dev nD) : (⟨S50000x64, .f32⟩ : BufTy).Contents (Elt Ideal) :=
  Regions.repG (m ((c : Thread nD τ).loc main_arg2)) (kLV m c) (kMean m c)
/-- The first decoder layer's output. -/
def kHD (m : (ℓ : Loc nD τ sig) → Buf (Elt Ideal) ℓ) (c : Dev nD) : (⟨S50000x128, .f32⟩ : BufTy).Contents (Elt Ideal) :=
  Regions.epiG (agg (ReadP.val_main_v3 (F := Ideal) (m ((c : Thread nD τ).loc main_arg1))) (ReadP.val_main_v6 (F := Ideal) (m ((c : Thread nD τ).loc main_arg1))) (Regions.linG (K := 64) (kZ m c) (m ((c : Thread nD τ).loc main_arg9)) (broadcastInDim S50000x1 ![0] bcast_S50000_S50000x1_0 (ReadP.val_main_v14 (F := Ideal) (m ((c : Thread nD τ).loc main_arg1)))))) (broadcastInDim S50000x1 ![0] bcast_S50000_S50000x1_0 (ReadP.val_main_v14 (F := Ideal) (m ((c : Thread nD τ).loc main_arg1)))) (shapeCast S1x128 (m ((c : Thread nD τ).loc main_arg10)) shapeCasts_S128_S1x128)
/-- The second decoder layer's output. -/
def kOUT (m : (ℓ : Loc nD τ sig) → Buf (Elt Ideal) ℓ) (c : Dev nD) : (⟨S50000x128, .f32⟩ : BufTy).Contents (Elt Ideal) :=
  Regions.epiG (agg (ReadP.val_main_v3 (F := Ideal) (m ((c : Thread nD τ).loc main_arg1))) (ReadP.val_main_v6 (F := Ideal) (m ((c : Thread nD τ).loc main_arg1))) (Regions.linG (K := 128) (kHD m c) (m ((c : Thread nD τ).loc main_arg11)) (broadcastInDim S50000x1 ![0] bcast_S50000_S50000x1_0 (ReadP.val_main_v14 (F := Ideal) (m ((c : Thread nD τ).loc main_arg1)))))) (broadcastInDim S50000x1 ![0] bcast_S50000_S50000x1_0 (ReadP.val_main_v14 (F := Ideal) (m ((c : Thread nD τ).loc main_arg1)))) (shapeCast S1x128 (m ((c : Thread nD τ).loc main_arg12)) shapeCasts_S128_S1x128)

/-! ## The encoder layer -/
set_option maxHeartbeats 4000000 in
theorem at4_v19 : W4 m ρ c (Proc.devRef .tc main_v19) = Regions.linG (K := 128) (m ((c : Thread nD τ).loc main_arg0)) (m ((c : Thread nD τ).loc main_arg3)) (broadcastInDim S50000x1 ![0] bcast_S50000_S50000x1_0 (ReadP.val_main_v14 (F := Ideal) (m ((c : Thread nD τ).loc main_arg1)))) := by
  refine (W4_arr m ρ c 3).trans ((Regions.final0 (V3 m ρ) c).trans ?_)
  show Regions.linG (K := 128) (W3 m ρ c (Proc.devRef .tc main_arg0)) (W3 m ρ c (Proc.devRef .tc main_arg3)) (W3 m ρ c (Proc.devRef .tc main_v15)) = _
  rw [at3_arg0 m ρ c, at3_arg3 m ρ c, at3_v15 m ρ c]

set_option maxHeartbeats 4000000 in
theorem at5_v29 : W5 m ρ c (Proc.devRef .tc main_v29) = (agg (ReadP.val_main_v3 (F := Ideal) (m ((c : Thread nD τ).loc main_arg1))) (ReadP.val_main_v6 (F := Ideal) (m ((c : Thread nD τ).loc main_arg1))) (Regions.linG (K := 128) (m ((c : Thread nD τ).loc main_arg0)) (m ((c : Thread nD τ).loc main_arg3)) (broadcastInDim S50000x1 ![0] bcast_S50000_S50000x1_0 (ReadP.val_main_v14 (F := Ideal) (m ((c : Thread nD τ).loc main_arg1)))))) := by
  show StableHlo.after hostOps1 (W4 m ρ c) (Proc.devRef .tc main_v29) = _
  after_results
  rw [at4_v19 m ρ c, at4_v3 m ρ c, at4_v6 m ρ c]
  try rfl

set_option maxHeartbeats 4000000 in
theorem at6_v30 : W6 m ρ c (Proc.devRef .tc main_v30) = (kH1 m c) := by
  refine (W6_arr m ρ c 3).trans ((Regions.final1 (V5 m ρ) c).trans ?_)
  show Regions.epiG (W5 m ρ c (Proc.devRef .tc main_v29)) (W5 m ρ c (Proc.devRef .tc main_v15)) (W5 m ρ c (Proc.devRef .tc main_v16)) = _
  rw [at5_v29 m ρ c, at5_v15 m ρ c, at5_v16 m ρ c]
  try rfl
set_option maxHeartbeats 4000000 in
theorem at7_v30 : W7 m ρ c (Proc.devRef .tc main_v30) = (kH1 m c) :=
  ((by carry_host hostOps2) : W7 m ρ c (Proc.devRef .tc main_v30) = W6 m ρ c (Proc.devRef .tc main_v30)).trans (at6_v30 m ρ c)

/-! ## The fused mean / log-variance layer -/
set_option maxHeartbeats 4000000 in
theorem at7_v31 : W7 m ρ c (Proc.devRef .tc main_v31) = (concatenate S128x128 1 [⟨S128x64, (m ((c : Thread nD τ).loc main_arg5))⟩, ⟨S128x64, (m ((c : Thread nD τ).loc main_arg7))⟩] concatenates_S128x64_S128x64_S128x128_d1) := by
  show StableHlo.after hostOps2 (W6 m ρ c) (Proc.devRef .tc main_v31) = _
  after_results
  rw [at6_arg5 m ρ c, at6_arg7 m ρ c]
set_option maxHeartbeats 4000000 in
theorem at7_v33 : W7 m ρ c (Proc.devRef .tc main_v33) = (shapeCast S1x128 (concatenate S128 0 [⟨S64, (m ((c : Thread nD τ).loc main_arg6))⟩, ⟨S64, (m ((c : Thread nD τ).loc main_arg8))⟩] concatenates_S64_S64_S128_d0) shapeCasts_S128_S1x128) := by
  show StableHlo.after hostOps2 (W6 m ρ c) (Proc.devRef .tc main_v33) = _
  after_results
  rw [at6_arg6 m ρ c, at6_arg8 m ρ c]
  rfl
set_option maxHeartbeats 4000000 in
theorem at8_v33 : W8 m ρ c (Proc.devRef .tc main_v33) = (shapeCast S1x128 (concatenate S128 0 [⟨S64, (m ((c : Thread nD τ).loc main_arg6))⟩, ⟨S64, (m ((c : Thread nD τ).loc main_arg8))⟩] concatenates_S64_S64_S128_d0) shapeCasts_S128_S1x128) :=
  ((W8_of_ne m ρ c main_v33 (by decide)) : W8 m ρ c (Proc.devRef .tc main_v33) = W7 m ρ c (Proc.devRef .tc main_v33)).trans (at7_v33 m ρ c)
set_option maxHeartbeats 4000000 in
theorem at9_v33 : W9 m ρ c (Proc.devRef .tc main_v33) = (shapeCast S1x128 (concatenate S128 0 [⟨S64, (m ((c : Thread nD τ).loc main_arg6))⟩, ⟨S64, (m ((c : Thread nD τ).loc main_arg8))⟩] concatenates_S64_S64_S128_d0) shapeCasts_S128_S1x128) :=
  ((by carry_host hostOps3) : W9 m ρ c (Proc.devRef .tc main_v33) = W8 m ρ c (Proc.devRef .tc main_v33)).trans (at8_v33 m ρ c)

set_option maxHeartbeats 4000000 in
theorem at8_v34 : W8 m ρ c (Proc.devRef .tc main_v34) = Regions.linG (K := 128) (kH1 m c) (concatenate S128x128 1 [⟨S128x64, (m ((c : Thread nD τ).loc main_arg5))⟩, ⟨S128x64, (m ((c : Thread nD τ).loc main_arg7))⟩] concatenates_S128x64_S128x64_S128x128_d1) (broadcastInDim S50000x1 ![0] bcast_S50000_S50000x1_0 (ReadP.val_main_v14 (F := Ideal) (m ((c : Thread nD τ).loc main_arg1)))) := by
  refine (W8_arr m ρ c 3).trans ((Regions.final2 (V7 m ρ) c).trans ?_)
  show Regions.linG (K := 128) (W7 m ρ c (Proc.devRef .tc main_v30)) (W7 m ρ c (Proc.devRef .tc main_v31)) (W7 m ρ c (Proc.devRef .tc main_v15)) = _
  rw [at7_v30 m ρ c, at7_v31 m ρ c, at7_v15 m ρ c]

set_option maxHeartbeats 4000000 in
theorem at9_v44 : W9 m ρ c (Proc.devRef .tc main_v44) = (agg (ReadP.val_main_v3 (F := Ideal) (m ((c : Thread nD τ).loc main_arg1))) (ReadP.val_main_v6 (F := Ideal) (m ((c : Thread nD τ).loc main_arg1))) (Regions.linG (K := 128) (kH1 m c) (concatenate S128x128 1 [⟨S128x64, (m ((c : Thread nD τ).loc main_arg5))⟩, ⟨S128x64, (m ((c : Thread nD τ).loc main_arg7))⟩] concatenates_S128x64_S128x64_S128x128_d1) (broadcastInDim S50000x1 ![0] bcast_S50000_S50000x1_0 (ReadP.val_main_v14 (F := Ideal) (m ((c : Thread nD τ).loc main_arg1)))))) := by
  show StableHlo.after hostOps3 (W8 m ρ c) (Proc.devRef .tc main_v44) = _
  after_results
  rw [at8_v34 m ρ c, at8_v3 m ρ c, at8_v6 m ρ c]
  try rfl

set_option maxHeartbeats 4000000 in
theorem at10_v45 : W10 m ρ c (Proc.devRef .tc main_v45) = (kML m c) := by
  refine (W10_arr m ρ c 3).trans ((Regions.final3 (V9 m ρ) c).trans ?_)
  show Regions.epiG (W9 m ρ c (Proc.devRef .tc main_v44)) (W9 m ρ c (Proc.devRef .tc main_v15)) (W9 m ρ c (Proc.devRef .tc main_v33)) = _
  rw [at9_v44 m ρ c, at9_v15 m ρ c, at9_v33 m ρ c]
  try rfl
set_option maxHeartbeats 4000000 in
theorem at11_v46 : W11 m ρ c (Proc.devRef .tc main_v46) = (kMean m c) := by
  show StableHlo.after hostOps4 (W10 m ρ c) (Proc.devRef .tc main_v46) = _
  after_results
  rw [at10_v45 m ρ c]
  try rfl
set_option maxHeartbeats 4000000 in
theorem at12_v46 : W12 m ρ c (Proc.devRef .tc main_v46) = (kMean m c) :=
  (((W12_arr m ρ c 1).trans (((dat4 (V11 m ρ) c).arrAt_in 1 rfl _).trans (A_eq4 (V11 m ρ) c 1))) : W12 m ρ c (Proc.devRef .tc main_v46) = W11 m ρ c (Proc.devRef .tc main_v46)).trans (at11_v46 m ρ c)
set_option maxHeartbeats 4000000 in
theorem at13_v46 : W13 m ρ c (Proc.devRef .tc main_v46) = (kMean m c) :=
  ((W13_of_ne m ρ c main_v46 (by decide)) : W13 m ρ c (Proc.devRef .tc main_v46) = W12 m ρ c (Proc.devRef .tc main_v46)).trans (at12_v46 m ρ c)
set_option maxHeartbeats 4000000 in
theorem at14_v46 : W14 m ρ c (Proc.devRef .tc main_v46) = (kMean m c) :=
  ((by carry_host hostOps6) : W14 m ρ c (Proc.devRef .tc main_v46) = W13 m ρ c (Proc.devRef .tc main_v46)).trans (at13_v46 m ρ c)
set_option maxHeartbeats 4000000 in
theorem at15_v46 : W15 m ρ c (Proc.devRef .tc main_v46) = (kMean m c) :=
  ((W15_of_ne m ρ c main_v46 (by decide)) : W15 m ρ c (Proc.devRef .tc main_v46) = W14 m ρ c (Proc.devRef .tc main_v46)).trans (at14_v46 m ρ c)
set_option maxHeartbeats 4000000 in
theorem at16_v46 : W16 m ρ c (Proc.devRef .tc main_v46) = (kMean m c) :=
  ((W16_of_ne m ρ c main_v46 (by decide)) : W16 m ρ c (Proc.devRef .tc main_v46) = W15 m ρ c (Proc.devRef .tc main_v46)).trans (at15_v46 m ρ c)
set_option maxHeartbeats 4000000 in
theorem at17_v46 : W17 m ρ c (Proc.devRef .tc main_v46) = (kMean m c) :=
  ((by carry_host hostOps8) : W17 m ρ c (Proc.devRef .tc main_v46) = W16 m ρ c (Proc.devRef .tc main_v46)).trans (at16_v46 m ρ c)
set_option maxHeartbeats 4000000 in
theorem at18_v46 : W18 m ρ c (Proc.devRef .tc main_v46) = (kMean m c) :=
  ((W18_of_ne m ρ c main_v46 (by decide)) : W18 m ρ c (Proc.devRef .tc main_v46) = W17 m ρ c (Proc.devRef .tc main_v46)).trans (at17_v46 m ρ c)

set_option maxHeartbeats 4000000 in
theorem at11_v47 : W11 m ρ c (Proc.devRef .tc main_v47) = (kLV m c) := by
  show StableHlo.after hostOps4 (W10 m ρ c) (Proc.devRef .tc main_v47) = _
  after_results
  rw [at10_v45 m ρ c]
  try rfl
set_option maxHeartbeats 4000000 in
theorem at12_v47 : W12 m ρ c (Proc.devRef .tc main_v47) = (kLV m c) :=
  (((W12_arr m ρ c 2).trans (((dat4 (V11 m ρ) c).arrAt_in 2 rfl _).trans (A_eq4 (V11 m ρ) c 2))) : W12 m ρ c (Proc.devRef .tc main_v47) = W11 m ρ c (Proc.devRef .tc main_v47)).trans (at11_v47 m ρ c)
set_option maxHeartbeats 4000000 in
theorem at13_v47 : W13 m ρ c (Proc.devRef .tc main_v47) = (kLV m c) :=
  ((W13_of_ne m ρ c main_v47 (by decide)) : W13 m ρ c (Proc.devRef .tc main_v47) = W12 m ρ c (Proc.devRef .tc main_v47)).trans (at12_v47 m ρ c)
set_option maxHeartbeats 4000000 in
theorem at14_v47 : W14 m ρ c (Proc.devRef .tc main_v47) = (kLV m c) :=
  ((by carry_host hostOps6) : W14 m ρ c (Proc.devRef .tc main_v47) = W13 m ρ c (Proc.devRef .tc main_v47)).trans (at13_v47 m ρ c)
set_option maxHeartbeats 4000000 in
theorem at15_v47 : W15 m ρ c (Proc.devRef .tc main_v47) = (kLV m c) :=
  ((W15_of_ne m ρ c main_v47 (by decide)) : W15 m ρ c (Proc.devRef .tc main_v47) = W14 m ρ c (Proc.devRef .tc main_v47)).trans (at14_v47 m ρ c)
set_option maxHeartbeats 4000000 in
theorem at16_v47 : W16 m ρ c (Proc.devRef .tc main_v47) = (kLV m c) :=
  ((W16_of_ne m ρ c main_v47 (by decide)) : W16 m ρ c (Proc.devRef .tc main_v47) = W15 m ρ c (Proc.devRef .tc main_v47)).trans (at15_v47 m ρ c)
set_option maxHeartbeats 4000000 in
theorem at17_v47 : W17 m ρ c (Proc.devRef .tc main_v47) = (kLV m c) :=
  ((by carry_host hostOps8) : W17 m ρ c (Proc.devRef .tc main_v47) = W16 m ρ c (Proc.devRef .tc main_v47)).trans (at16_v47 m ρ c)
set_option maxHeartbeats 4000000 in
theorem at18_v47 : W18 m ρ c (Proc.devRef .tc main_v47) = (kLV m c) :=
  ((W18_of_ne m ρ c main_v47 (by decide)) : W18 m ρ c (Proc.devRef .tc main_v47) = W17 m ρ c (Proc.devRef .tc main_v47)).trans (at17_v47 m ρ c)

/-! ## The reparameterization -/
set_option maxHeartbeats 4000000 in
theorem at12_v48 : W12 m ρ c (Proc.devRef .tc main_v48) = (kZ m c) := by
  refine (W12_arr m ρ c 3).trans ((Regions.final4 (V11 m ρ) c).trans ?_)
  show Regions.repG (W11 m ρ c (Proc.devRef .tc main_arg2)) (W11 m ρ c (Proc.devRef .tc main_v47)) (W11 m ρ c (Proc.devRef .tc main_v46)) = _
  rw [at11_arg2 m ρ c, at11_v47 m ρ c, at11_v46 m ρ c]
  try rfl
set_option maxHeartbeats 4000000 in
theorem at13_v48 : W13 m ρ c (Proc.devRef .tc main_v48) = (kZ m c) :=
  (((W13_arr m ρ c 0).trans (((dat5 (V12 m ρ) c).arrAt_in 0 rfl _).trans (A_eq5 (V12 m ρ) c 0))) : W13 m ρ c (Proc.devRef .tc main_v48) = W12 m ρ c (Proc.devRef .tc main_v48)).trans (at12_v48 m ρ c)
set_option maxHeartbeats 4000000 in
theorem at14_v48 : W14 m ρ c (Proc.devRef .tc main_v48) = (kZ m c) :=
  ((by carry_host hostOps6) : W14 m ρ c (Proc.devRef .tc main_v48) = W13 m ρ c (Proc.devRef .tc main_v48)).trans (at13_v48 m ρ c)
set_option maxHeartbeats 4000000 in
theorem at15_v48 : W15 m ρ c (Proc.devRef .tc main_v48) = (kZ m c) :=
  ((W15_of_ne m ρ c main_v48 (by decide)) : W15 m ρ c (Proc.devRef .tc main_v48) = W14 m ρ c (Proc.devRef .tc main_v48)).trans (at14_v48 m ρ c)
set_option maxHeartbeats 4000000 in
theorem at16_v48 : W16 m ρ c (Proc.devRef .tc main_v48) = (kZ m c) :=
  ((W16_of_ne m ρ c main_v48 (by decide)) : W16 m ρ c (Proc.devRef .tc main_v48) = W15 m ρ c (Proc.devRef .tc main_v48)).trans (at15_v48 m ρ c)
set_option maxHeartbeats 4000000 in
theorem at17_v48 : W17 m ρ c (Proc.devRef .tc main_v48) = (kZ m c) :=
  ((by carry_host hostOps8) : W17 m ρ c (Proc.devRef .tc main_v48) = W16 m ρ c (Proc.devRef .tc main_v48)).trans (at16_v48 m ρ c)
set_option maxHeartbeats 4000000 in
theorem at18_v48 : W18 m ρ c (Proc.devRef .tc main_v48) = (kZ m c) :=
  ((W18_of_ne m ρ c main_v48 (by decide)) : W18 m ρ c (Proc.devRef .tc main_v48) = W17 m ρ c (Proc.devRef .tc main_v48)).trans (at17_v48 m ρ c)

/-! ## The decoder -/
set_option maxHeartbeats 4000000 in
theorem at13_v49 : W13 m ρ c (Proc.devRef .tc main_v49) = Regions.linG (K := 64) (kZ m c) (m ((c : Thread nD τ).loc main_arg9)) (broadcastInDim S50000x1 ![0] bcast_S50000_S50000x1_0 (ReadP.val_main_v14 (F := Ideal) (m ((c : Thread nD τ).loc main_arg1)))) := by
  refine (W13_arr m ρ c 3).trans ((Regions.final5 (V12 m ρ) c).trans ?_)
  show Regions.linG (K := 64) (W12 m ρ c (Proc.devRef .tc main_v48)) (W12 m ρ c (Proc.devRef .tc main_arg9)) (W12 m ρ c (Proc.devRef .tc main_v15)) = _
  rw [at12_v48 m ρ c, at12_arg9 m ρ c, at12_v15 m ρ c]

set_option maxHeartbeats 4000000 in
theorem at14_v59 : W14 m ρ c (Proc.devRef .tc main_v59) = (agg (ReadP.val_main_v3 (F := Ideal) (m ((c : Thread nD τ).loc main_arg1))) (ReadP.val_main_v6 (F := Ideal) (m ((c : Thread nD τ).loc main_arg1))) (Regions.linG (K := 64) (kZ m c) (m ((c : Thread nD τ).loc main_arg9)) (broadcastInDim S50000x1 ![0] bcast_S50000_S50000x1_0 (ReadP.val_main_v14 (F := Ideal) (m ((c : Thread nD τ).loc main_arg1)))))) := by
  show StableHlo.after hostOps6 (W13 m ρ c) (Proc.devRef .tc main_v59) = _
  after_results
  rw [at13_v49 m ρ c, at13_v3 m ρ c, at13_v6 m ρ c]
  try rfl

set_option maxHeartbeats 4000000 in
theorem at15_v60 : W15 m ρ c (Proc.devRef .tc main_v60) = (kHD m c) := by
  refine (W15_arr m ρ c 3).trans ((Regions.final6 (V14 m ρ) c).trans ?_)
  show Regions.epiG (W14 m ρ c (Proc.devRef .tc main_v59)) (W14 m ρ c (Proc.devRef .tc main_v15)) (W14 m ρ c (Proc.devRef .tc main_v17)) = _
  rw [at14_v59 m ρ c, at14_v15 m ρ c, at14_v17 m ρ c]
  try rfl
set_option maxHeartbeats 4000000 in
theorem at16_v61 : W16 m ρ c (Proc.devRef .tc main_v61) = Regions.linG (K := 128) (kHD m c) (m ((c : Thread nD τ).loc main_arg11)) (broadcastInDim S50000x1 ![0] bcast_S50000_S50000x1_0 (ReadP.val_main_v14 (F := Ideal) (m ((c : Thread nD τ).loc main_arg1)))) := by
  refine (W16_arr m ρ c 3).trans ((Regions.final7 (V15 m ρ) c).trans ?_)
  show Regions.linG (K := 128) (W15 m ρ c (Proc.devRef .tc main_v60)) (W15 m ρ c (Proc.devRef .tc main_arg11)) (W15 m ρ c (Proc.devRef .tc main_v15)) = _
  rw [at15_v60 m ρ c, at15_arg11 m ρ c, at15_v15 m ρ c]

set_option maxHeartbeats 4000000 in
theorem at17_v71 : W17 m ρ c (Proc.devRef .tc main_v71) = (agg (ReadP.val_main_v3 (F := Ideal) (m ((c : Thread nD τ).loc main_arg1))) (ReadP.val_main_v6 (F := Ideal) (m ((c : Thread nD τ).loc main_arg1))) (Regions.linG (K := 128) (kHD m c) (m ((c : Thread nD τ).loc main_arg11)) (broadcastInDim S50000x1 ![0] bcast_S50000_S50000x1_0 (ReadP.val_main_v14 (F := Ideal) (m ((c : Thread nD τ).loc main_arg1)))))) := by
  show StableHlo.after hostOps8 (W16 m ρ c) (Proc.devRef .tc main_v71) = _
  after_results
  rw [at16_v61 m ρ c, at16_v3 m ρ c, at16_v6 m ρ c]
  try rfl

set_option maxHeartbeats 4000000 in
theorem at18_v72 : W18 m ρ c (Proc.devRef .tc main_v72) = (kOUT m c) := by
  refine (W18_arr m ρ c 3).trans ((Regions.final8 (V17 m ρ) c).trans ?_)
  show Regions.epiG (W17 m ρ c (Proc.devRef .tc main_v71)) (W17 m ρ c (Proc.devRef .tc main_v15)) (W17 m ρ c (Proc.devRef .tc main_v18)) = _
  rw [at17_v71 m ρ c, at17_v15 m ρ c, at17_v18 m ρ c]
  try rfl

end Cert.KernelIdeal.Chain

end
-- ==== Proof.Spec.lean ====
/-
  The common value both programs compute, index by index on the extended reals: a graph convolution with symmetric
  normalisation over an edge list, and the reparameterization step.
-/
import Idealize.ShloMosaic.Lib.ValueIdx
import Idealize.ShloMosaic.PureOps.Ideal

noncomputable section

namespace Cert.Spec

open Idealize.ShloMosaic Idealize.ShloMosaic.ValueIdx

/-- The node a start index resolves to when a row is gathered: the index read signed and clamped into [0, 49999]. -/
def row (v : BitVec 32) : Fin 50000 := ⟨min v.toInt.toNat 49999, by omega⟩

/-- The edges whose messages are added into node i: those whose destination index, read signed and not clamped, is i
    (an index outside [0, 50000) lands nowhere). -/
def into (D : IVec ⟨2, ![1650000, 1]⟩ 32) (i : Fin 50000) : Finset (Fin 1650000) :=
  Finset.univ.filter fun e => (D (ix2 e 0)).toInt = (i.val : Int)

/-- One graph-convolution layer, entry (i, j): zero plus, over the edges e into node i, the message
    (∑ₖ x[src e, k] · W[k, j]) times the symmetric factor d[src e] · d[dst e]; plus the bias b[j].
    Sn and Dn hold the (wrapped) source and destination indices rows are gathered at, D the destination indices the
    messages are scattered at, dv the per-node factor. -/
def gcn {K C : ℕ} (Sn Dn D : IVec ⟨2, ![1650000, 1]⟩ 32) (dv : (⟨1, ![50000]⟩ : Shape).Idx → EReal)
    (x : (⟨2, ![50000, K]⟩ : Shape).Idx → EReal) (W : (⟨2, ![K, C]⟩ : Shape).Idx → EReal)
    (b : (⟨1, ![C]⟩ : Shape).Idx → EReal) : (⟨2, ![50000, C]⟩ : Shape).Idx → EReal := fun y =>
  (Ideal.ofBits .f32 0x00000000#32 + ∑ e ∈ into D (y 0),
      (∑ k : Fin K, x (ix2 (row (Sn (ix2 e 0))) k) * W (ix2 k (y 1)))
        * (dv (ix1 (row (Sn (ix2 e 0)))) * dv (ix1 (row (Dn (ix2 e 0))))))
    + b (ix1 (y 1))

/-- The reparameterization, entry y: noise · exp(½ · logvar) + mean. -/
def reparam (noise mean logvar : (⟨2, ![50000, 64]⟩ : Shape).Idx → EReal) : (⟨2, ![50000, 64]⟩ : Shape).Idx → EReal :=
  fun y => noise y * Ideal.exp (Ideal.ofBits .f32 0x3F000000#32 * logvar y) + mean y

end Cert.Spec

end
-- ==== Proof.LibGatherScatter.lean ====
/-
  `stablehlo.gather` and the accumulating `stablehlo.scatter` READ AT AN INDEX, for start indices given as an `[E, 1]`
  array.

  What `x[idx]` and a segment sum lower to when the `E` start indices are the rows of an `[E, 1]` integer array, the
  index vector on axis 1 with its one component naming operand axis 0:
  * gather of a flat operand `[N]` (`vecGatherDims`, `gather_vec_apply`): result element `e` is the operand at the start
    index `idx[e, 0]`, read signed and clamped into `[0, N − 1]`;
  * gather of the rows of an operand `[N, C]` (`rowGatherDims`, `gather_row_apply`): result element `(e, j)` is the
    operand at row `idx[e, 0]` (signed, clamped into `[0, N − 1]`) and column `j`;
  * accumulating scatter of update rows `[E, C]` into an operand `[N, C]` (`rowScatterDims`, `scatterAdd_row_apply`):
    operand element `(i, j)` plus the sum of `upd[e, j]` over the update rows `e` whose start index `idx[e, 0]`, read
    signed and NOT clamped, is `i` (a row whose start index is outside `[0, N)` is dropped);
  * accumulating scatter of updates `[E]` into a flat operand `[N]` (`vecScatterDims`, `scatterAdd_vec_apply`): operand
    element `i` plus the sum of `upd[e]` over the `e` with `idx[e, 0] = i`.
  The conditions `wf` on the dimension numbers are decided on a program's literal shapes; any two proofs of them are
  equal, so a program's record with these field values is the one here.
-/
import Idealize.ShloMosaic.Lib.ValueIdx
import Idealize.ShloMosaic.PureOps.Ideal

noncomputable section

open scoped BigOperators

namespace Idealize.ShloMosaic.GatherScatter

open Idealize.ShloMosaic Idealize.ShloMosaic.ValueIdx

/-! ## The dimension numbers -/

/-- Gather of a flat operand `[N]` at start indices `[E, 1]`, result `[E]`: no offset axes, operand axis 0 collapsed,
    the index vector on axis 1 with its one component naming operand axis 0, slice size 1. -/
abbrev vecGatherDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Gather of the rows of an operand `[N, C]` at start indices `[E, 1]`, result `[E, C]`: result axis 1 the offset axis
    (the column), operand axis 0 collapsed, the index vector on axis 1 with its one component naming operand axis 0,
    slice sizes one row by all `C` columns. -/
abbrev rowGatherDims (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Scatter of update rows `[E, C]` into an operand `[N, C]` at scatter indices `[E, 1]`: update axis 1 the window axis
    (the column), operand axis 0 inserted, the index vector on axis 1 with its one component naming operand axis 0. -/
abbrev rowScatterDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Scatter of updates `[E]` into a flat operand `[N]` at scatter indices `[E, 1]`: no window axes, operand axis 0
    inserted, the index vector on axis 1 with its one component naming operand axis 0. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-! ## The gathers read at an index -/

/-- THE FLAT GATHER READ AT `e`: the operand at the start index `idx[e, 0]`, read signed and clamped into
    `[0, N − 1]`. -/
theorem gather_vec_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 ⟨min (idx (ix2 e 0)).toInt.toNat (N - 1), by omega⟩) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- THE ROW GATHER READ AT `(e, j)`: the operand at row `idx[e, 0]`, read signed and clamped into `[0, N − 1]`, and
    column `j` (axis 0 takes the clamped start, no offset; axis 1 is not in the start index map and takes the result's
    offset coordinate). -/
theorem gather_row_apply {α : Type} {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (j : Fin C) :
    Host.gather (rowGatherDims N C E wf) x idx (ix2 e j) = x (ix2 ⟨min (idx (ix2 e 0)).toInt.toNat (N - 1), by omega⟩ j) := by
  unfold Host.gather
  congr 1
  funext a
  refine Fin.ext ?_
  match a with
  | ⟨0, _⟩ =>
    show (rowGatherDims N C E wf).start (ix2 e j) idx 0 + (rowGatherDims N C E wf).batchCoord (ix2 e j) 0
      + (rowGatherDims N C E wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C E wf).startIndexMap from List.mem_singleton.mpr rfl)]
    have hsi : (rowGatherDims N C E wf).siIdx (ix2 e j) ⟨List.idxOf (0 : Fin 2) (rowGatherDims N C E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N C E wf).start (ix2 e j) idx 1 + (rowGatherDims N C E wf).batchCoord (ix2 e j) 1
      + (rowGatherDims N C E wf).offCoord (ix2 e j) 1 = j.val
    rw [GatherDims.batchCoord_eq_zero _ _ _ List.not_mem_nil]
    have hs : (rowGatherDims N C E wf).start (ix2 e j) idx 1 = 0 := by
      unfold GatherDims.start
      rw [dif_neg (show (1 : Fin 2) ∉ (rowGatherDims N C E wf).startIndexMap from (by decide : (1 : Fin 2) ∉ [(0 : Fin 2)]))]
    rw [hs]
    simp only [Nat.add_zero, Nat.zero_add]
    have hk : (1 : Fin 2) ∈ (rowGatherDims N C E wf).sKept :=
      (GatherDims.mem_sKept _ _).mpr ⟨(by decide : (1 : Fin 2) ∉ [(0 : Fin 2)]), List.not_mem_nil⟩
    unfold GatherDims.offCoord
    rw [dif_pos hk]
    rfl

/-! ## The accumulating row scatter read at an index -/

section RowScatter
variable {N C E w : Nat} (wf : ScatterDims.WF ⟨2, ![N, C]⟩ ⟨2, ![E, 1]⟩ ⟨2, ![E, C]⟩ [1] [0] [0] 1)

/-- On operand axis 0 the window of update index `u` starts at the scatter index `idx[u₀, 0]`, read signed. -/
theorem rowScatter_start0 (idx : IVec ⟨2, ![E, 1]⟩ w) (u : (⟨2, ![E, C]⟩ : Shape).Idx) :
    (rowScatterDims N C E wf).start u idx (0 : Fin 2) = (idx (ix2 (u 0) 0)).toInt := by
  unfold ScatterDims.start
  rw [dif_pos (show (0 : Fin 2) ∈ (rowScatterDims N C E wf).scatterDimsToOperandDims from List.mem_singleton.mpr rfl)]
  have hsi : (rowScatterDims N C E wf).siIdx u ⟨List.idxOf (0 : Fin 2) (rowScatterDims N C E wf).scatterDimsToOperandDims,
      List.idxOf_lt_length_iff.2 (List.mem_singleton.mpr rfl)⟩ = ix2 (u 0) 0 := by
    funext b; refine Fin.ext ?_
    match b with
    | ⟨0, _⟩ => rfl
    | ⟨1, _⟩ => rfl
  rw [hsi]
  rfl

/-- Operand axis 1 is not named by the scatter index: its window starts at `0`. -/
theorem rowScatter_start1 (idx : IVec ⟨2, ![E, 1]⟩ w) (u : (⟨2, ![E, C]⟩ : Shape).Idx) :
    (rowScatterDims N C E wf).start u idx (1 : Fin 2) = 0 := by
  unfold ScatterDims.start
  rw [dif_neg (show (1 : Fin 2) ∉ (rowScatterDims N C E wf).scatterDimsToOperandDims from
    (by decide : (1 : Fin 2) ∉ [(0 : Fin 2)]))]

/-- Operand axis 0 is an inserted axis: no window coordinate. -/
theorem rowScatter_window0 (u : (⟨2, ![E, C]⟩ : Shape).Idx) :
    (rowScatterDims N C E wf).window u (0 : Fin 2) = 0 := by
  unfold ScatterDims.window
  rw [dif_neg (show (0 : Fin 2) ∉ (rowScatterDims N C E wf).sKept from
    (by decide : (0 : Fin 2) ∉ (List.finRange 2).filter (· ∉ [(0 : Fin 2)])))]

/-- On operand axis 1 the window coordinate of update index `u` is its column. -/
theorem rowScatter_window1 (u : (⟨2, ![E, C]⟩ : Shape).Idx) :
    (rowScatterDims N C E wf).window u (1 : Fin 2) = (u 1).val := by
  unfold ScatterDims.window
  rw [dif_pos (show (1 : Fin 2) ∈ (rowScatterDims N C E wf).sKept from
    (by decide : (1 : Fin 2) ∈ (List.finRange 2).filter (· ∉ [(0 : Fin 2)])))]
  rfl

/-- Update index `u = (e, j')` lands on operand index `(i, j)` exactly when the signed start index `idx[e, 0]` is `i`
    and `j' = j`; otherwise it lands elsewhere or, with the start outside `[0, N)`, nowhere. -/
theorem rowScatter_resultIdx_iff (idx : IVec ⟨2, ![E, 1]⟩ w) (u : (⟨2, ![E, C]⟩ : Shape).Idx) (i : Fin N) (j : Fin C) :
    (rowScatterDims N C E wf).resultIdx? u idx = some (ix2 i j) ↔ (idx (ix2 (u 0) 0)).toInt = (i.val : Int) ∧ u 1 = j := by
  unfold ScatterDims.resultIdx?
  constructor
  · intro h
    split at h
    · rename_i hall
      have hf := Option.some.inj h
      have h0 := congrArg Fin.val (congrFun hf (0 : Fin 2))
      have h1 := congrArg Fin.val (congrFun hf (1 : Fin 2))
      have ha0 := hall (0 : Fin 2)
      have ha1 := hall (1 : Fin 2)
      simp only [rowScatter_start0, rowScatter_start1, rowScatter_window0, rowScatter_window1] at h0 h1 ha0 ha1
      refine ⟨?_, Fin.ext ?_⟩
      · have : (i.val : Int) = ((ix2 i j (0 : Fin 2)).val : Int) := rfl
        omega
      · have : (j.val) = ((ix2 i j (1 : Fin 2)).val) := rfl
        omega
    · exact absurd h (by simp)
  · rintro ⟨h0, h1⟩
    have hall : ∀ a : Fin 2, 0 ≤ (rowScatterDims N C E wf).start u idx a + (rowScatterDims N C E wf).window u a ∧
        (rowScatterDims N C E wf).start u idx a + (rowScatterDims N C E wf).window u a
          < ((⟨2, ![N, C]⟩ : Shape).size a : Int) := by
      intro a
      match a with
      | ⟨0, _⟩ =>
        show 0 ≤ (rowScatterDims N C E wf).start u idx (0 : Fin 2) + ((rowScatterDims N C E wf).window u (0 : Fin 2) : Int) ∧
          (rowScatterDims N C E wf).start u idx (0 : Fin 2) + ((rowScatterDims N C E wf).window u (0 : Fin 2) : Int) < (N : Int)
        rw [rowScatter_start0, rowScatter_window0, h0]
        have := i.isLt
        omega
      | ⟨1, _⟩ =>
        show 0 ≤ (rowScatterDims N C E wf).start u idx (1 : Fin 2) + ((rowScatterDims N C E wf).window u (1 : Fin 2) : Int) ∧
          (rowScatterDims N C E wf).start u idx (1 : Fin 2) + ((rowScatterDims N C E wf).window u (1 : Fin 2) : Int) < (C : Int)
        rw [rowScatter_start1, rowScatter_window1]
        have := idx2_lt1 u
        omega
    rw [dif_pos hall]
    congr 1
    funext a
    refine Fin.ext ?_
    match a with
    | ⟨0, _⟩ =>
      show ((rowScatterDims N C E wf).start u idx (0 : Fin 2) + ((rowScatterDims N C E wf).window u (0 : Fin 2) : Int)).toNat = i.val
      rw [rowScatter_start0, rowScatter_window0, h0]
      omega
    | ⟨1, _⟩ =>
      show ((rowScatterDims N C E wf).start u idx (1 : Fin 2) + ((rowScatterDims N C E wf).window u (1 : Fin 2) : Int)).toNat = j.val
      rw [rowScatter_start1, rowScatter_window1, ← h1]
      omega

/-- THE ACCUMULATING ROW SCATTER READ AT `(i, j)`: the operand's element plus the sum of `upd[e, j]` over the update
    rows `e` whose start index `idx[e, 0]`, read signed and not clamped, is `i`; a row whose start index is outside
    `[0, N)` contributes nothing. (The update indices landing on `(i, j)` are `(e, j)` for those `e`: the sum is
    re-indexed along `e ↦ (e, j)`.) -/
theorem scatterAdd_row_apply
    (x : (⟨2, ![N, C]⟩ : Shape).Idx → EReal) (idx : IVec ⟨2, ![E, 1]⟩ w) (upd : (⟨2, ![E, C]⟩ : Shape).Idx → EReal)
    (i : Fin N) (j : Fin C) :
    Ideal.hostScatterAdd (rowScatterDims N C E wf) x idx upd (ix2 i j)
      = x (ix2 i j) + ∑ e ∈ Finset.univ.filter (fun e : Fin E => (idx (ix2 e 0)).toInt = (i.val : Int)), upd (ix2 e j) := by
  unfold Ideal.hostScatterAdd
  congr 1
  refine Finset.sum_nbij' (fun u => u 0) (fun e => ix2 e j) ?_ ?_ ?_ ?_ ?_
  · intro u hu
    exact Finset.mem_filter.mpr ⟨Finset.mem_univ _, ((rowScatter_resultIdx_iff wf idx u i j).mp (Finset.mem_filter.mp hu).2).1⟩
  · intro e he
    exact Finset.mem_filter.mpr ⟨Finset.mem_univ _,
      (rowScatter_resultIdx_iff wf idx (ix2 e j) i j).mpr ⟨(Finset.mem_filter.mp he).2, rfl⟩⟩
  · intro u hu
    have h1 := ((rowScatter_resultIdx_iff wf idx u i j).mp (Finset.mem_filter.mp hu).2).2
    rw [← h1]
    exact (eq_ix2 u).symm
  · intro e _
    rfl
  · intro u hu
    have h1 := ((rowScatter_resultIdx_iff wf idx u i j).mp (Finset.mem_filter.mp hu).2).2
    rw [← h1]
    exact congrArg upd (eq_ix2 u)

end RowScatter

/-! ## The accumulating flat scatter read at an index -/

section VecScatter
variable {N E w : Nat} (wf : ScatterDims.WF ⟨1, ![N]⟩ ⟨2, ![E, 1]⟩ ⟨1, ![E]⟩ [] [0] [0] 1)

/-- On operand axis 0 the window of update index `u` starts at the scatter index `idx[u₀, 0]`, read signed. -/
theorem vecScatter_start0 (idx : IVec ⟨2, ![E, 1]⟩ w) (u : (⟨1, ![E]⟩ : Shape).Idx) :
    (vecScatterDims N E wf).start u idx (0 : Fin 1) = (idx (ix2 (u 0) 0)).toInt := by
  unfold ScatterDims.start
  rw [dif_pos (show (0 : Fin 1) ∈ (vecScatterDims N E wf).scatterDimsToOperandDims from List.mem_singleton.mpr rfl)]
  have hsi : (vecScatterDims N E wf).siIdx u ⟨List.idxOf (0 : Fin 1) (vecScatterDims N E wf).scatterDimsToOperandDims,
      List.idxOf_lt_length_iff.2 (List.mem_singleton.mpr rfl)⟩ = ix2 (u 0) 0 := by
    funext b; refine Fin.ext ?_
    match b with
    | ⟨0, _⟩ => rfl
    | ⟨1, _⟩ => rfl
  rw [hsi]
  rfl

/-- Operand axis 0 is an inserted axis: no window coordinate. -/
theorem vecScatter_window0 (u : (⟨1, ![E]⟩ : Shape).Idx) :
    (vecScatterDims N E wf).window u (0 : Fin 1) = 0 := by
  unfold ScatterDims.window
  rw [dif_neg (show (0 : Fin 1) ∉ (vecScatterDims N E wf).sKept from
    (by decide : (0 : Fin 1) ∉ (List.finRange 1).filter (· ∉ [(0 : Fin 1)])))]

/-- Update index `u = (e)` lands on operand index `(i)` exactly when the signed start index `idx[e, 0]` is `i`. -/
theorem vecScatter_resultIdx_iff (idx : IVec ⟨2, ![E, 1]⟩ w) (u : (⟨1, ![E]⟩ : Shape).Idx) (i : Fin N) :
    (vecScatterDims N E wf).resultIdx? u idx = some (ix1 i) ↔ (idx (ix2 (u 0) 0)).toInt = (i.val : Int) := by
  unfold ScatterDims.resultIdx?
  constructor
  · intro h
    split at h
    · rename_i hall
      have hf := Option.some.inj h
      have h0 := congrArg Fin.val (congrFun hf (0 : Fin 1))
      have ha0 := hall (0 : Fin 1)
      simp only [vecScatter_start0, vecScatter_window0] at h0 ha0
      have : (i.val : Int) = ((ix1 i (0 : Fin 1)).val : Int) := rfl
      omega
    · exact absurd h (by simp)
  · intro h0
    have hall : ∀ a : Fin 1, 0 ≤ (vecScatterDims N E wf).start u idx a + (vecScatterDims N E wf).window u a ∧
        (vecScatterDims N E wf).start u idx a + (vecScatterDims N E wf).window u a
          < ((⟨1, ![N]⟩ : Shape).size a : Int) := by
      intro a
      match a with
      | ⟨0, _⟩ =>
        show 0 ≤ (vecScatterDims N E wf).start u idx (0 : Fin 1) + ((vecScatterDims N E wf).window u (0 : Fin 1) : Int) ∧
          (vecScatterDims N E wf).start u idx (0 : Fin 1) + ((vecScatterDims N E wf).window u (0 : Fin 1) : Int) < (N : Int)
        rw [vecScatter_start0, vecScatter_window0, h0]
        have := i.isLt
        omega
    rw [dif_pos hall]
    congr 1
    funext a
    refine Fin.ext ?_
    match a with
    | ⟨0, _⟩ =>
      show ((vecScatterDims N E wf).start u idx (0 : Fin 1) + ((vecScatterDims N E wf).window u (0 : Fin 1) : Int)).toNat = i.val
      rw [vecScatter_start0, vecScatter_window0, h0]
      omega

/-- THE ACCUMULATING FLAT SCATTER READ AT `i`: the operand's element plus the sum of `upd[e]` over the `e` whose start
    index `idx[e, 0]`, read signed and not clamped, is `i`; an update whose start index is outside `[0, N)` contributes
    nothing. -/
theorem scatterAdd_vec_apply
    (x : (⟨1, ![N]⟩ : Shape).Idx → EReal) (idx : IVec ⟨2, ![E, 1]⟩ w) (upd : (⟨1, ![E]⟩ : Shape).Idx → EReal)
    (i : Fin N) :
    Ideal.hostScatterAdd (vecScatterDims N E wf) x idx upd (ix1 i)
      = x (ix1 i) + ∑ e ∈ Finset.univ.filter (fun e : Fin E => (idx (ix2 e 0)).toInt = (i.val : Int)), upd (ix1 e) := by
  unfold Ideal.hostScatterAdd
  congr 1
  refine Finset.sum_nbij' (fun u => u 0) (fun e => ix1 e) ?_ ?_ ?_ ?_ ?_
  · intro u hu
    exact Finset.mem_filter.mpr ⟨Finset.mem_univ _, (vecScatter_resultIdx_iff wf idx u i).mp (Finset.mem_filter.mp hu).2⟩
  · intro e he
    exact Finset.mem_filter.mpr ⟨Finset.mem_univ _,
      (vecScatter_resultIdx_iff wf idx (ix1 e) i).mpr (Finset.mem_filter.mp he).2⟩
  · intro u _
    exact (eq_ix1 u).symm
  · intro e _
    rfl
  · intro u _
    exact congrArg upd (eq_ix1 u)

end VecScatter

end Idealize.ShloMosaic.GatherScatter

end
-- ==== Proof.LibNonnegScale.lean ====
import Mathlib.Data.EReal.Basic
import Mathlib.Data.EReal.Operations
import Mathlib.Data.EReal.Inv
import Mathlib.Algebra.BigOperators.Group.Finset.Basic
import Idealize.ShloMosaic.PureOps.Ideal

/-!
# Scaling finite sums of extended reals by a nonnegative finite scalar

On the extended reals (`⊤ + ⊥ = ⊥`, `0 * x = 0`) multiplication does not distribute over
addition in general, but it does when the scalar `c` satisfies `0 ≤ c` and `c ≠ ⊤`; no
finiteness of the summands is needed.  Hence such a scalar moves in and out of arbitrary finite
sums.  As an application, the symmetric normalisation `d (src) * d (dst)` of a graph convolution
equals a row pre-scale by `d` followed by a row post-scale by `d`.
-/

noncomputable section

namespace Idealize.ShloMosaic.NonnegScale

open scoped BigOperators

/-- Left distributivity for a nonnegative scalar other than `⊤`; the summands are arbitrary. -/
theorem mul_add_of_nonneg_ne_top {c : EReal} (h0 : 0 ≤ c) (ht : c ≠ ⊤) (a b : EReal) :
    c * (a + b) = c * a + c * b :=
  EReal.left_distrib_of_nonneg_of_ne_top h0 ht a b

/-- Right distributivity for a nonnegative scalar other than `⊤`. -/
theorem add_mul_of_nonneg_ne_top {c : EReal} (h0 : 0 ≤ c) (ht : c ≠ ⊤) (a b : EReal) :
    (a + b) * c = a * c + b * c :=
  EReal.right_distrib_of_nonneg_of_ne_top h0 ht a b

/-- A nonnegative scalar other than `⊤` multiplies into a finite sum from the right. -/
theorem sum_mul_of_nonneg_ne_top {ι : Type*} (s : Finset ι) (f : ι → EReal) {c : EReal}
    (h0 : 0 ≤ c) (ht : c ≠ ⊤) : (∑ i ∈ s, f i) * c = ∑ i ∈ s, f i * c := by
  classical
  induction s using Finset.induction_on with
  | empty => simp
  | insert a s ha ih =>
    rw [Finset.sum_insert ha, Finset.sum_insert ha, add_mul_of_nonneg_ne_top h0 ht, ih]

/-- A nonnegative scalar other than `⊤` multiplies into a finite sum from the left. -/
theorem mul_sum_of_nonneg_ne_top {ι : Type*} (s : Finset ι) (f : ι → EReal) {c : EReal}
    (h0 : 0 ≤ c) (ht : c ≠ ⊤) : c * (∑ i ∈ s, f i) = ∑ i ∈ s, c * f i := by
  rw [mul_comm, sum_mul_of_nonneg_ne_top s f h0 ht]
  exact Finset.sum_congr rfl (fun i _ => mul_comm _ _)

/-- One message: the pre-scaled row contracted with `W` is the unscaled contraction, scaled. -/
theorem row_prescale {κ : Type*} [Fintype κ] (y : κ → EReal) (W : κ → EReal) {c : EReal}
    (h0 : 0 ≤ c) (ht : c ≠ ⊤) : (∑ k, (y k * c) * W k) = (∑ k, y k * W k) * c := by
  rw [sum_mul_of_nonneg_ne_top Finset.univ (fun k => y k * W k) h0 ht]
  exact Finset.sum_congr rfl (fun k _ => mul_right_comm _ _ _)

/-- Rows pre-scaled by `d`, summed over the edges into node `i`, then post-scaled by `d i`,
equal the per-edge symmetric factor `d (src) * d (dst)` applied to the unscaled messages. -/
theorem gcn_core {ι ε κ : Type*} [Fintype κ] (T : Finset ε) (s t : ε → ι) (i : ι)
    (ht : ∀ e ∈ T, t e = i) (x : ι → κ → EReal) (W : κ → EReal) (d : ι → EReal)
    (hd0 : ∀ n, 0 ≤ d n) (hdt : ∀ n, d n ≠ ⊤) :
    (∑ e ∈ T, ∑ k, (x (s e) k * d (s e)) * W k) * d i
      = ∑ e ∈ T, (∑ k, x (s e) k * W k) * (d (s e) * d (t e)) := by
  rw [sum_mul_of_nonneg_ne_top T _ (hd0 i) (hdt i)]
  refine Finset.sum_congr rfl (fun e he => ?_)
  rw [row_prescale (x (s e)) W (hd0 (s e)) (hdt (s e)), ht e he, mul_assoc]

/-- The reciprocal square root of a positive extended real lies in `[0, ⊤)`.  (At `0` the value
is `⊤` and at negative arguments it is `⊥`, so positivity cannot be dropped.) -/
theorem rsqrt_nonneg_ne_top (x : EReal) (hx : 0 < x) :
    0 ≤ Ideal.rsqrt x ∧ Ideal.rsqrt x ≠ ⊤ := by
  induction x using EReal.rec with
  | bot => exact absurd hx (not_lt_of_ge bot_le)
  | top => exact ⟨le_of_eq Ideal.rsqrt_top.symm, by rw [Ideal.rsqrt_top]; exact EReal.zero_ne_top⟩
  | coe r =>
    have hr : 0 < r := by exact_mod_cast hx
    have h1 : ¬ r < 0 := not_lt.mpr hr.le
    have h2 : ¬ r = 0 := hr.ne'
    have hE : Ideal.rsqrt (r : EReal) = (((Real.sqrt r)⁻¹ : ℝ) : EReal) := by
      rw [Ideal.rsqrt_coe, if_neg h1, if_neg h2]
    rw [hE]
    exact ⟨by exact_mod_cast inv_nonneg.mpr (Real.sqrt_nonneg r), EReal.coe_ne_top _⟩

end Idealize.ShloMosaic.NonnegScale
-- ==== Proof.KLayer.lean ====
/-
  One graph-convolution layer as the kernel computes it equals the reference form, index by index on the extended reals.

  The kernel's form: the rows of the row-scaled product `linG x W d2` (row r scaled by d[r]) are gathered at the source
  indices, added into zeros at the destination indices (a destination outside [0, 50000) lands nowhere), and the result
  is scaled row by row by d and the bias added (`epiG`). The reference form `Cert.Spec.gcn` applies the per-edge factor
  d[src] · d[dst] to the unscaled message. A scalar that is nonnegative and not ⊤ moves in and out of finite sums of
  extended reals, so the two agree (`kern_layer_eq_gcn`). Also: entry (i, j) of a layer depends on the weights and the
  bias only through column j (`gcn_congr_col`), and the kernel's reparameterization is the reference one (`repG_eq_reparam`).
-/
import proofs.«100823_j26800595927067_2_alg».proof.Proof.Spec
import proofs.«100823_j26800595927067_2_alg».proof.Proof.KRegDefs
import proofs.«100823_j26800595927067_2_alg».proof.Proof.LibGatherScatter
import proofs.«100823_j26800595927067_2_alg».proof.Proof.LibNonnegScale
import Idealize.ShloMosaic.Lib.IdealHost

noncomputable section

open scoped BigOperators

namespace Cert.KernelIdeal.Layer

open Idealize.ShloMosaic Idealize.ShloMosaic.ValueIdx Idealize.ShloMosaic.GatherScatter Idealize.ShloMosaic.NonnegScale
open Cert.KernelIdeal.Regions

/-- THE KERNEL'S LAYER IS THE REFERENCE LAYER. Scatter-add into zeros, at the destination indices `D`, of the rows of the
    row-scaled product gathered at the source indices `Sn`, then the post-scale by `d2` and the bias `b2`: entry (i, j) is
    (0 + ∑ over the edges e into i of ∑ₖ (x[src e, k] · d[src e]) · W[k, j]) · d[i] + b[j]. Since every d[n] is
    nonnegative and not ⊤ both scalings move inside the sums, and on the edges into i the clamped destination row is i
    (`hrow`), which gives the reference's per-edge factor d[src e] · d[dst e]. -/
theorem kern_layer_eq_gcn {K : ℕ}
    (wfS : ScatterDims.WF ⟨2, ![50000, 128]⟩ ⟨2, ![1650000, 1]⟩ ⟨2, ![1650000, 128]⟩ [1] [0] [0] 1)
    (wfG : GatherDims.WF ⟨2, ![50000, 128]⟩ ⟨2, ![1650000, 1]⟩ ⟨2, ![1650000, 128]⟩ [1] [0] [] [0] [] 1 ![1, 128])
    (Sn Dn D : IVec ⟨2, ![1650000, 1]⟩ 32) (dv : (⟨1, ![50000]⟩ : Shape).Idx → EReal)
    (hd0 : ∀ n, 0 ≤ dv n) (hdt : ∀ n, dv n ≠ ⊤)
    (hrow : ∀ (i : Fin 50000) (e : Fin 1650000), e ∈ Cert.Spec.into D i → Cert.Spec.row (Dn (ix2 e 0)) = i)
    (d2 : (⟨2, ![50000, 1]⟩ : Shape).Idx → EReal) (hd2 : ∀ r : Fin 50000, d2 (ix2 r (0 : Fin 1)) = dv (ix1 r))
    (zeros : (⟨2, ![50000, 128]⟩ : Shape).Idx → EReal) (hz : ∀ y, zeros y = Ideal.ofBits .f32 0x00000000#32)
    (x : (⟨2, ![50000, K]⟩ : Shape).Idx → EReal) (W : (⟨2, ![K, 128]⟩ : Shape).Idx → EReal)
    (b2 : (⟨2, ![1, 128]⟩ : Shape).Idx → EReal) (b : (⟨1, ![128]⟩ : Shape).Idx → EReal)
    (hb : ∀ j : Fin 128, b2 (ix2 (0 : Fin 1) j) = b (ix1 j)) :
    epiG (Ideal.hostScatterAdd (rowScatterDims 50000 128 1650000 wfS) zeros D
        (Host.gather (rowGatherDims 50000 128 1650000 wfG) (linG x W d2) Sn)) d2 b2
      = Cert.Spec.gcn Sn Dn D dv x W b := by
  funext y
  obtain ⟨i, j, rfl⟩ : ∃ i j, y = ix2 i j := ⟨y 0, y 1, eq_ix2 y⟩
  show Ideal.hostScatterAdd (rowScatterDims 50000 128 1650000 wfS) zeros D
        (Host.gather (rowGatherDims 50000 128 1650000 wfG) (linG x W d2) Sn) (ix2 i j) * d2 (ix2 i (0 : Fin 1))
        + b2 (ix2 (0 : Fin 1) j)
      = (Ideal.ofBits .f32 0x00000000#32 + ∑ e ∈ Cert.Spec.into D i,
          (∑ k : Fin K, x (ix2 (Cert.Spec.row (Sn (ix2 e 0))) k) * W (ix2 k j))
            * (dv (ix1 (Cert.Spec.row (Sn (ix2 e 0)))) * dv (ix1 (Cert.Spec.row (Dn (ix2 e 0))))))
        + b (ix1 j)
  rw [scatterAdd_row_apply, hz, hd2, hb, Ideal.ofBits_zero_f32, zero_add, zero_add]
  refine congrArg (fun t => t + b (ix1 j)) ?_
  have hsum : ∀ e : Fin 1650000, Host.gather (rowGatherDims 50000 128 1650000 wfG) (linG x W d2) Sn (ix2 e j)
      = ∑ k : Fin K,
          (x (ix2 (Cert.Spec.row (Sn (ix2 e 0))) k) * dv (ix1 (Cert.Spec.row (Sn (ix2 e 0))))) * W (ix2 k j) := by
    intro e
    rw [gather_row_apply (Nat.succ_pos _) wfG]
    show (∑ k : Fin K, (x (ix2 (Cert.Spec.row (Sn (ix2 e 0))) k) * d2 (ix2 (Cert.Spec.row (Sn (ix2 e 0))) (0 : Fin 1)))
        * W (ix2 k j)) = _
    rw [hd2]
  show (∑ e ∈ Cert.Spec.into D i, Host.gather (rowGatherDims 50000 128 1650000 wfG) (linG x W d2) Sn (ix2 e j))
      * dv (ix1 i) = _
  rw [Finset.sum_congr rfl (fun e _ => hsum e)]
  exact gcn_core (Cert.Spec.into D i) (fun e => Cert.Spec.row (Sn (ix2 e 0))) (fun e => Cert.Spec.row (Dn (ix2 e 0))) i
    (hrow i) (fun n k => x (ix2 n k)) (fun k => W (ix2 k j)) (fun n => dv (ix1 n)) (fun n => hd0 _) (fun n => hdt _)

/-- Entry (i, j) of a layer depends on the weights and the bias only through column j: two layers whose weight columns
    j and j' and bias entries j and j' agree have the same entries (i, j) and (i, j'). -/
theorem gcn_congr_col {K C C' : ℕ} (Sn Dn D : IVec ⟨2, ![1650000, 1]⟩ 32) (dv : (⟨1, ![50000]⟩ : Shape).Idx → EReal)
    (x : (⟨2, ![50000, K]⟩ : Shape).Idx → EReal) (W : (⟨2, ![K, C]⟩ : Shape).Idx → EReal)
    (W' : (⟨2, ![K, C']⟩ : Shape).Idx → EReal) (b : (⟨1, ![C]⟩ : Shape).Idx → EReal)
    (b' : (⟨1, ![C']⟩ : Shape).Idx → EReal) (i : Fin 50000) (j : Fin C) (j' : Fin C')
    (hW : ∀ k : Fin K, W (ix2 k j) = W' (ix2 k j')) (hb : b (ix1 j) = b' (ix1 j')) :
    Cert.Spec.gcn Sn Dn D dv x W b (ix2 i j) = Cert.Spec.gcn Sn Dn D dv x W' b' (ix2 i j') := by
  show (Ideal.ofBits .f32 0x00000000#32 + ∑ e ∈ Cert.Spec.into D i,
          (∑ k : Fin K, x (ix2 (Cert.Spec.row (Sn (ix2 e 0))) k) * W (ix2 k j))
            * (dv (ix1 (Cert.Spec.row (Sn (ix2 e 0)))) * dv (ix1 (Cert.Spec.row (Dn (ix2 e 0))))))
        + b (ix1 j)
      = (Ideal.ofBits .f32 0x00000000#32 + ∑ e ∈ Cert.Spec.into D i,
          (∑ k : Fin K, x (ix2 (Cert.Spec.row (Sn (ix2 e 0))) k) * W' (ix2 k j'))
            * (dv (ix1 (Cert.Spec.row (Sn (ix2 e 0)))) * dv (ix1 (Cert.Spec.row (Dn (ix2 e 0))))))
        + b' (ix1 j')
  simp only [hW, hb]

/-- The kernel's reparameterization x · exp(½ · l) + μ is the reference's, with the arguments in the reference's order
    (noise, mean, log-variance). -/
theorem repG_eq_reparam (x l mu : (⟨2, ![50000, 64]⟩ : Shape).Idx → EReal) :
    Cert.KernelIdeal.Regions.repG x l mu = Cert.Spec.reparam x mu l := rfl

end Cert.KernelIdeal.Layer

end
-- ==== Proof.KMl.lean ====
import proofs.«100823_j26800595927067_2_alg».proof.Proof.Spec
import proofs.«100823_j26800595927067_2_alg».proof.Proof.KLayer
import Idealize.ShloMosaic.Lib.Pipeline.Value
import Idealize.ShloMosaic.Lib.ValueLayout
import Idealize.ShloMosaic.Lib.ValueIdx

/-!
# The fused mean / log-variance layer

One 128-wide graph-convolution layer whose weight is two [128, 64] weights side by side and whose bias is two [64]
biases end to end; its columns 0..63 and 64..127 are the two separate 64-wide layers, because entry (i, j) of a layer
depends on the weight and the bias only through column j.
-/

noncomputable section

open scoped BigOperators

namespace Cert.KernelIdeal.Ml

open Idealize.ShloMosaic Idealize.ShloMosaic.ValueIdx Cert.KernelIdeal.Layer

/-- Column `j < 64` of two [128, 64] matrices side by side is column `j` of the first. -/
theorem cat_w_left (x5 x7 : (⟨2, ![128, 64]⟩ : Shape).Idx → EReal)
    (hc : Shape.Concatenates [(⟨2, ![128, 64]⟩ : Shape), ⟨2, ![128, 64]⟩] ⟨2, ![128, 128]⟩ 1)
    (k : Fin 128) (j : Fin 64) (c : Fin 128) (hcj : c.val = j.val) :
    concatenate ⟨2, ![128, 128]⟩ 1 [⟨⟨2, ![128, 64]⟩, x5⟩, ⟨⟨2, ![128, 64]⟩, x7⟩] hc (ix2 k c) = x5 (ix2 k j) :=
  concatenate_pair_apply_left (t := ⟨2, ![128, 128]⟩) 1 x5 x7 hc (ix2 k c) rfl (ix2 k j) (fun b => by
    match b with
    | ⟨0, _⟩ => rfl
    | ⟨1, _⟩ => exact hcj.symm)

/-- Column `64 + j` of two [128, 64] matrices side by side is column `j` of the second. -/
theorem cat_w_right (x5 x7 : (⟨2, ![128, 64]⟩ : Shape).Idx → EReal)
    (hc : Shape.Concatenates [(⟨2, ![128, 64]⟩ : Shape), ⟨2, ![128, 64]⟩] ⟨2, ![128, 128]⟩ 1)
    (k : Fin 128) (j : Fin 64) (c : Fin 128) (hcj : c.val = 64 + j.val) :
    concatenate ⟨2, ![128, 128]⟩ 1 [⟨⟨2, ![128, 64]⟩, x5⟩, ⟨⟨2, ![128, 64]⟩, x7⟩] hc (ix2 k c) = x7 (ix2 k j) :=
  concatenate_pair_apply_right (t := ⟨2, ![128, 128]⟩) 1 x5 x7 hc (ix2 k c) rfl rfl (ix2 k j) (fun b hb => by
    match b with
    | ⟨0, _⟩ => rfl
    | ⟨1, _⟩ => exact absurd rfl hb)
    (by show j.val + 64 = c.val; omega)

/-- Entry `j < 64` of two [64] vectors end to end is entry `j` of the first. -/
theorem cat_b_left (x6 x8 : (⟨1, ![64]⟩ : Shape).Idx → EReal)
    (hcb : Shape.Concatenates [(⟨1, ![64]⟩ : Shape), ⟨1, ![64]⟩] ⟨1, ![128]⟩ 0)
    (j : Fin 64) (c : Fin 128) (hcj : c.val = j.val) :
    concatenate ⟨1, ![128]⟩ 0 [⟨⟨1, ![64]⟩, x6⟩, ⟨⟨1, ![64]⟩, x8⟩] hcb (ix1 c) = x6 (ix1 j) :=
  concatenate_pair_apply_left (t := ⟨1, ![128]⟩) 0 x6 x8 hcb (ix1 c) rfl (ix1 j) (fun b => by
    match b with
    | ⟨0, _⟩ => exact hcj.symm)

/-- Entry `64 + j` of two [64] vectors end to end is entry `j` of the second. -/
theorem cat_b_right (x6 x8 : (⟨1, ![64]⟩ : Shape).Idx → EReal)
    (hcb : Shape.Concatenates [(⟨1, ![64]⟩ : Shape), ⟨1, ![64]⟩] ⟨1, ![128]⟩ 0)
    (j : Fin 64) (c : Fin 128) (hcj : c.val = 64 + j.val) :
    concatenate ⟨1, ![128]⟩ 0 [⟨⟨1, ![64]⟩, x6⟩, ⟨⟨1, ![64]⟩, x8⟩] hcb (ix1 c) = x8 (ix1 j) :=
  concatenate_pair_apply_right (t := ⟨1, ![128]⟩) 0 x6 x8 hcb (ix1 c) rfl rfl (ix1 j) (fun b hb => by
    match b with
    | ⟨0, _⟩ => exact absurd rfl hb)
    (by show j.val + 64 = c.val; omega)

/-- Columns 0..63 of the fused layer are the mean layer. -/
theorem ml_mean (Sn Dn D : IVec ⟨2, ![1650000, 1]⟩ 32) (dv : (⟨1, ![50000]⟩ : Shape).Idx → EReal)
    (H : (⟨2, ![50000, 128]⟩ : Shape).Idx → EReal) (x5 x7 : (⟨2, ![128, 64]⟩ : Shape).Idx → EReal)
    (x6 x8 : (⟨1, ![64]⟩ : Shape).Idx → EReal)
    (hc : Shape.Concatenates [(⟨2, ![128, 64]⟩ : Shape), ⟨2, ![128, 64]⟩] ⟨2, ![128, 128]⟩ 1)
    (hcb : Shape.Concatenates [(⟨1, ![64]⟩ : Shape), ⟨1, ![64]⟩] ⟨1, ![128]⟩ 0)
    (hs : (⟨2, ![50000, 128]⟩ : Shape).Slices ![0, 0] ⟨2, ![50000, 64]⟩) :
    extractStridedSlice ⟨2, ![50000, 64]⟩ ![0, 0]
        (Cert.Spec.gcn Sn Dn D dv H
          (concatenate ⟨2, ![128, 128]⟩ 1 [⟨⟨2, ![128, 64]⟩, x5⟩, ⟨⟨2, ![128, 64]⟩, x7⟩] hc)
          (concatenate ⟨1, ![128]⟩ 0 [⟨⟨1, ![64]⟩, x6⟩, ⟨⟨1, ![64]⟩, x8⟩] hcb)) hs
      = Cert.Spec.gcn Sn Dn D dv H x5 x6 := by
  funext y
  obtain ⟨i, j, rfl⟩ : ∃ i j, y = ix2 i j := ⟨y 0, y 1, eq_ix2 y⟩
  have hj := j.isLt
  rw [slice2_axis1_apply 0 _ hs i j ⟨j.val, by omega⟩ (Nat.zero_add _).symm]
  exact gcn_congr_col Sn Dn D dv H _ x5 _ x6 i ⟨j.val, by omega⟩ j
    (fun k => cat_w_left x5 x7 hc k j _ rfl) (cat_b_left x6 x8 hcb j _ rfl)

/-- Columns 64..127 of the fused layer are the log-variance layer. -/
theorem ml_logvar (Sn Dn D : IVec ⟨2, ![1650000, 1]⟩ 32) (dv : (⟨1, ![50000]⟩ : Shape).Idx → EReal)
    (H : (⟨2, ![50000, 128]⟩ : Shape).Idx → EReal) (x5 x7 : (⟨2, ![128, 64]⟩ : Shape).Idx → EReal)
    (x6 x8 : (⟨1, ![64]⟩ : Shape).Idx → EReal)
    (hc : Shape.Concatenates [(⟨2, ![128, 64]⟩ : Shape), ⟨2, ![128, 64]⟩] ⟨2, ![128, 128]⟩ 1)
    (hcb : Shape.Concatenates [(⟨1, ![64]⟩ : Shape), ⟨1, ![64]⟩] ⟨1, ![128]⟩ 0)
    (hs : (⟨2, ![50000, 128]⟩ : Shape).Slices ![0, 64] ⟨2, ![50000, 64]⟩) :
    extractStridedSlice ⟨2, ![50000, 64]⟩ ![0, 64]
        (Cert.Spec.gcn Sn Dn D dv H
          (concatenate ⟨2, ![128, 128]⟩ 1 [⟨⟨2, ![128, 64]⟩, x5⟩, ⟨⟨2, ![128, 64]⟩, x7⟩] hc)
          (concatenate ⟨1, ![128]⟩ 0 [⟨⟨1, ![64]⟩, x6⟩, ⟨⟨1, ![64]⟩, x8⟩] hcb)) hs
      = Cert.Spec.gcn Sn Dn D dv H x7 x8 := by
  funext y
  obtain ⟨i, j, rfl⟩ : ∃ i j, y = ix2 i j := ⟨y 0, y 1, eq_ix2 y⟩
  have hj := j.isLt
  rw [slice2_axis1_apply 64 _ hs i j ⟨64 + j.val, by omega⟩ rfl]
  exact gcn_congr_col Sn Dn D dv H _ x7 _ x8 i ⟨64 + j.val, by omega⟩ j
    (fun k => cat_w_right x5 x7 hc k j _ rfl) (cat_b_right x6 x8 hcb j _ rfl)

end Cert.KernelIdeal.Ml

end
-- ==== Proof.RefValue.lean ====
import proofs.«100823_j26800595927067_2_alg».proof.Proof.ReadP
import proofs.«100823_j26800595927067_2_alg».proof.Proof.Spec
import proofs.«100823_j26800595927067_2_alg».proof.Proof.LibNonnegScale
import proofs.«100823_j26800595927067_2_alg».proof.Proof.LibGatherScatter

/-!
# The reference program's values as graph convolutions

The reference computes, on a graph with 50000 nodes and 1650000 edges (the given ones and one loop per node), the
per-node factor `dv` (the reciprocal square root of the in-degree, zero where the degree is not positive), then five
layers, each a matrix product, a row gather at the source indices, a product with the per-edge factor
`dv[src] * dv[dst]`, a scatter-add at the destination indices and a bias; between the third and the fourth layer the
reparameterization `noise * exp(½ * logvar) + mean`. Here each layer's value on the extended reals is identified with
`Cert.Spec.gcn`, and the reparameterization with `Cert.Spec.reparam`.
-/

noncomputable section

namespace Cert.ReferenceIdeal.RefValue

open scoped BigOperators
open Cert.ReferenceIdeal Cert.ReferenceIdeal.Gen Idealize.ShloMosaic Idealize.ShloMosaic.ValueIdx
open Idealize.ShloMosaic.GatherScatter

/-! ## Shape-generic statements -/

/-- One layer of the reference over abstract operand arrays: a row gather of the transformed features at the source
    indices, times the per-edge factor, scatter-added at the destination indices into zeros, plus the bias, is the
    graph convolution of the specification. The transformed features, the factor array, the zeros and the bias array
    are given by their values at every index. -/
theorem ref_layer {K C : ℕ}
    (wfG : GatherDims.WF ⟨2, ![50000, C]⟩ ⟨2, ![1650000, 1]⟩ ⟨2, ![1650000, C]⟩ [1] [0] [] [0] [] 1 ![1, C])
    (wfS : ScatterDims.WF ⟨2, ![50000, C]⟩ ⟨2, ![1650000, 1]⟩ ⟨2, ![1650000, C]⟩ [1] [0] [0] 1)
    (Sn Dn D : IVec ⟨2, ![1650000, 1]⟩ 32) (dv : (⟨1, ![50000]⟩ : Shape).Idx → EReal)
    (x : (⟨2, ![50000, K]⟩ : Shape).Idx → EReal) (W : (⟨2, ![K, C]⟩ : Shape).Idx → EReal)
    (b : (⟨1, ![C]⟩ : Shape).Idx → EReal)
    (h : FVec Ideal ⟨2, ![50000, C]⟩ .f32) (nrm : FVec Ideal ⟨2, ![1650000, C]⟩ .f32)
    (z bb : FVec Ideal ⟨2, ![50000, C]⟩ .f32)
    (hh : ∀ i j, h (ix2 i j) = ∑ k : Fin K, x (ix2 i k) * W (ix2 k j))
    (hn : ∀ e j, nrm (ix2 e j)
      = dv (ix1 (Cert.Spec.row (Sn (ix2 e 0)))) * dv (ix1 (Cert.Spec.row (Dn (ix2 e 0)))))
    (hz : ∀ y, z y = Ideal.ofBits .f32 0x00000000#32)
    (hb : ∀ y, bb y = b (ix1 (y 1))) :
    addf (Host.scatterAdd (rowScatterDims 50000 C 1650000 wfS) z D
        (mulf (Host.gather (rowGatherDims 50000 C 1650000 wfG) h Sn) nrm)) bb
      = Cert.Spec.gcn Sn Dn D dv x W b := by
  funext y
  obtain ⟨i, j, rfl⟩ : ∃ i j, y = ix2 i j := ⟨y 0, y 1, eq_ix2 y⟩
  show Ideal.hostScatterAdd (rowScatterDims 50000 C 1650000 wfS) z D
      (mulf (Host.gather (rowGatherDims 50000 C 1650000 wfG) h Sn) nrm) (ix2 i j) + bb (ix2 i j) = _
  rw [scatterAdd_row_apply, hz, hb]
  show _ = (Ideal.ofBits .f32 0x00000000#32 + ∑ e ∈ Cert.Spec.into D i,
      (∑ k : Fin K, x (ix2 (Cert.Spec.row (Sn (ix2 e 0))) k) * W (ix2 k j))
        * (dv (ix1 (Cert.Spec.row (Sn (ix2 e 0)))) * dv (ix1 (Cert.Spec.row (Dn (ix2 e 0))))))
    + b (ix1 j)
  refine congrArg (fun t => (Ideal.ofBits .f32 0x00000000#32 + t) + b (ix1 j)) (Finset.sum_congr rfl (fun e _ => ?_))
  show Host.gather (rowGatherDims 50000 C 1650000 wfG) h Sn (ix2 e j) * nrm (ix2 e j) = _
  rw [gather_row_apply (by decide) wfG h Sn e j, hn]
  exact congrArg (· * _) (hh _ _)

/-- The per-edge factor: the product of the per-node factor gathered at the source and at the destination index. -/
theorem ref_norm (wfV : GatherDims.WF ⟨1, ![50000]⟩ ⟨2, ![1650000, 1]⟩ ⟨1, ![1650000]⟩ [] [0] [] [0] [] 1 ![1])
    (dv : FVec Ideal ⟨1, ![50000]⟩ .f32) (Sn Dn : IVec ⟨2, ![1650000, 1]⟩ 32) (e : Fin 1650000) :
    mulf (Host.gather (vecGatherDims 50000 1650000 wfV) dv Sn) (Host.gather (vecGatherDims 50000 1650000 wfV) dv Dn) (ix1 e)
      = dv (ix1 (Cert.Spec.row (Sn (ix2 e 0)))) * dv (ix1 (Cert.Spec.row (Dn (ix2 e 0)))) := by
  show Host.gather (vecGatherDims 50000 1650000 wfV) dv Sn (ix1 e) * Host.gather (vecGatherDims 50000 1650000 wfV) dv Dn (ix1 e) = _
  rw [gather_vec_apply (by decide) wfV dv Sn e, gather_vec_apply (by decide) wfV dv Dn e]
  rfl

/-- A start index whose signed value is nonnegative is left alone by the wrap-around of negative indices. -/
theorem wrap_of_nonneg (v : BitVec 32) (h : 0 ≤ v.toInt) :
    Scalar.select (IntOp.cmpi .slt v 0#32) (IntOp.addi v 50000#32) v = v := by
  have hs : v.slt 0#32 = false := by
    rw [BitVec.slt_eq_decide, BitVec.toInt_zero]
    exact decide_eq_false (not_lt.mpr h)
  show Scalar.select (BitVec.ofBool (v.slt 0#32)) _ _ = _
  rw [hs]
  exact select_zero _ _

/-- The row a start index resolves to, when its signed value is a node. -/
theorem row_of_toInt (v : BitVec 32) (i : Fin 50000) (h : v.toInt = (i.val : Int)) : Cert.Spec.row v = i := by
  refine Fin.ext ?_
  show min v.toInt.toNat 49999 = i.val
  have := i.isLt
  omega

/-- Where the degree is positive the reciprocal square root, elsewhere zero: a value in [0, ⊤). -/
theorem dinv_nonneg_ne_top (d : EReal) :
    0 ≤ Scalar.select (Ideal.cmp .ogt d (Ideal.ofBits .f32 0x00000000#32)) (Ideal.rsqrt d) (Ideal.ofBits .f32 0x00000000#32)
      ∧ Scalar.select (Ideal.cmp .ogt d (Ideal.ofBits .f32 0x00000000#32)) (Ideal.rsqrt d) (Ideal.ofBits .f32 0x00000000#32) ≠ ⊤ := by
  rw [Ideal.ofBits_zero_f32]
  by_cases hd : 0 < d
  · have hc : Ideal.cmp .ogt d 0 = 1#1 := by
      show BitVec.ofBool (decide (0 < d)) = 1#1
      rw [decide_eq_true hd]; rfl
    rw [hc, select_one]
    exact Idealize.ShloMosaic.NonnegScale.rsqrt_nonneg_ne_top d hd
  · have hc : Ideal.cmp .ogt d 0 = 0#1 := by
      show BitVec.ofBool (decide (0 < d)) = 0#1
      rw [decide_eq_false hd]; rfl
    rw [hc, select_zero]
    exact ⟨le_refl _, EReal.zero_ne_top⟩

/-! ## The index arrays and the per-node factor -/

variable (x0 : (⟨S50000x128, .f32⟩ : BufTy).Contents (Elt Ideal))
variable (x1 : (⟨S2x1600000, .i32⟩ : BufTy).Contents (Elt Ideal))
variable (x2 : (⟨S50000x64, .f32⟩ : BufTy).Contents (Elt Ideal))
variable (x3 : (⟨S128x128, .f32⟩ : BufTy).Contents (Elt Ideal))
variable (x4 : (⟨S128, .f32⟩ : BufTy).Contents (Elt Ideal))
variable (x5 : (⟨S128x64, .f32⟩ : BufTy).Contents (Elt Ideal))
variable (x6 : (⟨S64, .f32⟩ : BufTy).Contents (Elt Ideal))
variable (x7 : (⟨S128x64, .f32⟩ : BufTy).Contents (Elt Ideal))
variable (x8 : (⟨S64, .f32⟩ : BufTy).Contents (Elt Ideal))
variable (x9 : (⟨S64x128, .f32⟩ : BufTy).Contents (Elt Ideal))
variable (x10 : (⟨S128, .f32⟩ : BufTy).Contents (Elt Ideal))
variable (x11 : (⟨S128x128, .f32⟩ : BufTy).Contents (Elt Ideal))
variable (x12 : (⟨S128, .f32⟩ : BufTy).Contents (Elt Ideal))

/-- Every layer wraps the same source indices the same way, and scatters at the same destination indices. -/
theorem v20_eq_v36 : ReadP.val_main_v20 (F := Ideal) x1 = ReadP.val_main_v36 (F := Ideal) x1 := rfl
theorem v53_eq_v36 : ReadP.val_main_v53 (F := Ideal) x1 = ReadP.val_main_v36 (F := Ideal) x1 := rfl
theorem v70_eq_v36 : ReadP.val_main_v70 (F := Ideal) x1 = ReadP.val_main_v36 (F := Ideal) x1 := rfl
theorem v92_eq_v36 : ReadP.val_main_v92 (F := Ideal) x1 = ReadP.val_main_v36 (F := Ideal) x1 := rfl
theorem v109_eq_v36 : ReadP.val_main_v109 (F := Ideal) x1 = ReadP.val_main_v36 (F := Ideal) x1 := rfl
theorem v59_eq_v42 : ReadP.val_main_v59 (F := Ideal) x1 = ReadP.val_main_v42 (F := Ideal) x1 := rfl
theorem v76_eq_v42 : ReadP.val_main_v76 (F := Ideal) x1 = ReadP.val_main_v42 (F := Ideal) x1 := rfl
theorem v98_eq_v42 : ReadP.val_main_v98 (F := Ideal) x1 = ReadP.val_main_v42 (F := Ideal) x1 := rfl
theorem v115_eq_v42 : ReadP.val_main_v115 (F := Ideal) x1 = ReadP.val_main_v42 (F := Ideal) x1 := rfl

/-- The per-node factor lies in [0, ⊤). -/
theorem dv_nonneg_ne_top (i : S50000.Idx) :
    0 ≤ ReadP.val_main_v14 (F := Ideal) x1 i ∧ ReadP.val_main_v14 (F := Ideal) x1 i ≠ ⊤ := by
  rw [ReadP.val_main_v14_apply, ReadP.val_main_v12_apply, ReadP.val_main_v13_apply, ReadP.val_main_v11_apply,
    ReadP.val_main_call0_v1_apply, ReadP.val_main_cst_1_apply, ReadP.val_main_call0_v0_apply, ReadP.val_main_cst_2_apply,
    Ideal.ofBits_def, Ideal.cmpf_def, Ideal.hostUnary_rsqrt_def]
  exact dinv_nonneg_ne_top (ReadP.val_main_v10 (F := Ideal) x1 i)

/-- An edge whose raw destination index is the node `i` has `i` as the row its wrapped destination index resolves to. -/
theorem row_dst_of_into (i : Fin 50000) (e : Fin 1650000)
    (he : e ∈ Cert.Spec.into (ReadP.val_main_v42 (F := Ideal) x1) i) :
    Cert.Spec.row (ReadP.val_main_v27 (F := Ideal) x1 (ix2 e 0)) = i := by
  have h1 : (ReadP.val_main_v42 (F := Ideal) x1 (ix2 e 0)).toInt = (i.val : Int) := (Finset.mem_filter.mp he).2
  rw [ReadP.val_main_v42_apply] at h1
  rw [ReadP.val_main_v27_apply, ReadP.val_main_v26_apply, ReadP.val_main_v23_apply, ReadP.val_main_v25_apply,
    ReadP.val_main_v22_apply, ReadP.val_main_v24_apply]
  show Cert.Spec.row (Scalar.select
      (IntOp.cmpi .slt (ReadP.val_main_v6 (F := Ideal) x1 (ReadP.idx_main_v42 (ix2 e 0))) 0#32)
      (IntOp.addi (ReadP.val_main_v6 (F := Ideal) x1 (ReadP.idx_main_v42 (ix2 e 0))) 50000#32)
      (ReadP.val_main_v6 (F := Ideal) x1 (ReadP.idx_main_v42 (ix2 e 0)))) = i
  rw [wrap_of_nonneg _ (by rw [h1]; exact Int.natCast_nonneg _)]
  exact row_of_toInt _ i h1

/-- The per-edge factor the reference forms once and every layer uses. -/
theorem nrm_v29 (e : Fin 1650000) :
    ReadP.val_main_v29 (F := Ideal) x1 (ix1 e) = (ReadP.val_main_v14 (F := Ideal) x1) (ix1 (Cert.Spec.row ((ReadP.val_main_v36 (F := Ideal) x1) (ix2 e 0)))) * (ReadP.val_main_v14 (F := Ideal) x1) (ix1 (Cert.Spec.row ((ReadP.val_main_v27 (F := Ideal) x1) (ix2 e 0)))) :=
  ref_norm gather_S50000_S1650000x1_S1650000_n_0_n_n_0_1_1_wf (ReadP.val_main_v14 (F := Ideal) x1) (ReadP.val_main_v36 (F := Ideal) x1) (ReadP.val_main_v27 (F := Ideal) x1) e

/-! ## The layers -/

/-! ### The layer writing `v46` -/

theorem dot_v30 (i : Fin 50000) (j : Fin 128) :
    ReadP.val_main_v30 (F := Ideal) x0 x3 (ix2 i j) = ∑ k : Fin 128, x0 (ix2 i k) * x3 (ix2 k j) := by
  rw [ReadP.val_main_v30_apply]
  refine Finset.sum_congr rfl (fun k _ => ?_)
  have hl : ReadP.lidx_main_v30 (ix2 i j) k = ix2 i k := funext fun a => by
    match a with
    | ⟨0, _⟩ => rfl
    | ⟨1, _⟩ => rfl
  have hr : ReadP.ridx_main_v30 (ix2 i j) k = ix2 k j := funext fun a => by
    match a with
    | ⟨0, _⟩ => rfl
    | ⟨1, _⟩ => rfl
  rw [hl, hr]

theorem nrm_v39 (e : Fin 1650000) (j : Fin 128) :
    ReadP.val_main_v39 (F := Ideal) x1 (ix2 e j) = (ReadP.val_main_v14 (F := Ideal) x1) (ix1 (Cert.Spec.row ((ReadP.val_main_v36 (F := Ideal) x1) (ix2 e 0)))) * (ReadP.val_main_v14 (F := Ideal) x1) (ix1 (Cert.Spec.row ((ReadP.val_main_v27 (F := Ideal) x1) (ix2 e 0)))) := by
  have hi : ReadP.idx_main_v38 (ReadP.idx_main_v39 (ix2 e j)) = ix1 e := funext fun a => by
    match a with
    | ⟨0, _⟩ => rfl
  rw [ReadP.val_main_v39_apply, ReadP.val_main_v38_apply, hi]
  exact nrm_v29 x1 e

theorem zero_v41 (y : (⟨2, ![50000, 128]⟩ : Shape).Idx) :
    ReadP.val_main_v41 (F := Ideal) y = Ideal.ofBits .f32 0x00000000#32 := by
  rw [ReadP.val_main_v41_apply]
  rfl

theorem bias_v45 (y : (⟨2, ![50000, 128]⟩ : Shape).Idx) :
    ReadP.val_main_v45 (F := Ideal) x4 y = x4 (ix1 (y 1)) := by
  have hi : ReadP.idx_main_v44 (ReadP.idx_main_v45 y) = ix1 (y 1) := funext fun a => by
    match a with
    | ⟨0, _⟩ => rfl
  rw [ReadP.val_main_v45_apply, ReadP.val_main_v44_apply, hi]
  rfl

/-- The layer writing `v46` is the graph convolution of its input with `x3` and bias `x4`. -/
theorem v46_eq :
    ReadP.val_main_v46 (F := Ideal) x0 x1 x3 x4 = Cert.Spec.gcn (ReadP.val_main_v36 (F := Ideal) x1) (ReadP.val_main_v27 (F := Ideal) x1) (ReadP.val_main_v42 (F := Ideal) x1) (ReadP.val_main_v14 (F := Ideal) x1) x0 x3 x4 :=
  ref_layer (K := 128) (C := 128) gather_S50000x128_S1650000x1_S1650000x128_1_0_n_n_0_1_1128_wf scatter_S50000x128_S1650000x1_S1650000x128_1_0_0_1_wf
    (ReadP.val_main_v36 (F := Ideal) x1) (ReadP.val_main_v27 (F := Ideal) x1) (ReadP.val_main_v42 (F := Ideal) x1) (ReadP.val_main_v14 (F := Ideal) x1) x0 x3 x4
    (ReadP.val_main_v30 (F := Ideal) x0 x3) (ReadP.val_main_v39 (F := Ideal) x1) (ReadP.val_main_v41 (F := Ideal)) (ReadP.val_main_v45 (F := Ideal) x4)
    (dot_v30 x0 x3) (nrm_v39 x1) (zero_v41) (bias_v45 x4)

/-! ### The layer writing `v63` -/

theorem dot_v47 (i : Fin 50000) (j : Fin 64) :
    ReadP.val_main_v47 (F := Ideal) x0 x1 x3 x4 x5 (ix2 i j) = ∑ k : Fin 128, (ReadP.val_main_v46 (F := Ideal) x0 x1 x3 x4) (ix2 i k) * x5 (ix2 k j) := by
  rw [ReadP.val_main_v47_apply]
  refine Finset.sum_congr rfl (fun k _ => ?_)
  have hl : ReadP.lidx_main_v47 (ix2 i j) k = ix2 i k := funext fun a => by
    match a with
    | ⟨0, _⟩ => rfl
    | ⟨1, _⟩ => rfl
  have hr : ReadP.ridx_main_v47 (ix2 i j) k = ix2 k j := funext fun a => by
    match a with
    | ⟨0, _⟩ => rfl
    | ⟨1, _⟩ => rfl
  rw [hl, hr]

theorem nrm_v56 (e : Fin 1650000) (j : Fin 64) :
    ReadP.val_main_v56 (F := Ideal) x1 (ix2 e j) = (ReadP.val_main_v14 (F := Ideal) x1) (ix1 (Cert.Spec.row ((ReadP.val_main_v36 (F := Ideal) x1) (ix2 e 0)))) * (ReadP.val_main_v14 (F := Ideal) x1) (ix1 (Cert.Spec.row ((ReadP.val_main_v27 (F := Ideal) x1) (ix2 e 0)))) := by
  have hi : ReadP.idx_main_v55 (ReadP.idx_main_v56 (ix2 e j)) = ix1 e := funext fun a => by
    match a with
    | ⟨0, _⟩ => rfl
  rw [ReadP.val_main_v56_apply, ReadP.val_main_v55_apply, hi]
  exact nrm_v29 x1 e

theorem zero_v58 (y : (⟨2, ![50000, 64]⟩ : Shape).Idx) :
    ReadP.val_main_v58 (F := Ideal) y = Ideal.ofBits .f32 0x00000000#32 := by
  rw [ReadP.val_main_v58_apply]
  rfl

theorem bias_v62 (y : (⟨2, ![50000, 64]⟩ : Shape).Idx) :
    ReadP.val_main_v62 (F := Ideal) x6 y = x6 (ix1 (y 1)) := by
  have hi : ReadP.idx_main_v61 (ReadP.idx_main_v62 y) = ix1 (y 1) := funext fun a => by
    match a with
    | ⟨0, _⟩ => rfl
  rw [ReadP.val_main_v62_apply, ReadP.val_main_v61_apply, hi]
  rfl

/-- The layer writing `v63` is the graph convolution of its input with `x5` and bias `x6`. -/
theorem v63_eq :
    ReadP.val_main_v63 (F := Ideal) x0 x1 x3 x4 x5 x6 = Cert.Spec.gcn (ReadP.val_main_v36 (F := Ideal) x1) (ReadP.val_main_v27 (F := Ideal) x1) (ReadP.val_main_v42 (F := Ideal) x1) (ReadP.val_main_v14 (F := Ideal) x1) (ReadP.val_main_v46 (F := Ideal) x0 x1 x3 x4) x5 x6 :=
  ref_layer (K := 128) (C := 64) gather_S50000x64_S1650000x1_S1650000x64_1_0_n_n_0_1_164_wf scatter_S50000x64_S1650000x1_S1650000x64_1_0_0_1_wf
    (ReadP.val_main_v36 (F := Ideal) x1) (ReadP.val_main_v27 (F := Ideal) x1) (ReadP.val_main_v42 (F := Ideal) x1) (ReadP.val_main_v14 (F := Ideal) x1) (ReadP.val_main_v46 (F := Ideal) x0 x1 x3 x4) x5 x6
    (ReadP.val_main_v47 (F := Ideal) x0 x1 x3 x4 x5) (ReadP.val_main_v56 (F := Ideal) x1) (ReadP.val_main_v58 (F := Ideal)) (ReadP.val_main_v62 (F := Ideal) x6)
    (dot_v47 x0 x1 x3 x4 x5) (nrm_v56 x1) (zero_v58) (bias_v62 x6)

/-! ### The layer writing `v80` -/

theorem dot_v64 (i : Fin 50000) (j : Fin 64) :
    ReadP.val_main_v64 (F := Ideal) x0 x1 x3 x4 x7 (ix2 i j) = ∑ k : Fin 128, (ReadP.val_main_v46 (F := Ideal) x0 x1 x3 x4) (ix2 i k) * x7 (ix2 k j) := by
  rw [ReadP.val_main_v64_apply]
  refine Finset.sum_congr rfl (fun k _ => ?_)
  have hl : ReadP.lidx_main_v64 (ix2 i j) k = ix2 i k := funext fun a => by
    match a with
    | ⟨0, _⟩ => rfl
    | ⟨1, _⟩ => rfl
  have hr : ReadP.ridx_main_v64 (ix2 i j) k = ix2 k j := funext fun a => by
    match a with
    | ⟨0, _⟩ => rfl
    | ⟨1, _⟩ => rfl
  rw [hl, hr]

theorem nrm_v73 (e : Fin 1650000) (j : Fin 64) :
    ReadP.val_main_v73 (F := Ideal) x1 (ix2 e j) = (ReadP.val_main_v14 (F := Ideal) x1) (ix1 (Cert.Spec.row ((ReadP.val_main_v36 (F := Ideal) x1) (ix2 e 0)))) * (ReadP.val_main_v14 (F := Ideal) x1) (ix1 (Cert.Spec.row ((ReadP.val_main_v27 (F := Ideal) x1) (ix2 e 0)))) := by
  have hi : ReadP.idx_main_v72 (ReadP.idx_main_v73 (ix2 e j)) = ix1 e := funext fun a => by
    match a with
    | ⟨0, _⟩ => rfl
  rw [ReadP.val_main_v73_apply, ReadP.val_main_v72_apply, hi]
  exact nrm_v29 x1 e

theorem zero_v75 (y : (⟨2, ![50000, 64]⟩ : Shape).Idx) :
    ReadP.val_main_v75 (F := Ideal) y = Ideal.ofBits .f32 0x00000000#32 := by
  rw [ReadP.val_main_v75_apply]
  rfl

theorem bias_v79 (y : (⟨2, ![50000, 64]⟩ : Shape).Idx) :
    ReadP.val_main_v79 (F := Ideal) x8 y = x8 (ix1 (y 1)) := by
  have hi : ReadP.idx_main_v78 (ReadP.idx_main_v79 y) = ix1 (y 1) := funext fun a => by
    match a with
    | ⟨0, _⟩ => rfl
  rw [ReadP.val_main_v79_apply, ReadP.val_main_v78_apply, hi]
  rfl

/-- The layer writing `v80` is the graph convolution of its input with `x7` and bias `x8`. -/
theorem v80_eq :
    ReadP.val_main_v80 (F := Ideal) x0 x1 x3 x4 x7 x8 = Cert.Spec.gcn (ReadP.val_main_v36 (F := Ideal) x1) (ReadP.val_main_v27 (F := Ideal) x1) (ReadP.val_main_v42 (F := Ideal) x1) (ReadP.val_main_v14 (F := Ideal) x1) (ReadP.val_main_v46 (F := Ideal) x0 x1 x3 x4) x7 x8 :=
  ref_layer (K := 128) (C := 64) gather_S50000x64_S1650000x1_S1650000x64_1_0_n_n_0_1_164_wf scatter_S50000x64_S1650000x1_S1650000x64_1_0_0_1_wf
    (ReadP.val_main_v36 (F := Ideal) x1) (ReadP.val_main_v27 (F := Ideal) x1) (ReadP.val_main_v42 (F := Ideal) x1) (ReadP.val_main_v14 (F := Ideal) x1) (ReadP.val_main_v46 (F := Ideal) x0 x1 x3 x4) x7 x8
    (ReadP.val_main_v64 (F := Ideal) x0 x1 x3 x4 x7) (ReadP.val_main_v73 (F := Ideal) x1) (ReadP.val_main_v75 (F := Ideal)) (ReadP.val_main_v79 (F := Ideal) x8)
    (dot_v64 x0 x1 x3 x4 x7) (nrm_v73 x1) (zero_v75) (bias_v79 x8)

/-! ### The reparameterization -/

theorem v85_eq :
    ReadP.val_main_v85 (F := Ideal) x0 x1 x2 x3 x4 x5 x6 x7 x8 = Cert.Spec.reparam x2 (ReadP.val_main_v63 (F := Ideal) x0 x1 x3 x4 x5 x6) (ReadP.val_main_v80 (F := Ideal) x0 x1 x3 x4 x7 x8) := by
  funext y
  rw [ReadP.val_main_v85_apply, ReadP.val_main_v84_apply, ReadP.val_main_v83_apply, ReadP.val_main_v82_apply,
    ReadP.val_main_v81_apply, ReadP.val_main_cst_15_apply, Ideal.ofBits_def, Ideal.hostUnary_exp_def]
  show x2 y * Ideal.exp (Ideal.ofBits .f32 0x3F000000#32 * _) + _ = _
  rfl

/-! ### The layer writing `v102` -/

theorem dot_v86 (i : Fin 50000) (j : Fin 128) :
    ReadP.val_main_v86 (F := Ideal) x0 x1 x2 x3 x4 x5 x6 x7 x8 x9 (ix2 i j) = ∑ k : Fin 64, (ReadP.val_main_v85 (F := Ideal) x0 x1 x2 x3 x4 x5 x6 x7 x8) (ix2 i k) * x9 (ix2 k j) := by
  rw [ReadP.val_main_v86_apply]
  refine Finset.sum_congr rfl (fun k _ => ?_)
  have hl : ReadP.lidx_main_v86 (ix2 i j) k = ix2 i k := funext fun a => by
    match a with
    | ⟨0, _⟩ => rfl
    | ⟨1, _⟩ => rfl
  have hr : ReadP.ridx_main_v86 (ix2 i j) k = ix2 k j := funext fun a => by
    match a with
    | ⟨0, _⟩ => rfl
    | ⟨1, _⟩ => rfl
  rw [hl, hr]

theorem nrm_v95 (e : Fin 1650000) (j : Fin 128) :
    ReadP.val_main_v95 (F := Ideal) x1 (ix2 e j) = (ReadP.val_main_v14 (F := Ideal) x1) (ix1 (Cert.Spec.row ((ReadP.val_main_v36 (F := Ideal) x1) (ix2 e 0)))) * (ReadP.val_main_v14 (F := Ideal) x1) (ix1 (Cert.Spec.row ((ReadP.val_main_v27 (F := Ideal) x1) (ix2 e 0)))) := by
  have hi : ReadP.idx_main_v94 (ReadP.idx_main_v95 (ix2 e j)) = ix1 e := funext fun a => by
    match a with
    | ⟨0, _⟩ => rfl
  rw [ReadP.val_main_v95_apply, ReadP.val_main_v94_apply, hi]
  exact nrm_v29 x1 e

theorem zero_v97 (y : (⟨2, ![50000, 128]⟩ : Shape).Idx) :
    ReadP.val_main_v97 (F := Ideal) y = Ideal.ofBits .f32 0x00000000#32 := by
  rw [ReadP.val_main_v97_apply]
  rfl

theorem bias_v101 (y : (⟨2, ![50000, 128]⟩ : Shape).Idx) :
    ReadP.val_main_v101 (F := Ideal) x10 y = x10 (ix1 (y 1)) := by
  have hi : ReadP.idx_main_v100 (ReadP.idx_main_v101 y) = ix1 (y 1) := funext fun a => by
    match a with
    | ⟨0, _⟩ => rfl
  rw [ReadP.val_main_v101_apply, ReadP.val_main_v100_apply, hi]
  rfl

/-- The layer writing `v102` is the graph convolution of its input with `x9` and bias `x10`. -/
theorem v102_eq :
    ReadP.val_main_v102 (F := Ideal) x0 x1 x2 x3 x4 x5 x6 x7 x8 x9 x10 = Cert.Spec.gcn (ReadP.val_main_v36 (F := Ideal) x1) (ReadP.val_main_v27 (F := Ideal) x1) (ReadP.val_main_v42 (F := Ideal) x1) (ReadP.val_main_v14 (F := Ideal) x1) (ReadP.val_main_v85 (F := Ideal) x0 x1 x2 x3 x4 x5 x6 x7 x8) x9 x10 :=
  ref_layer (K := 64) (C := 128) gather_S50000x128_S1650000x1_S1650000x128_1_0_n_n_0_1_1128_wf scatter_S50000x128_S1650000x1_S1650000x128_1_0_0_1_wf
    (ReadP.val_main_v36 (F := Ideal) x1) (ReadP.val_main_v27 (F := Ideal) x1) (ReadP.val_main_v42 (F := Ideal) x1) (ReadP.val_main_v14 (F := Ideal) x1) (ReadP.val_main_v85 (F := Ideal) x0 x1 x2 x3 x4 x5 x6 x7 x8) x9 x10
    (ReadP.val_main_v86 (F := Ideal) x0 x1 x2 x3 x4 x5 x6 x7 x8 x9) (ReadP.val_main_v95 (F := Ideal) x1) (ReadP.val_main_v97 (F := Ideal)) (ReadP.val_main_v101 (F := Ideal) x10)
    (dot_v86 x0 x1 x2 x3 x4 x5 x6 x7 x8 x9) (nrm_v95 x1) (zero_v97) (bias_v101 x10)

/-! ### The layer writing `v119` -/

theorem dot_v103 (i : Fin 50000) (j : Fin 128) :
    ReadP.val_main_v103 (F := Ideal) x0 x1 x2 x3 x4 x5 x6 x7 x8 x9 x10 x11 (ix2 i j) = ∑ k : Fin 128, (ReadP.val_main_v102 (F := Ideal) x0 x1 x2 x3 x4 x5 x6 x7 x8 x9 x10) (ix2 i k) * x11 (ix2 k j) := by
  rw [ReadP.val_main_v103_apply]
  refine Finset.sum_congr rfl (fun k _ => ?_)
  have hl : ReadP.lidx_main_v103 (ix2 i j) k = ix2 i k := funext fun a => by
    match a with
    | ⟨0, _⟩ => rfl
    | ⟨1, _⟩ => rfl
  have hr : ReadP.ridx_main_v103 (ix2 i j) k = ix2 k j := funext fun a => by
    match a with
    | ⟨0, _⟩ => rfl
    | ⟨1, _⟩ => rfl
  rw [hl, hr]

theorem nrm_v112 (e : Fin 1650000) (j : Fin 128) :
    ReadP.val_main_v112 (F := Ideal) x1 (ix2 e j) = (ReadP.val_main_v14 (F := Ideal) x1) (ix1 (Cert.Spec.row ((ReadP.val_main_v36 (F := Ideal) x1) (ix2 e 0)))) * (ReadP.val_main_v14 (F := Ideal) x1) (ix1 (Cert.Spec.row ((ReadP.val_main_v27 (F := Ideal) x1) (ix2 e 0)))) := by
  have hi : ReadP.idx_main_v111 (ReadP.idx_main_v112 (ix2 e j)) = ix1 e := funext fun a => by
    match a with
    | ⟨0, _⟩ => rfl
  rw [ReadP.val_main_v112_apply, ReadP.val_main_v111_apply, hi]
  exact nrm_v29 x1 e

theorem zero_v114 (y : (⟨2, ![50000, 128]⟩ : Shape).Idx) :
    ReadP.val_main_v114 (F := Ideal) y = Ideal.ofBits .f32 0x00000000#32 := by
  rw [ReadP.val_main_v114_apply]
  rfl

theorem bias_v118 (y : (⟨2, ![50000, 128]⟩ : Shape).Idx) :
    ReadP.val_main_v118 (F := Ideal) x12 y = x12 (ix1 (y 1)) := by
  have hi : ReadP.idx_main_v117 (ReadP.idx_main_v118 y) = ix1 (y 1) := funext fun a => by
    match a with
    | ⟨0, _⟩ => rfl
  rw [ReadP.val_main_v118_apply, ReadP.val_main_v117_apply, hi]
  rfl

/-- The layer writing `v119` is the graph convolution of its input with `x11` and bias `x12`. -/
theorem v119_eq :
    ReadP.val_main_v119 (F := Ideal) x0 x1 x2 x3 x4 x5 x6 x7 x8 x9 x10 x11 x12 = Cert.Spec.gcn (ReadP.val_main_v36 (F := Ideal) x1) (ReadP.val_main_v27 (F := Ideal) x1) (ReadP.val_main_v42 (F := Ideal) x1) (ReadP.val_main_v14 (F := Ideal) x1) (ReadP.val_main_v102 (F := Ideal) x0 x1 x2 x3 x4 x5 x6 x7 x8 x9 x10) x11 x12 :=
  ref_layer (K := 128) (C := 128) gather_S50000x128_S1650000x1_S1650000x128_1_0_n_n_0_1_1128_wf scatter_S50000x128_S1650000x1_S1650000x128_1_0_0_1_wf
    (ReadP.val_main_v36 (F := Ideal) x1) (ReadP.val_main_v27 (F := Ideal) x1) (ReadP.val_main_v42 (F := Ideal) x1) (ReadP.val_main_v14 (F := Ideal) x1) (ReadP.val_main_v102 (F := Ideal) x0 x1 x2 x3 x4 x5 x6 x7 x8 x9 x10) x11 x12
    (ReadP.val_main_v103 (F := Ideal) x0 x1 x2 x3 x4 x5 x6 x7 x8 x9 x10 x11) (ReadP.val_main_v112 (F := Ideal) x1) (ReadP.val_main_v114 (F := Ideal)) (ReadP.val_main_v118 (F := Ideal) x12)
    (dot_v103 x0 x1 x2 x3 x4 x5 x6 x7 x8 x9 x10 x11) (nrm_v112 x1) (zero_v114) (bias_v118 x12)

end Cert.ReferenceIdeal.RefValue

end
-- ==== Proof.KValue.lean ====
/-
  The idealized kernel program's four results are the reference's: each kernel layer — rows pre-scaled by the per-node
  factor, gathered and summed over the edges into a node, post-scaled and biased — is the graph convolution with the
  per-edge symmetric factor, because the factor is nonnegative and never +∞; the fused 128-wide mean / log-variance layer
  sliced in two is the two 64-wide layers.
-/
import proofs.«100823_j26800595927067_2_alg».proof.Proof.KChainB
import proofs.«100823_j26800595927067_2_alg».proof.Proof.KLayer
import proofs.«100823_j26800595927067_2_alg».proof.Proof.KMl
import proofs.«100823_j26800595927067_2_alg».proof.Proof.RefValue
import Idealize.ShloMosaic.Lib.ValueLayout

set_option maxRecDepth 16384

noncomputable section

namespace Cert.KernelIdeal.KValue

open Idealize.ShloMosaic Idealize.ShloMosaic.TcCoe Idealize.ShloMosaic.ValueIdx Idealize.SL.Sem Idealize.ShloMosaic.GatherScatter
open Cert.KernelIdeal Cert.KernelIdeal.Gen Cert.KernelIdeal.Chain
open Cert.ReferenceIdeal (ReadP.val_main_v3 ReadP.val_main_v6 ReadP.val_main_v14 ReadP.val_main_v36 ReadP.val_main_v27 ReadP.val_main_v42 ReadP.val_main_v46 ReadP.val_main_v63 ReadP.val_main_v80 ReadP.val_main_v85 ReadP.val_main_v102 ReadP.val_main_v119)

variable (x1 : (⟨S2x1600000, .i32⟩ : BufTy).Contents (Elt Ideal))

/-- The per-node factor as a column, read at row r. -/
theorem d2_apply (r : Fin 50000) : (broadcastInDim S50000x1 ![0] bcast_S50000_S50000x1_0 (ReadP.val_main_v14 (F := Ideal) x1)) (ix2 r (0 : Fin 1)) = (ReadP.val_main_v14 (F := Ideal) x1) (ix1 r) := by
  refine broadcastInDim_apply _ _ _ (ix2 r (0 : Fin 1)) (ix1 r) fun a => ?_
  match a with
  | ⟨0, _⟩ => rfl

/-- A bias as a row, read at column j. -/
theorem brow_apply (b : (⟨S128, .f32⟩ : BufTy).Contents (Elt Ideal)) (j : Fin 128) :
    shapeCast S1x128 b shapeCasts_S128_S1x128 (ix2 (0 : Fin 1) j) = b (ix1 j) :=
  shapeCast_a_1a_apply b shapeCasts_S128_S1x128 (0 : Fin 1) j

/-- The wrapped source indices as an index column: the reference's. -/
theorem sn_eq : (broadcastInDim S1650000x1 ![0] bcast_S1650000_S1650000x1_0 (select (cmpi .slt (ReadP.val_main_v3 (F := Ideal) x1) (broadcastInDim S1650000 ![] bcast_S_S1650000 (constantI S_ 32 0#32))) (addi (ReadP.val_main_v3 (F := Ideal) x1) (broadcastInDim S1650000 ![] bcast_S_S1650000 (constantI S_ 32 50000#32))) (ReadP.val_main_v3 (F := Ideal) x1))) = (ReadP.val_main_v36 (F := Ideal) x1) := rfl

/-- The destination indices as an index column: the reference's. -/
theorem dd_eq : (broadcastInDim S1650000x1 ![0] bcast_S1650000_S1650000x1_0 (ReadP.val_main_v6 (F := Ideal) x1)) = (ReadP.val_main_v42 (F := Ideal) x1) := rfl

/-- The gather and accumulating scatter of a layer, over the reference's index columns. -/
theorem agg_eq (h : (⟨S50000x128, .f32⟩ : BufTy).Contents (Elt Ideal)) :
    agg (ReadP.val_main_v3 (F := Ideal) x1) (ReadP.val_main_v6 (F := Ideal) x1) h = Ideal.hostScatterAdd (rowScatterDims 50000 128 1650000 scatter_S50000x128_S1650000x1_S1650000x128_1_0_0_1.wf) (broadcastInDim S50000x128 ![] bcast_S_S50000x128 (constant (F := Ideal) S_ .f32 0x00000000#32)) (ReadP.val_main_v42 (F := Ideal) x1)
      (Host.gather (rowGatherDims 50000 128 1650000 gather_S50000x128_S1650000x1_S1650000x128_1_0_n_n_0_1_1128.wf) h (ReadP.val_main_v36 (F := Ideal) x1)) := by
  unfold agg
  rw [sn_eq, dd_eq]
  rfl

/-- ONE KERNEL LAYER IS THE GRAPH CONVOLUTION: pre-scale, gather, sum into the node, post-scale, bias. -/
theorem layer_aux {K : ℕ} (x : (⟨2, ![50000, K]⟩ : Shape).Idx → EReal) (W : (⟨2, ![K, 128]⟩ : Shape).Idx → EReal)
    (b : (⟨S128, .f32⟩ : BufTy).Contents (Elt Ideal)) :
    Regions.epiG (Ideal.hostScatterAdd (rowScatterDims 50000 128 1650000 scatter_S50000x128_S1650000x1_S1650000x128_1_0_0_1.wf) (broadcastInDim S50000x128 ![] bcast_S_S50000x128 (constant (F := Ideal) S_ .f32 0x00000000#32)) (ReadP.val_main_v42 (F := Ideal) x1)
      (Host.gather (rowGatherDims 50000 128 1650000 gather_S50000x128_S1650000x1_S1650000x128_1_0_n_n_0_1_1128.wf) (Regions.linG (K := K) x W (broadcastInDim S50000x1 ![0] bcast_S50000_S50000x1_0 (ReadP.val_main_v14 (F := Ideal) x1))) (ReadP.val_main_v36 (F := Ideal) x1))) (broadcastInDim S50000x1 ![0] bcast_S50000_S50000x1_0 (ReadP.val_main_v14 (F := Ideal) x1)) (shapeCast S1x128 b shapeCasts_S128_S1x128)
      = Cert.Spec.gcn (ReadP.val_main_v36 (F := Ideal) x1) (ReadP.val_main_v27 (F := Ideal) x1) (ReadP.val_main_v42 (F := Ideal) x1) (ReadP.val_main_v14 (F := Ideal) x1) x W b := by
  have h4 := Cert.KernelIdeal.Layer.kern_layer_eq_gcn (K := K) scatter_S50000x128_S1650000x1_S1650000x128_1_0_0_1.wf gather_S50000x128_S1650000x1_S1650000x128_1_0_n_n_0_1_1128.wf (ReadP.val_main_v36 (F := Ideal) x1) (ReadP.val_main_v27 (F := Ideal) x1) (ReadP.val_main_v42 (F := Ideal) x1) (ReadP.val_main_v14 (F := Ideal) x1)
    (fun n => (Cert.ReferenceIdeal.RefValue.dv_nonneg_ne_top x1 n).1) (fun n => (Cert.ReferenceIdeal.RefValue.dv_nonneg_ne_top x1 n).2)
    (fun i e he => Cert.ReferenceIdeal.RefValue.row_dst_of_into x1 i e he)
  have h5a := h4 (broadcastInDim S50000x1 ![0] bcast_S50000_S50000x1_0 (ReadP.val_main_v14 (F := Ideal) x1))
  have t : ∀ r : Fin 50000, ((broadcastInDim S50000x1 ![0] bcast_S50000_S50000x1_0 (ReadP.val_main_v14 (F := Ideal) x1)) : (⟨2, ![50000, 1]⟩ : Shape).Idx → EReal) (ix2 r (0 : Fin 1))
      = ((ReadP.val_main_v14 (F := Ideal) x1) : (⟨1, ![50000]⟩ : Shape).Idx → EReal) (ix1 r) := d2_apply x1
  have h5 := h5a t
  have h6a := h5 (broadcastInDim S50000x128 ![] bcast_S_S50000x128 (constant (F := Ideal) S_ .f32 0x00000000#32))
  have hz : ∀ y, ((broadcastInDim S50000x128 ![] bcast_S_S50000x128 (constant (F := Ideal) S_ .f32 0x00000000#32)) : (⟨2, ![50000, 128]⟩ : Shape).Idx → EReal) y = Ideal.ofBits .f32 0x00000000#32 := fun _ => rfl
  have h6 := h6a hz
  have h7a := h6 x W (shapeCast S1x128 b shapeCasts_S128_S1x128) b
  have hb : ∀ j : Fin 128, (shapeCast S1x128 b shapeCasts_S128_S1x128 : (⟨2, ![1, 128]⟩ : Shape).Idx → EReal) (ix2 (0 : Fin 1) j)
      = (b : (⟨1, ![128]⟩ : Shape).Idx → EReal) (ix1 j) := brow_apply b
  exact h7a hb

theorem layer_eq {K : ℕ} (x : (⟨2, ![50000, K]⟩ : Shape).Idx → EReal) (W : (⟨2, ![K, 128]⟩ : Shape).Idx → EReal)
    (b : (⟨S128, .f32⟩ : BufTy).Contents (Elt Ideal)) :
    Regions.epiG (agg (ReadP.val_main_v3 (F := Ideal) x1) (ReadP.val_main_v6 (F := Ideal) x1) (Regions.linG (K := K) x W (broadcastInDim S50000x1 ![0] bcast_S50000_S50000x1_0 (ReadP.val_main_v14 (F := Ideal) x1)))) (broadcastInDim S50000x1 ![0] bcast_S50000_S50000x1_0 (ReadP.val_main_v14 (F := Ideal) x1)) (shapeCast S1x128 b shapeCasts_S128_S1x128)
      = Cert.Spec.gcn (ReadP.val_main_v36 (F := Ideal) x1) (ReadP.val_main_v27 (F := Ideal) x1) (ReadP.val_main_v42 (F := Ideal) x1) (ReadP.val_main_v14 (F := Ideal) x1) x W b := by
  rw [agg_eq]
  exact layer_aux x1 x W b

variable (m : (ℓ : Loc nD τ sig) → Buf (Elt Ideal) ℓ) (c : Dev nD)

/-- The encoder layer's output is the reference's. -/
theorem k_H1 : kH1 m c = (ReadP.val_main_v46 (F := Ideal) (m ((c : Thread nD τ).loc main_arg0)) (m ((c : Thread nD τ).loc main_arg1)) (m ((c : Thread nD τ).loc main_arg3)) (m ((c : Thread nD τ).loc main_arg4))) := by
  unfold kH1
  exact (layer_eq (m ((c : Thread nD τ).loc main_arg1)) (m ((c : Thread nD τ).loc main_arg0)) (m ((c : Thread nD τ).loc main_arg3)) (m ((c : Thread nD τ).loc main_arg4))).trans (Cert.ReferenceIdeal.RefValue.v46_eq (m ((c : Thread nD τ).loc main_arg0)) (m ((c : Thread nD τ).loc main_arg1)) (m ((c : Thread nD τ).loc main_arg3)) (m ((c : Thread nD τ).loc main_arg4))).symm

/-- The fused layer is one 128-wide graph convolution of the encoder's output. -/
theorem k_ML : kML m c = Cert.Spec.gcn (ReadP.val_main_v36 (F := Ideal) (m ((c : Thread nD τ).loc main_arg1))) (ReadP.val_main_v27 (F := Ideal) (m ((c : Thread nD τ).loc main_arg1))) (ReadP.val_main_v42 (F := Ideal) (m ((c : Thread nD τ).loc main_arg1))) (ReadP.val_main_v14 (F := Ideal) (m ((c : Thread nD τ).loc main_arg1))) (ReadP.val_main_v46 (F := Ideal) (m ((c : Thread nD τ).loc main_arg0)) (m ((c : Thread nD τ).loc main_arg1)) (m ((c : Thread nD τ).loc main_arg3)) (m ((c : Thread nD τ).loc main_arg4))) (concatenate S128x128 1 [⟨S128x64, (m ((c : Thread nD τ).loc main_arg5))⟩, ⟨S128x64, (m ((c : Thread nD τ).loc main_arg7))⟩] concatenates_S128x64_S128x64_S128x128_d1) (concatenate S128 0 [⟨S64, (m ((c : Thread nD τ).loc main_arg6))⟩, ⟨S64, (m ((c : Thread nD τ).loc main_arg8))⟩] concatenates_S64_S64_S128_d0) := by
  unfold kML
  rw [k_H1]
  exact layer_eq (m ((c : Thread nD τ).loc main_arg1)) _ (concatenate S128x128 1 [⟨S128x64, (m ((c : Thread nD τ).loc main_arg5))⟩, ⟨S128x64, (m ((c : Thread nD τ).loc main_arg7))⟩] concatenates_S128x64_S128x64_S128x128_d1) (concatenate S128 0 [⟨S64, (m ((c : Thread nD τ).loc main_arg6))⟩, ⟨S64, (m ((c : Thread nD τ).loc main_arg8))⟩] concatenates_S64_S64_S128_d0)

/-- Its first 64 columns are the reference's mean layer. -/
theorem k_mean : kMean m c = ReadP.val_main_v63 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  unfold kMean
  rw [k_ML]
  exact (Cert.KernelIdeal.Ml.ml_mean (ReadP.val_main_v36 (F := Ideal) (m ((c : Thread nD τ).loc main_arg1))) (ReadP.val_main_v27 (F := Ideal) (m ((c : Thread nD τ).loc main_arg1))) (ReadP.val_main_v42 (F := Ideal) (m ((c : Thread nD τ).loc main_arg1))) (ReadP.val_main_v14 (F := Ideal) (m ((c : Thread nD τ).loc main_arg1))) (ReadP.val_main_v46 (F := Ideal) (m ((c : Thread nD τ).loc main_arg0)) (m ((c : Thread nD τ).loc main_arg1)) (m ((c : Thread nD τ).loc main_arg3)) (m ((c : Thread nD τ).loc main_arg4))) (m ((c : Thread nD τ).loc main_arg5)) (m ((c : Thread nD τ).loc main_arg7)) (m ((c : Thread nD τ).loc main_arg6)) (m ((c : Thread nD τ).loc main_arg8)) concatenates_S128x64_S128x64_S128x128_d1 concatenates_S64_S64_S128_d0 slices_S50000x128_S50000x64_0_0).trans
    (Cert.ReferenceIdeal.RefValue.v63_eq (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))).symm

/-- Its last 64 columns are the reference's log-variance layer. -/
theorem k_lv : kLV m c = ReadP.val_main_v80 (F := Ideal) (m ((c : Thread nD τ).loc main_arg0)) (m ((c : Thread nD τ).loc main_arg1)) (m ((c : Thread nD τ).loc main_arg3)) (m ((c : Thread nD τ).loc main_arg4)) (m ((c : Thread nD τ).loc main_arg7)) (m ((c : Thread nD τ).loc main_arg8)) := by
  unfold kLV
  rw [k_ML]
  exact (Cert.KernelIdeal.Ml.ml_logvar (ReadP.val_main_v36 (F := Ideal) (m ((c : Thread nD τ).loc main_arg1))) (ReadP.val_main_v27 (F := Ideal) (m ((c : Thread nD τ).loc main_arg1))) (ReadP.val_main_v42 (F := Ideal) (m ((c : Thread nD τ).loc main_arg1))) (ReadP.val_main_v14 (F := Ideal) (m ((c : Thread nD τ).loc main_arg1))) (ReadP.val_main_v46 (F := Ideal) (m ((c : Thread nD τ).loc main_arg0)) (m ((c : Thread nD τ).loc main_arg1)) (m ((c : Thread nD τ).loc main_arg3)) (m ((c : Thread nD τ).loc main_arg4))) (m ((c : Thread nD τ).loc main_arg5)) (m ((c : Thread nD τ).loc main_arg7)) (m ((c : Thread nD τ).loc main_arg6)) (m ((c : Thread nD τ).loc main_arg8)) concatenates_S128x64_S128x64_S128x128_d1 concatenates_S64_S64_S128_d0 slices_S50000x128_S50000x64_0_64).trans
    (Cert.ReferenceIdeal.RefValue.v80_eq (m ((c : Thread nD τ).loc main_arg0)) (m ((c : Thread nD τ).loc main_arg1)) (m ((c : Thread nD τ).loc main_arg3)) (m ((c : Thread nD τ).loc main_arg4)) (m ((c : Thread nD τ).loc main_arg7)) (m ((c : Thread nD τ).loc main_arg8))).symm

/-- The latent sample is the reference's. -/
theorem k_z : kZ m c = ReadP.val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  unfold kZ
  rw [k_mean, k_lv]
  exact (Cert.KernelIdeal.Layer.repG_eq_reparam _ _ _).trans (Cert.ReferenceIdeal.RefValue.v85_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))).symm

/-- The first decoder layer's output is the reference's. -/
theorem k_hd : kHD m c = ReadP.val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  unfold kHD
  rw [k_z]
  exact (layer_eq (m ((c : Thread nD τ).loc main_arg1)) _ (m ((c : Thread nD τ).loc main_arg9)) (m ((c : Thread nD τ).loc main_arg10))).trans (Cert.ReferenceIdeal.RefValue.v102_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))).symm

/-- The second decoder layer's output is the reference's. -/
theorem k_out : kOUT m c = ReadP.val_main_v119 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  unfold kOUT
  rw [k_hd]
  exact (layer_eq (m ((c : Thread nD τ).loc main_arg1)) _ (m ((c : Thread nD τ).loc main_arg11)) (m ((c : Thread nD τ).loc main_arg12))).trans (Cert.ReferenceIdeal.RefValue.v119_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))).symm

end Cert.KernelIdeal.KValue

end
-- ==== Proof.lean ====
/-
  A five-layer graph network (an encoder layer, a mean and a log-variance layer, a reparameterization, two decoder
  layers) whose layers are graph convolutions with symmetric normalisation d[src]·d[dst] over an edge list with self loops,
  d the reciprocal square root of the degree.

  The kernel program computes a layer as: scale row r of x by d[r] and multiply by W (a tiled call); gather the rows at
  the source indices and add them into the destination nodes (host gather and accumulating scatter); scale row i by d[i]
  and add the bias (a tiled call). It fuses the mean and log-variance layers into one 128-wide layer and slices the result.
  The reference multiplies every gathered message by d[src]·d[dst] before the scatter. On the extended reals the two agree
  with no finiteness assumption on the data, because d is nonnegative and never +∞ — the reciprocal square root of a
  positive extended real, or zero — so multiplication by it distributes over the sums (Proof/LibNonnegScale.lean), and
  because an edge whose message lands on node i has destination index i, so the factor gathered at its destination is d[i].

  The modules: the kernel calls' bodies at an index (KPay), each call as a whole-array function (KReg0 … KReg8), the
  program's buffers boundary by boundary (KRun, KChainA, KChainB), a kernel layer as a graph convolution (KLayer, KMl,
  KValue), the reference's run and its layers (RunP, ReadP, RefValue), gather and scatter read at an index
  (LibGatherScatter), the common specification (Spec).
-/
import proofs.«100823_j26800595927067_2_alg».proof.Defs
import proofs.«100823_j26800595927067_2_alg».proof.Proof.Gen.Kernel
import proofs.«100823_j26800595927067_2_alg».proof.Proof.Gen.Kernel.Frame
import proofs.«100823_j26800595927067_2_alg».proof.Proof.Gen.KernelIdeal
import proofs.«100823_j26800595927067_2_alg».proof.Proof.Gen.KernelIdeal.Frame
import proofs.«100823_j26800595927067_2_alg».proof.Proof.Gen.ReferenceIdeal
import proofs.«100823_j26800595927067_2_alg».proof.Proof.Gen.Pre_finite_inputs
import proofs.«100823_j26800595927067_2_alg».proof.Proof.KRun
import proofs.«100823_j26800595927067_2_alg».proof.Proof.KChainB
import proofs.«100823_j26800595927067_2_alg».proof.Proof.KValue
import proofs.«100823_j26800595927067_2_alg».proof.Proof.RunP
import proofs.«100823_j26800595927067_2_alg».proof.Proof.ReadP
import Idealize.ShloMosaic.Adequacy
import Idealize.ShloMosaic.Init

set_option maxRecDepth 16384

noncomputable section

namespace Cert.Proof

open Idealize.ShloMosaic Idealize.ShloMosaic.TcCoe Idealize.SL.Sem

/-- The reference's frame: its run with the four results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2.2) (Cert.ReferenceIdeal.ValueP.run (F := Ideal) m ρ)

set_option maxHeartbeats 4000000 in
/-- Both programs end with the latent sample, the mean, the log-variance and the reconstruction at the reference's
    functions of the argument arrays: the kernel's by the chain of its boundaries and the layer identity, the
    reference's by its run. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.ReferenceIdeal.ReadP.val_main_v85 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => Cert.ReferenceIdeal.ReadP.val_main_v63 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.ReferenceIdeal.ReadP.val_main_v80 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => Cert.ReferenceIdeal.ReadP.val_main_v119 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · refine (θ_run Cert.KernelIdeal.defs _ _).mono (fun r h c => ?_) (Cert.KernelIdeal.Gen.run_named m ρ)
    obtain ⟨h48, h46, h47, h72, hargs⟩ := h c
    exact ⟨h48.trans ((Cert.KernelIdeal.Chain.at18_v48 m ρ c).trans (Cert.KernelIdeal.KValue.k_z m c)),
      h46.trans ((Cert.KernelIdeal.Chain.at18_v46 m ρ c).trans (Cert.KernelIdeal.KValue.k_mean m c)),
      h47.trans ((Cert.KernelIdeal.Chain.at18_v47 m ρ c).trans (Cert.KernelIdeal.KValue.k_lv m c)),
      h72.trans ((Cert.KernelIdeal.Chain.at18_v72 m ρ c).trans (Cert.KernelIdeal.KValue.k_out m c)), hargs⟩
  · refine (θ_run Cert.ReferenceIdeal.defs _ _).mono (fun r h c => ?_) (Cert.ReferenceIdeal.ValueP.run (F := Ideal) m' ρ')
    obtain ⟨h85, h63, h80, h119, hargs⟩ := h c
    obtain ⟨a0, a1, a2, a3, a4, a5, a6, a7, a8, a9, a10, a11, a12⟩ := hagree c
    refine ⟨h85.trans ((Cert.ReferenceIdeal.ReadP.val_main_v85_eq m' c).trans ?_), h63.trans ((Cert.ReferenceIdeal.ReadP.val_main_v63_eq m' c).trans ?_),
      h80.trans ((Cert.ReferenceIdeal.ReadP.val_main_v80_eq m' c).trans ?_), h119.trans ((Cert.ReferenceIdeal.ReadP.val_main_v119_eq m' c).trans ?_), hargs⟩
    · rw [a0, a1, a2, a3, a4, a5, a6, a7, a8]
    · rw [a0, a1, a3, a4, a5, a6]
    · rw [a0, a1, a3, a4, a7, a8]
    · rw [a0, a1, a2, a3, a4, a5, a6, a7, a8, a9, a10, a11, a12]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, frame_ri, trivial, algebraic⟩

end Cert.Proof

end
